-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x128 : Shape := ⟨2, ![1024, 128]⟩
abbrev S384x128 : Shape := ⟨2, ![384, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S1024x128 : S_.BroadcastsInDim S1024x128 (![] : Fin 0 → Fin S1024x128.rank)
  reducesTo_S1024x128_S_d0_1 : S1024x128.ReducesTo [0, 1] S_
  h_S_ : 0 < S_.numel
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S128x1 .f32) (main_arg5 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x1 .f32 := Host.absf main_arg4
  let main_cst_6 : FVec F S_ .f32 := constant S_ .f32 0x7F800000#32
  let main_v20 : FVec F S128x1 .f32 := broadcastInDim S128x1 ![] bcast_S_S128x1 main_cst_6
  let main_v21 : IVec S128x1 1 := cmpf .olt main_v19 main_v20
  let main_c_7 : IVec S_ 1 := constantI S_ 1 1#1
  let main_v22 : IVec S_ 1 := (fun x v => Host.reduce IntOp.andi x v reducesTo_S128x1_S_d0_1 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S1024x128 .f32) (main_arg1 : FVec F S1024x128 .f32) (main_arg2 : FVec F S384x128 .f32) (main_arg3 : FVec F S128 .f32) (main_arg4 : FVec F S128x1 .f32) (main_arg5 : FVec F S1 .f32) : IVec S_ 1 :=
  let main_v0 : FVec F S1024x128 .f32 := Host.absf main_arg0
  let main_cst : FVec F S_ .f32 := constant S_ .f32 0x7F800000#32
  let main_v1 : FVec F S1024x128 .f32 := broadcastInDim S1024x128 ![] bcast_S_S1024x128 main_cst
  let main_v2 : IVec S1024x128 1 := cmpf .olt main_v0 main_v1
  let main_c : IVec S_ 1 := constantI S_ 1 1#1
  let main_v3 : IVec S_ 1 := (fun x v => Host.reduce IntOp.andi x v reducesTo_S1024x128_S_d0_1 h_S_) main_v2 main_c
  let main_v4 : FVec F S1024x128 .f32 := Host.absf main_arg1
  let main_cst_0 : FVec F S_ .f32 := constant S_ .f32 0x7F800000#32
  let main_v5 : FVec F S1024x128 .f32 := broadcastInDim S1024x128 ![] bcast_S_S1024x128 main_cst_0
  let main_v6 : IVec S1024x128 1 := cmpf .olt main_v4 main_v5
  let main_c_1 : IVec S_ 1 := constantI S_ 1 1#1
  let main_v7 : IVec S_ 1 := (fun x v => Host.reduce IntOp.andi x v reducesTo_S1024x128_S_d0_1 h_S_) main_v6 main_c_1
  let main_v8 : IVec S_ 1 := andi main_v3 main_v7
  let main_v9 : FVec F S384x128 .f32 := Host.absf main_arg2
  let main_cst_2 : FVec F S_ .f32 := constant S_ .f32 0x7F800000#32
  let main_v10 : FVec F S384x128 .f32 := broadcastInDim S384x128 ![] bcast_S_S384x128 main_cst_2
  let main_v11 : IVec S384x128 1 := cmpf .olt main_v9 main_v10
  let main_c_3 : IVec S_ 1 := constantI S_ 1 1#1
  let main_v12 : IVec S_ 1 := (fun x v => Host.reduce IntOp.andi x v reducesTo_S384x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S1024x128 : Shape := ⟨2, ![1024, 128]⟩
abbrev S384x128 : Shape := ⟨2, ![384, 128]⟩
abbrev S128 : Shape := ⟨1, ![128]⟩
abbrev S128x1 : Shape := ⟨2, ![128, 1]⟩
abbrev S1 : Shape := ⟨1, ![1]⟩
abbrev S128x128 : Shape := ⟨2, ![128, 128]⟩
abbrev S1024x1024 : Shape := ⟨2, ![1024, 1024]⟩
abbrev S128x1x128 : Shape := ⟨3, ![128, 1, 128]⟩
abbrev S1x128x128 : Shape := ⟨3, ![1, 128, 128]⟩
abbrev S128x128x128 : Shape := ⟨3, ![128, 128, 128]⟩
abbrev S1x1x128 : Shape := ⟨3, ![1, 1, 128]⟩

abbrev nBuf : Space → Nat
  | .hbm => 12
  | .vmem => 11
  | .smem => 0
  | _ => 0

abbrev bufTy : (tb : Table) → Fin (tcTables nBuf tb) → BufTy
  | .hbm, ⟨0, _⟩ => ⟨S1024x128, .f32⟩
  | .hbm, ⟨1, _⟩ => ⟨S1024x128, .f32⟩
  | .hbm, ⟨2, _⟩ => ⟨S384x128, .f32⟩
  | .hbm, ⟨3, _⟩ => ⟨S128, .f32⟩
  | .hbm, ⟨4, _⟩ => ⟨S128x1, .f32⟩
  | .hbm, ⟨5, _⟩ => ⟨S1, .f32⟩
  | .hbm, ⟨6, _⟩ => ⟨S128x128, .f32⟩
  | .hbm, ⟨7, _⟩ => ⟨S128x128, .f32⟩
  | .hbm, ⟨8, _⟩ => ⟨S128x128, .f32⟩
  | .hbm, ⟨9, _⟩ => ⟨S128x128, .f32⟩
  | .hbm, ⟨10, _⟩ => ⟨S128x128, .f32⟩
  | .hbm, ⟨11, _⟩ => ⟨S1024x1024, .f32⟩
  | .local _ .vmem, ⟨0, _⟩ => ⟨S128x128, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128, .f32⟩
  | .local _ .vmem, ⟨7, _⟩ => ⟨S128x1, .f32⟩
  | .local _ .vmem, ⟨8, _⟩ => ⟨S1, .f32⟩
  | .local _ .vmem, ⟨9, _⟩ => ⟨S128x128, .f32⟩
  | .local _ .vmem, ⟨10, _⟩ => ⟨S128x128, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  slices_S384x128_S128x128_0_0 : S384x128.Slices ![0, 0] S128x128
  slices_S384x128_S128x128_128_0 : S384x128.Slices ![128, 0] S128x128
  slices_S384x128_S128x128_256_0 : S384x128.Slices ![256, 0] S128x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  inb_S128x1_S128x1_0_0 : ∀ a, (![0, 0] : Fin 2 → Nat) a + S128x1.size a ≤ S128x1.size a
  h_S128x1 : 0 < S128x1.numel
  shapeCasts_S128x1_S128 : S128x1.ShapeCasts S128
  inb_S1_S1_0 : ∀ a, (![0] : Fin 1 → Nat) a + S1.size a ≤ S1.size a
  h_S1 : 0 < S1.numel
  inpos_S1_p0 : ∀ a, (![0] : Fin 1 → Nat) a < S1.size a
  shapeCasts_S128x128_S128x1x128 : S128x128.ShapeCasts S128x1x128
  shapeCasts_S128x128_S1x128x128 : S128x128.ShapeCasts S1x128x128
  broadcasts_S128x1x128_S128x128x128 : S128x1x128.Broadcasts S128x128x128
  broadcasts_S1x128x128_S128x128x128 : S1x128x128.Broadcasts S128x128x128
  shapeCasts_S128_S1x1x128 : S128.ShapeCasts S1x1x128
  broadcasts_S1x1x128_S128x128x128 : S1x1x128.Broadcasts S128x128x128
  reduces_S128x128x128_S128x128 : S128x128x128.Reduces [2] S128x128
  iota_S128x128_d0_w32 : S128x128.Iotas .tc 32 [0]
  iota_S128x128_d1_w32 : S128x128.Iotas .tc 32 [1]
  dot_S128x128_S128x128_S128x128_1_0_0_1_n_n_wf : DotDims.WF S128x128 S128x128 S128x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S1024x128.size a
  hwx0_0 : ∀ i : grid0.Coords, EltTy.bits .f32 = 32 ∨ (Rect.block (s := S1024x128) S128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S1024x128.size a
  hwx0_1 : ∀ i : grid0.Coords, EltTy.bits .f32 = 32 ∨ (Rect.block (s := S1024x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x1.size a ≤ S128x1.size a
  hwx0_5 : ∀ i : grid0.Coords, EltTy.bits .f32 = 32 ∨ (Rect.block (s := S128x1) S128x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1.size a ≤ S1.size a
  hwx0_6 : ∀ i : grid0.Coords, EltTy.bits .f32 = 32 ∨ (Rect.block (s := S1) S1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S1024x1024.size a
  hwx0_7 : ∀ i : grid0.Coords, EltTy.bits .f32 = 32 ∨ (Rect.block (s := S1024x1024) S128x128.size (cc0_transform_7 i) (hinb0_7 i)).WholeWords (EltTy.packing .f32)

variable [Facts₀]

def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf

abbrev win0_0 : Pipeline.Window sig grid0 :=
  Pipeline.Window.ofSpec (Memref.whole main_arg0) S128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S128x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S1024x128 : Shape := ⟨2, ![1024, 128]⟩
abbrev S384x128 : Shape := ⟨2, ![384, 128]⟩
abbrev S128 : Shape := ⟨1, ![128]⟩
abbrev S128x1 : Shape := ⟨2, ![128, 1]⟩
abbrev S1 : Shape := ⟨1, ![1]⟩
abbrev S_ : Shape := ⟨0, ![]⟩
abbrev S1024x1024 : Shape := ⟨2, ![1024, 1024]⟩
abbrev S1048576 : Shape := ⟨1, ![1048576]⟩
abbrev S523776 : Shape := ⟨1, ![523776]⟩
abbrev S1048576x1 : Shape := ⟨2, ![1048576, 1]⟩
abbrev S523776x1 : Shape := ⟨2, ![523776, 1]⟩
abbrev S523776x128 : Shape := ⟨2, ![523776, 128]⟩
abbrev S523776x384 : Shape := ⟨2, ![523776, 384]⟩
abbrev S1x128 : Shape := ⟨2, ![1, 128]⟩
abbrev S1x1 : Shape := ⟨2, ![1, 1]⟩
abbrev S523776x2 : Shape := ⟨2, ![523776, 2]⟩

abbrev nBuf : Space → Nat
  | .hbm => 175
  | .vmem => 0
  | .smem => 0
  | _ => 0

abbrev hbmTy0_0 (i : Nat) : BufTy := match i % 128 with
  | 0 => ⟨S1024x128, .f32⟩
  | 1 => ⟨S1024x128, .f32⟩
  | 2 => ⟨S384x128, .f32⟩
  | 3 => ⟨S128, .f32⟩
  | 4 => ⟨S128x1, .f32⟩
  | 5 => ⟨S1, .f32⟩
  | 6 => ⟨S_, .f32⟩
  | 7 => ⟨S1024x1024, .f32⟩
  | 8 => ⟨S1024x1024, .i32⟩
  | 9 => ⟨S_, .i32⟩
  | 10 => ⟨S1024x1024, .i32⟩
  | 11 => ⟨S1024x1024, .i32⟩
  | 12 => ⟨S1024x1024, .i32⟩
  | 13 => ⟨S1024x1024, .i1⟩
  | 14 => ⟨S_, .f32⟩
  | 15 => ⟨S1024x1024, .f32⟩
  | 16 => ⟨S1024x1024, .f32⟩
  | 17 => ⟨S_, .f32⟩
  | 18 => ⟨S1024x1024, .f32⟩
  | 19 => ⟨S1024x1024, .i1⟩
  | 20 => ⟨S1048576, .i1⟩
  | 21 => ⟨S1048576, .i32⟩
  | 22 => ⟨S_, .i32⟩
  | 23 => ⟨S_, .i32⟩
  | 24 => ⟨S1048576, .i32⟩
  | 25 => ⟨S_, .i32⟩
  | 26 => ⟨S523776, .i32⟩
  | 27 => ⟨S_, .i32⟩
  | 28 => ⟨S_, .i32⟩
  | 29 => ⟨S1048576, .i32⟩
  | 30 => ⟨S1048576, .i32⟩
  | 31 => ⟨S_, .i32⟩
  | 32 => ⟨S1048576, .i32⟩
  | 33 => ⟨S1048576, .i1⟩
  | 34 => ⟨S_, .i32⟩
  | 35 => ⟨S1048576, .i32⟩
  | 36 => ⟨S1048576, .i32⟩
  | 37 => ⟨S1048576, .i32⟩
  | 38 => ⟨S1048576x1, .i32⟩
  | 39 => ⟨S_, .i32⟩
  | 40 => ⟨S1048576, .i32⟩
  | 41 => ⟨S523776, .i32⟩
  | 42 => ⟨S_, .i32⟩
  | 43 => ⟨S_, .i32⟩
  | 44 => ⟨S523776, .i32⟩
  | 45 => ⟨S_, .i32⟩
  | 46 => ⟨S523776, .i32⟩
  | 47 => ⟨S523776, .i32⟩
  | 48 => ⟨S523776, .i32⟩
  | 49 => ⟨S_, .i32⟩
  | 50 => ⟨S523776, .i32⟩
  | 51 => ⟨S523776, .i1⟩
  | 52 => ⟨S523776, .i32⟩
  | 53 => ⟨S523776, .i32⟩
  | 54 => ⟨S_, .i32⟩
  | 55 => ⟨S523776, .i32⟩
  | 56 => ⟨S523776, .i1⟩
  | 57 => ⟨S523776, .i1⟩
  | 58 => ⟨S_, .i32⟩
  | 59 => ⟨S523776, .i32⟩
  | 60 => ⟨S523776, .i32⟩
  | 61 => ⟨S523776, .i32⟩
  | 62 => ⟨S_, .i32⟩
  | 63 => ⟨S_, .i32⟩
  | 64 => ⟨S_, .i32⟩
  | 65 => ⟨S_, .i1⟩
  | 66 => ⟨S_, .i32⟩
  | 67 => ⟨S_, .i32⟩
  | 68 => ⟨S523776, .i32⟩
  | 69 => ⟨S523776, .i32⟩
  | 70 => ⟨S_, .i32⟩
  | 71 => ⟨S523776, .i32⟩
  | 72 => ⟨S523776, .i1⟩
  | 73 => ⟨S_, .i32⟩
  | 74 => ⟨S523776, .i32⟩
  | 75 => ⟨S523776, .i1⟩
  | 76 => ⟨S_, .i32⟩
  | 77 => ⟨S_, .i1⟩
  | 78 => ⟨S523776, .i1⟩
  | 79 => ⟨S523776, .i1⟩
  | 80 => ⟨S523776, .i1⟩
  | 81 => ⟨S523776, .i32⟩
  | 82 => ⟨S523776, .i32⟩
  | 83 => ⟨S523776, .i32⟩
  | 84 => ⟨S_, .i32⟩
  | 85 => ⟨S523776, .i32⟩
  | 86 => ⟨S523776, .i32⟩
  | 87 => ⟨S523776, .i32⟩
  | 88 => ⟨S_, .i32⟩
  | 89 => ⟨S523776, .i32⟩
  | 90 => ⟨S523776, .i1⟩
  | 91 => ⟨S523776, .i32⟩
  | 92 => ⟨S523776, .i32⟩
  | 93 => ⟨S_, .i32⟩
  | 94 => ⟨S523776, .i32⟩
  | 95 => ⟨S523776, .i1⟩
  | 96 => ⟨S523776, .i1⟩
  | 97 => ⟨S_, .i32⟩
  | 98 => ⟨S523776, .i32⟩
  | 99 => ⟨S523776, .i32⟩
  | 100 => ⟨S523776, .i32⟩
  | 101 => ⟨S_, .i32⟩
  | 102 => ⟨S_, .i32⟩
  | 103 => ⟨S_, .i32⟩
  | 104 => ⟨S_, .i1⟩
  | 105 => ⟨S_, .i32⟩
  | 106 => ⟨S_, .i32⟩
  | 107 => ⟨S523776, .i32⟩
  | 108 => ⟨S523776, .i32⟩
  | 109 => ⟨S_, .i32⟩
  | 110 => ⟨S523776, .i32⟩
  | 111 => ⟨S523776, .i1⟩
  | 112 => ⟨S_, .i32⟩
  | 113 => ⟨S523776, .i32⟩
  | 114 => ⟨S523776, .i1⟩
  | 115 => ⟨S_, .i32⟩
  | 116 => ⟨S_, .i1⟩
  | 117 => ⟨S523776, .i1⟩
  | 118 => ⟨S523776, .i1⟩
  | 119 => ⟨S523776, .i1⟩
  | 120 => ⟨S523776, .i32⟩
  | 121 => ⟨S523776, .i32⟩
  | 122 => ⟨S523776, .i32⟩
  | 123 => ⟨S_, .i32⟩
  | 124 => ⟨S523776, .i32⟩
  | 125 => ⟨S523776, .i1⟩
  | 126 => ⟨S_, .i32⟩
  | 127 => ⟨S523776, .i32⟩
  | _ => ⟨S1024x128, .f32⟩

abbrev hbmTy0_1 (i : Nat) : BufTy := match i % 128 with
  | 0 => ⟨S523776, .i32⟩
  | 1 => ⟨S523776, .i32⟩
  | 2 => ⟨S523776x1, .i32⟩
  | 3 => ⟨S523776x128, .f32⟩
  | 4 => ⟨S_, .i32⟩
  | 5 => ⟨S523776, .i32⟩
  | 6 => ⟨S523776, .i1⟩
  | 7 => ⟨S_, .i32⟩
  | 8 => ⟨S523776, .i32⟩
  | 9 => ⟨S523776, .i32⟩
  | 10 => ⟨S523776, .i32⟩
  | 11 => ⟨S523776x1, .i32⟩
  | 12 => ⟨S523776x128, .f32⟩
  | 13 => ⟨S523776x128, .f32⟩
  | 14 => ⟨S523776x384, .f32⟩
  | 15 => ⟨S523776x128, .f32⟩
  | 16 => ⟨S1x128, .f32⟩
  | 17 => ⟨S523776x128, .f32⟩
  | 18 => ⟨S523776x128, .f32⟩
  | 19 => ⟨S_, .f32⟩
  | 20 => ⟨S523776x128, .f32⟩
  | 21 => ⟨S523776x128, .f32⟩
  | 22 => ⟨S523776x1, .f32⟩
  | 23 => ⟨S1x1, .f32⟩
  | 24 => ⟨S523776x1, .f32⟩
  | 25 => ⟨S523776x1, .f32⟩
  | 26 => ⟨S523776, .f32⟩
  | 27 => ⟨S_, .f32⟩
  | 28 => ⟨S1024x1024, .f32⟩
  | 29 => ⟨S_, .i32⟩
  | 30 => ⟨S523776, .i32⟩
  | 31 => ⟨S523776, .i1⟩
  | 32 => ⟨S_, .i32⟩
  | 33 => ⟨S523776, .i32⟩
  | 34 => ⟨S523776, .i32⟩
  | 35 => ⟨S523776, .i32⟩
  | 36 => ⟨S_, .i32⟩
  | 37 => ⟨S523776, .i32⟩
  | 38 => ⟨S523776, .i1⟩
  | 39 => ⟨S_, .i32⟩
  | 40 => ⟨S523776, .i32⟩
  | 41 => ⟨S523776, .i32⟩
  | 42 => ⟨S523776, .i32⟩
  | 43 => ⟨S523776x1, .i32⟩
  | 44 => ⟨S523776x1, .i32⟩
  | 45 => ⟨S523776x2, .i32⟩
  | 46 => ⟨S1024x1024, .f32⟩
  | _ => ⟨S1024x128, .f32⟩

abbrev hbmTy (i : Nat) : BufTy := match i / 128 with
  | 0 => hbmTy0_0 i
  | 1 => hbmTy0_1 i
  | _ => ⟨S1024x128, .f32⟩

abbrev bufTy : (tb : Table) → Fin (tcTables nBuf tb) → BufTy
  | .hbm, ⟨i, _⟩ => hbmTy i
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_cst : Ref sig .tc := ⟨.hbm, 14, rfl⟩
abbrev main_call0_v5 : Ref sig .tc := ⟨.hbm, 15, rfl⟩
abbrev main_v1 : Ref sig .tc := ⟨.hbm, 16, rfl⟩
abbrev main_cst_0 : Ref sig .tc := ⟨.hbm, 17, rfl⟩
abbrev main_v2 : Ref sig .tc := ⟨.hbm, 18, rfl⟩
abbrev main_v3 : Ref sig .tc := ⟨.hbm, 19, rfl⟩
abbrev main_call1_v0 : Ref sig .tc := ⟨.hbm, 20, rfl⟩
abbrev main_call1_v1 : Ref sig .tc := ⟨.hbm, 21, rfl⟩
abbrev main_call1_call0_c : Ref sig .tc := ⟨.hbm, 22, rfl⟩
abbrev main_call1_call0_v0 : Ref sig .tc := ⟨.hbm, 23, rfl⟩
abbrev main_v4 : Ref sig .tc := ⟨.hbm, 24, rfl⟩
abbrev main_c : Ref sig .tc := ⟨.hbm, 25, rfl⟩
abbrev main_v5 : Ref sig .tc := ⟨.hbm, 26, rfl⟩
abbrev main_c_1 : Ref sig .tc := ⟨.hbm, 27, rfl⟩
abbrev main_call2_v0 : Ref sig .tc := ⟨.hbm, 28, rfl⟩
abbrev main_call2_v1 : Ref sig .tc := ⟨.hbm, 29, rfl⟩
abbrev main_v6 : Ref sig .tc := ⟨.hbm, 30, rfl⟩
abbrev main_c_2 : Ref sig .tc := ⟨.hbm, 31, rfl⟩
abbrev main_v7 : Ref sig .tc := ⟨.hbm, 32, rfl⟩
abbrev main_v8 : Ref sig .tc := ⟨.hbm, 33, rfl⟩
abbrev main_c_3 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_c_4 : Ref sig .tc := ⟨.hbm, 39, rfl⟩
abbrev main_v13 : Ref sig .tc := ⟨.hbm, 40, rfl⟩
abbrev main_v14 : Ref sig .tc := ⟨.hbm, 41, rfl⟩
abbrev main_call3_call0_c : Ref sig .tc := ⟨.hbm, 42, rfl⟩
abbrev main_call3_call0_v0 : Ref sig .tc := ⟨.hbm, 43, rfl⟩
abbrev main_v15 : Ref sig .tc := ⟨.hbm, 44, rfl⟩
abbrev main_c_5 : Ref sig .tc := ⟨.hbm, 45, rfl⟩
abbrev main_call4_v0 : Ref sig .tc := ⟨.hbm, 46, rfl⟩
abbrev main_call4_v1 : Ref sig .tc := ⟨.hbm, 47, rfl⟩
abbrev main_call4_v2 : Ref sig .tc := ⟨.hbm, 48, rfl⟩
abbrev main_call4_v3 : Ref sig .tc := ⟨.hbm, 49, rfl⟩
abbrev main_call4_v4 : Ref sig .tc := ⟨.hbm, 50, rfl⟩
abbrev main_call4_v5 : Ref sig .tc := ⟨.hbm, 51, rfl⟩
abbrev main_call4_v6 : Ref sig .tc := ⟨.hbm, 52, rfl⟩
abbrev main_call4_v7 : Ref sig .tc := ⟨.hbm, 53, rfl⟩
abbrev main_call4_c : Ref sig .tc := ⟨.hbm, 54, rfl⟩
abbrev main_call4_v8 : Ref sig .tc := ⟨.hbm, 55, rfl⟩
abbrev main_call4_v9 : Ref sig .tc := ⟨.hbm, 56, rfl⟩
abbrev main_call4_v10 : Ref sig .tc := ⟨.hbm, 57, rfl⟩
abbrev main_call4_c_0 : Ref sig .tc := ⟨.hbm, 58, rfl⟩
abbrev main_call4_v11 : Ref sig .tc := ⟨.hbm, 59, rfl⟩
abbrev main_call4_v12 : Ref sig .tc := ⟨.hbm, 60, rfl⟩
abbrev main_v16 : Ref sig .tc := ⟨.hbm, 61, rfl⟩
abbrev main_c_6 : Ref sig .tc := ⟨.hbm, 62, rfl⟩
abbrev main_call5_v0 : Ref sig .tc := ⟨.hbm, 63, rfl⟩
abbrev main_call5_c : Ref sig .tc := ⟨.hbm, 64, rfl⟩
abbrev main_call5_v1 : Ref sig .tc := ⟨.hbm, 65, rfl⟩
abbrev main_call5_c_0 : Ref sig .tc := ⟨.hbm, 66, rfl⟩
abbrev main_call5_v2 : Ref sig .tc := ⟨.hbm, 67, rfl⟩
abbrev main_call5_v3 : Ref sig .tc := ⟨.hbm, 68, rfl⟩
abbrev main_call5_v4 : Ref sig .tc := ⟨.hbm, 69, rfl⟩
abbrev main_call5_c_1 : Ref sig .tc := ⟨.hbm, 70, rfl⟩
abbrev main_call5_v5 : Ref sig .tc := ⟨.hbm, 71, rfl⟩
abbrev main_call5_v6 : Ref sig .tc := ⟨.hbm, 72, rfl⟩
abbrev main_call5_c_2 : Ref sig .tc := ⟨.hbm, 73, rfl⟩
abbrev main_call5_v7 : Ref sig .tc := ⟨.hbm, 74, rfl⟩
abbrev main_call5_v8 : Ref sig .tc := ⟨.hbm, 75, rfl⟩
abbrev main_call5_c_3 : Ref sig .tc := ⟨.hbm, 76, rfl⟩
abbrev main_call5_v9 : Ref sig .tc := ⟨.hbm, 77, rfl⟩
abbrev main_call5_v10 : Ref sig .tc := ⟨.hbm, 78, rfl⟩
abbrev main_call5_v11 : Ref sig .tc := ⟨.hbm, 79, rfl⟩
abbrev main_call5_v12 : Ref sig .tc := ⟨.hbm, 80, rfl⟩
abbrev main_call5_v13 : Ref sig .tc := ⟨.hbm, 81, rfl⟩
abbrev main_call5_v14 : Ref sig .tc := ⟨.hbm, 82, rfl⟩
abbrev main_v17 : Ref sig .tc := ⟨.hbm, 83, rfl⟩
abbrev main_c_7 : Ref sig .tc := ⟨.hbm, 84, rfl⟩
abbrev main_call6_v0 : Ref sig .tc := ⟨.hbm, 85, rfl⟩
abbrev main_call6_v1 : Ref sig .tc := ⟨.hbm, 86, rfl⟩
abbrev main_call6_v2 : Ref sig .tc := ⟨.hbm, 87, rfl⟩
abbrev main_call6_v3 : Ref sig .tc := ⟨.hbm, 88, rfl⟩
abbrev main_call6_v4 : Ref sig .tc := ⟨.hbm, 89, rfl⟩
abbrev main_call6_v5 : Ref sig .tc := ⟨.hbm, 90, rfl⟩
abbrev main_call6_v6 : Ref sig .tc := ⟨.hbm, 91, rfl⟩
abbrev main_call6_v7 : Ref sig .tc := ⟨.hbm, 92, rfl⟩
abbrev main_call6_c : Ref sig .tc := ⟨.hbm, 93, rfl⟩
abbrev main_call6_v8 : Ref sig .tc := ⟨.hbm, 94, rfl⟩
abbrev main_call6_v9 : Ref sig .tc := ⟨.hbm, 95, rfl⟩
abbrev main_call6_v10 : Ref sig .tc := ⟨.hbm, 96, rfl⟩
abbrev main_call6_c_0 : Ref sig .tc := ⟨.hbm, 97, rfl⟩
abbrev main_call6_v11 : Ref sig .tc := ⟨.hbm, 98, rfl⟩
abbrev main_call6_v12 : Ref sig .tc := ⟨.hbm, 99, rfl⟩
abbrev main_v18 : Ref sig .tc := ⟨.hbm, 100, rfl⟩
abbrev main_c_8 : Ref sig .tc := ⟨.hbm, 101, rfl⟩
abbrev main_call7_v0 : Ref sig .tc := ⟨.hbm, 102, rfl⟩
abbrev main_call7_c : Ref sig .tc := ⟨.hbm, 103, rfl⟩
abbrev main_call7_v1 : Ref sig .tc := ⟨.hbm, 104, rfl⟩
abbrev main_call7_c_0 : Ref sig .tc := ⟨.hbm, 105, rfl⟩
abbrev main_call7_v2 : Ref sig .tc := ⟨.hbm, 106, rfl⟩
abbrev main_call7_v3 : Ref sig .tc := ⟨.hbm, 107, rfl⟩
abbrev main_call7_v4 : Ref sig .tc := ⟨.hbm, 108, rfl⟩
abbrev main_call7_c_1 : Ref sig .tc := ⟨.hbm, 109, rfl⟩
abbrev main_call7_v5 : Ref sig .tc := ⟨.hbm, 110, rfl⟩
abbrev main_call7_v6 : Ref sig .tc := ⟨.hbm, 111, rfl⟩
abbrev main_call7_c_2 : Ref sig .tc := ⟨.hbm, 112, rfl⟩
abbrev main_call7_v7 : Ref sig .tc := ⟨.hbm, 113, rfl⟩
abbrev main_call7_v8 : Ref sig .tc := ⟨.hbm, 114, rfl⟩
abbrev main_call7_c_3 : Ref sig .tc := ⟨.hbm, 115, rfl⟩
abbrev main_call7_v9 : Ref sig .tc := ⟨.hbm, 116, rfl⟩
abbrev main_call7_v10 : Ref sig .tc := ⟨.hbm, 117, rfl⟩
abbrev main_call7_v11 : Ref sig .tc := ⟨.hbm, 118, rfl⟩
abbrev main_call7_v12 : Ref sig .tc := ⟨.hbm, 119, rfl⟩
abbrev main_call7_v13 : Ref sig .tc := ⟨.hbm, 120, rfl⟩
abbrev main_call7_v14 : Ref sig .tc := ⟨.hbm, 121, rfl⟩
abbrev main_v19 : Ref sig .tc := ⟨.hbm, 122, rfl⟩
abbrev main_c_9 : Ref sig .tc := ⟨.hbm, 123, rfl⟩
abbrev main_v20 : Ref sig .tc := ⟨.hbm, 124, rfl⟩
abbrev main_v21 : Ref sig .tc := ⟨.hbm, 125, rfl⟩
abbrev main_c_10 : Ref sig .tc := ⟨.hbm, 126, rfl⟩
abbrev main_v22 : Ref sig .tc := ⟨.hbm, 127, rfl⟩
abbrev main_v23 : Ref sig .tc := ⟨.hbm, 128, rfl⟩
abbrev main_v24 : Ref sig .tc := ⟨.hbm, 129, rfl⟩
abbrev main_v25 : Ref sig .tc := ⟨.hbm, 130, rfl⟩
abbrev main_v26 : Ref sig .tc := ⟨.hbm, 131, rfl⟩
abbrev main_c_11 : Ref sig .tc := ⟨.hbm, 132, rfl⟩
abbrev main_v27 : Ref sig .tc := ⟨.hbm, 133, rfl⟩
abbrev main_v28 : Ref sig .tc := ⟨.hbm, 134, rfl⟩
abbrev main_c_12 : Ref sig .tc := ⟨.hbm, 135, rfl⟩
abbrev main_v29 : Ref sig .tc := ⟨.hbm, 136, rfl⟩
abbrev main_v30 : Ref sig .tc := ⟨.hbm, 137, rfl⟩
abbrev main_v31 : Ref sig .tc := ⟨.hbm, 138, rfl⟩
abbrev main_v32 : Ref sig .tc := ⟨.hbm, 139, rfl⟩
abbrev main_v33 : Ref sig .tc := ⟨.hbm, 140, rfl⟩
abbrev main_v34 : Ref sig .tc := ⟨.hbm, 141, rfl⟩
abbrev main_v35 : Ref sig .tc := ⟨.hbm, 142, rfl⟩
abbrev main_v36 : Ref sig .tc := ⟨.hbm, 143, rfl⟩
abbrev main_v37 : Ref sig .tc := ⟨.hbm, 144, rfl⟩
abbrev main_v38 : Ref sig .tc := ⟨.hbm, 145, rfl⟩
abbrev main_v39 : Ref sig .tc := ⟨.hbm, 146, rfl⟩
abbrev main_call8_cst : Ref sig .tc := ⟨.hbm, 147, rfl⟩
abbrev main_call8_v0 : Ref sig .tc := ⟨.hbm, 148, rfl⟩
abbrev main_v40 : Ref sig .tc := ⟨.hbm, 149, rfl⟩
abbrev main_v41 : Ref sig .tc := ⟨.hbm, 150, rfl⟩
abbrev main_v42 : Ref sig .tc := ⟨.hbm, 151, rfl⟩
abbrev main_v43 : Ref sig .tc := ⟨.hbm, 152, rfl⟩
abbrev main_v44 : Ref sig .tc := ⟨.hbm, 153, rfl⟩
abbrev main_v45 : Ref sig .tc := ⟨.hbm, 154, rfl⟩
abbrev main_cst_13 : Ref sig .tc := ⟨.hbm, 155, rfl⟩
abbrev main_v46 : Ref sig .tc := ⟨.hbm, 156, rfl⟩
abbrev main_c_14 : Ref sig .tc := ⟨.hbm, 157, rfl⟩
abbrev main_v47 : Ref sig .tc := ⟨.hbm, 158, rfl⟩
abbrev main_v48 : Ref sig .tc := ⟨.hbm, 159, rfl⟩
abbrev main_c_15 : Ref sig .tc := ⟨.hbm, 160, rfl⟩
abbrev main_v49 : Ref sig .tc := ⟨.hbm, 161, rfl⟩
abbrev main_v50 : Ref sig .tc := ⟨.hbm, 162, rfl⟩
abbrev main_v51 : Ref sig .tc := ⟨.hbm, 163, rfl⟩
abbrev main_c_16 : Ref sig .tc := ⟨.hbm, 164, rfl⟩
abbrev main_v52 : Ref sig .tc := ⟨.hbm, 165, rfl⟩
abbrev main_v53 : Ref sig .tc := ⟨.hbm, 166, rfl⟩
abbrev main_c_17 : Ref sig .tc := ⟨.hbm, 167, rfl⟩
abbrev main_v54 : Ref sig .tc := ⟨.hbm, 168, rfl⟩
abbrev main_v55 : Ref sig .tc := ⟨.hbm, 169, rfl⟩
abbrev main_v56 : Ref sig .tc := ⟨.hbm, 170, rfl⟩
abbrev main_v57 : Ref sig .tc := ⟨.hbm, 171, rfl⟩
abbrev main_v58 : Ref sig .tc := ⟨.hbm, 172, rfl⟩
abbrev main_v59 : Ref sig .tc := ⟨.hbm, 173, rfl⟩
abbrev main_v60 : Ref sig .tc := ⟨.hbm, 174, rfl⟩

abbrev nD : Nat := 1
abbrev τ : Topo := Topo.v7x

variable {F : FTy → Type} [FloatOps F]

class Facts₀ : Prop where
  bcast_S_S1024x1024 : S_.BroadcastsInDim S1024x1024 (![] : Fin 0 → Fin S1024x1024.rank)
  shapeCasts_S1024x1024_S1048576 : S1024x1024.ShapeCasts S1048576
  natLt_1_32 : 1 < 32
  bcast_S_S_ : S_.BroadcastsInDim S_ (![] : Fin 0 → Fin S_.rank)
  reduceWindows_S1048576_S1048576_w1048576s1p1048575_0 : S1048576.ReduceWindows (![1048576] : Fin 1 → Nat) ![1] ![1048575] ![0] S1048576
  h_S_ : 0 < S_.numel
  bcast_S_S523776 : S_.BroadcastsInDim S523776 (![] : Fin 0 → Fin S523776.rank)
  bcast_S_S1048576 : S_.BroadcastsInDim S1048576 (![] : Fin 0 → Fin S1048576.rank)
  bcast_S1048576_S1048576x1_0 : S1048576.BroadcastsInDim S1048576x1 (![0] : Fin 1 → Fin S1048576x1.rank)
  reduceWindows_S523776_S523776_w523776s1p523775_0 : S523776.ReduceWindows (![523776] : Fin 1 → Nat) ![1] ![523775] ![0] S523776
  bcast_S523776_S523776x1_0 : S523776.BroadcastsInDim S523776x1 (![0] : Fin 1 → Fin S523776x1.rank)
  concatenates_S523776x128_S523776x128_S523776x128_S523776x384_d1 : Shape.Concatenates [S523776x128, S523776x128, S523776x128] S523776x384 1
  bcast_S128_S1x128_1 : S128.BroadcastsInDim S1x128 (![1] : Fin 1 → Fin S1x128.rank)
  bcast_S1x128_S523776x128_0_1 : S1x128.BroadcastsInDim S523776x128 (![0, 1] : Fin 2 → Fin S523776x128.rank)
  bcast_S_S523776x128 : S_.BroadcastsInDim S523776x128 (![] : Fin 0 → Fin S523776x128.rank)
  bcast_S1_S1x1_1 : S1.BroadcastsInDim S1x1 (![1] : Fin 1 → Fin S1x1.rank)
  bcast_S1x1_S523776x1_0_1 : S1x1.BroadcastsInDim S523776x1 (![0, 1] : Fin 2 → Fin S523776x1.rank)
  shapeCasts_S523776x1_S523776 : S523776x1.ShapeCasts S523776
  concatenates_S523776x1_S523776x1_S523776x2_d1 : Shape.Concatenates [S523776x1, S523776x1] S523776x2 1
  scatter_S523776_S1048576x1_S1048576_n_0_0_1_wf : ScatterDims.WF S523776 S1048576x1 S1048576 [] [0] [0] 1
  gather_S1024x128_S523776x1_S523776x128_1_0_n_n_0_1_1128_wf : GatherDims.WF S1024x128 S523776x1 S523776x128 [1] [0] [] [0] [] 1 ![1, 128]
  dot_S523776x384_S384x128_S523776x128_1_0_0_1_n_n_wf : DotDims.WF S523776x384 S384x128 S523776x128 [1] [0] [0] [1] [] []
  dot_S523776x128_S128x1_S523776x1_1_0_0_1_n_n_wf : DotDims.WF S523776x128 S128x1 S523776x1 [1] [0] [0] [1] [] []
  scatter_S1024x1024_S523776x2_S523776_n_01_01_1_wf : ScatterDims.WF S1024x1024 S523776x2 S523776 [] [0, 1] [0, 1] 1

variable [Facts₀]

def scatter_S523776_S1048576x1_S1048576_n_0_0_1 : ScatterDims S523776 S1048576x1 S1048576 where
  updateWindowDims := []
  insertedWindowDims := [0]
  scatterDimsToOperandDims := [0]
  indexVectorDim := 1
  wf := scatter_S523776_S1048576x1_S1048576_n_0_0_1_wf
def gather_S1024x128_S523776x1_S523776x128_1_0_n_n_0_1_1128 : GatherDims S1024x128 S523776x1 S523776x128 where
  offsetDims := [1]
  collapsedSliceDims := [0]
  operandBatchingDims := []
  startIndicesBatchingDims := []
  startIndexMap := [0]
  indexVectorDim := 1
  sliceSizes := ![1, 128]
  wf := gather_S1024x128_S523776x1_S523776x128_1_0_n_n_0_1_1128_wf
def dot_S523776x384_S384x128_S523776x128_1_0_0_1_n_n : DotDims S523776x384 S384x128 S523776x128 where
  lhsContracting := [1]
  rhsContracting := [0]
  lhsNonContracting := [0]
  rhsNonContracting := [1]
  lhsBatch := []
  rhsBatch := []
  wf := dot_S523776x384_S384x128_S523776x128_1_0_0_1_n_n_wf
def dot_S523776x128_S128x1_S523776x1_1_0_0_1_n_n : DotDims S523776x128 S128x1 S523776x1 where
  lhsContracting := [1]
  rhsContracting := [0]
  lhsNonContracting := [0]
  rhsNonContracting := [1]
  lhsBatch := []
  rhsBatch := []
  wf := dot_S523776x128_S128x1_S523776x1_1_0_0_1_n_n_wf
def scatter_S1024x1024_S523776x2_S523776_n_01_01_1 : ScatterDims S1024x1024 S523776x2 S523776 where
  updateWindowDims := []
  insertedWindowDims := [0, 1]
  scatterDimsToOperandDims := [0, 1]
  indexVectorDim := 1
  wf := scatter_S1024x1024_S523776x2_S523776_n_01_01_1_wf

class Facts : Prop extends Facts₀ where

variable [Facts]
-- ==== Proof.Spec.lean ====
/-
  The specification both programs are read against: a pairwise scorer over K = 1024 spans with D = 128 features.
  For a span row `x i` and an antecedent row `a j` the reference concatenates `[x i | a j | x i - a j]` (384 numbers),
  applies one dense layer `W` (384 × 128) with bias `b1` and a ramp, then a second layer `w2` (128 → 1) with bias `b2`;
  the result array holds that score at `(i, j)` when `j < i` and zero elsewhere.  The kernel splits `W` into its three
  bands of 128 rows, `Ws`, `Wa`, `Wd`, and computes the hidden layer as `x i · (Ws + Wd) + a j · (Wa - Wd) + b1`.
  Both forms are stated here over plain functions of the coordinates, on the extended reals.
-/
import Idealize.ShloMosaic.PureOps.Ideal
import Idealize.ShloMosaic.Lib.ValueIdx

noncomputable section

open scoped BigOperators

namespace Cert.Spec

open Idealize.ShloMosaic Idealize.ShloMosaic.ValueIdx

/-- Row `k` of the first band of `W` (rows 0 … 127: the span's own features). -/
def bandS (k : Fin 128) : Fin 384 := ⟨k.val, by omega⟩
/-- Row `k` of the second band (rows 128 … 255: the antecedent's features). -/
def bandA (k : Fin 128) : Fin 384 := ⟨128 + k.val, by omega⟩
/-- Row `k` of the third band (rows 256 … 383: the difference's features). -/
def bandD (k : Fin 128) : Fin 384 := ⟨256 + k.val, by omega⟩

section
variable (x a : Fin 1024 → Fin 128 → EReal) (W : Fin 384 → Fin 128 → EReal) (b1 w2 : Fin 128 → EReal) (b2 : EReal)

/-- The kernel's span half of the hidden layer: `x i · (Ws + Wd)` at feature `d`. -/
def kA (i : Fin 1024) (d : Fin 128) : EReal := ∑ k : Fin 128, x i k * (W (bandS k) d + W (bandD k) d)
/-- The kernel's antecedent half: `a j · (Wa - Wd)` at feature `d`. -/
def kB (j : Fin 1024) (d : Fin 128) : EReal := ∑ k : Fin 128, a j k * (W (bandA k) d - W (bandD k) d)
/-- The kernel's score of the pair `(i, j)`. -/
def kScore (i j : Fin 1024) : EReal :=
  (∑ d : Fin 128, max ((kA x W i d + kB a W j d) + b1 d) 0 * w2 d) + b2

/-- The reference's concatenated features of the pair `(i, j)`: `[x i | a j | x i - a j]`. -/
def feats (i j : Fin 1024) (k : Fin 384) : EReal :=
  if h : k.val < 128 then x i ⟨k.val, h⟩
  else if h2 : k.val < 256 then a j ⟨k.val - 128, by omega⟩
  else x i ⟨k.val - 256, by omega⟩ - a j ⟨k.val - 256, by omega⟩
/-- The reference's hidden layer before the ramp. -/
def rPre (i j : Fin 1024) (d : Fin 128) : EReal := (∑ k : Fin 384, feats x a i j k * W k d) + b1 d
/-- The reference's score of the pair `(i, j)`. -/
def rScore (i j : Fin 1024) : EReal := (∑ d : Fin 128, max (rPre x a W b1 i j d) 0 * w2 d) + b2
end

/-- The result array from a score: the score below the diagonal, zero on and above it. -/
def out (score : Fin 1024 → Fin 1024 → EReal) : (⟨2, ![1024, 1024]⟩ : Shape).Idx → EReal :=
  fun ix => if (ix 1).val < (ix 0).val then score (ix 0) (ix 1) else 0

/-- A rank-2 array as a function of its two coordinates. -/
def arr2 {n k : Nat} (f : (⟨2, ![n, k]⟩ : Shape).Idx → EReal) : Fin n → Fin k → EReal := fun i j => f (ix2 i j)
/-- A rank-1 array as a function of its coordinate. -/
def arr1 {n : Nat} (f : (⟨1, ![n]⟩ : Shape).Idx → EReal) : Fin n → EReal := fun i => f (ix1 i)

/-- The kernel's form of the whole result, from the six argument arrays. -/
def outK (X A : (⟨2, ![1024, 128]⟩ : Shape).Idx → EReal) (W : (⟨2, ![384, 128]⟩ : Shape).Idx → EReal)
    (B1 : (⟨1, ![128]⟩ : Shape).Idx → EReal) (W2 : (⟨2, ![128, 1]⟩ : Shape).Idx → EReal) (B2 : (⟨1, ![1]⟩ : Shape).Idx → EReal) :
    (⟨2, ![1024, 1024]⟩ : Shape).Idx → EReal :=
  out (kScore (arr2 X) (arr2 A) (arr2 W) (arr1 B1) (fun d => W2 (ix2 d 0)) (B2 (ix1 0)))

/-- The reference's form of the whole result, from the six argument arrays. -/
def outR (X A : (⟨2, ![1024, 128]⟩ : Shape).Idx → EReal) (W : (⟨2, ![384, 128]⟩ : Shape).Idx → EReal)
    (B1 : (⟨1, ![128]⟩ : Shape).Idx → EReal) (W2 : (⟨2, ![128, 1]⟩ : Shape).Idx → EReal) (B2 : (⟨1, ![1]⟩ : Shape).Idx → EReal) :
    (⟨2, ![1024, 1024]⟩ : Shape).Idx → EReal :=
  out (rScore (arr2 X) (arr2 A) (arr2 W) (arr1 B1) (fun d => W2 (ix2 d 0)) (B2 (ix1 0)))

end Cert.Spec

end
-- ==== Proof.RefStages.lean ====
/-
  The reference's host program, one stage per tensor value that carries information: each definition is the printed
  operation (or the short run of printed operations of an outlined helper) as a pure function of its operands, in the
  program's order.  First the index computation of the strictly lower triangle: a 0/1 mask of the pairs `j < i`, its
  running count over the row-major flattening, a histogram of the running counts, the histogram's running count (the
  flat position of the p-th pair), and that position split into a row and a column number.  Then the arithmetic on the
  gathered rows, and the final write of the scores at (row, column) into an array of zeros.
-/
import proofs.«109150_j81982335746216_1_alg».proof.ReferenceIdeal

noncomputable section

namespace Cert.ReferenceIdeal.Stages

open Cert.ReferenceIdeal Idealize.ShloMosaic

variable {F : FTy → Type} [FloatOps F] [Facts]
open Facts₀ Facts

/-! ## The pairs below the diagonal, numbered -/

/-- The 0/1 mask of the strictly lower triangle: ones, kept where `row - 1 ≥ column`, zero elsewhere, compared with zero. -/
def mask : IVec S1024x1024 1 :=
  cmpf (F := F) .une
    (select (cmpi .sge (addi (iotaInDim S1024x1024 32 0) (broadcastInDim S1024x1024 ![] bcast_S_S1024x1024 (constantI S_ 32 4294967295#32)))
        (iotaInDim S1024x1024 32 1))
      (broadcastInDim S1024x1024 ![] bcast_S_S1024x1024 (constant (F := F) S_ .f32 0x3F800000#32))
      (broadcastInDim S1024x1024 ![] bcast_S_S1024x1024 (constant (F := F) S_ .f32 0x00000000#32)))
    (broadcastInDim S1024x1024 ![] bcast_S_S1024x1024 (constant (F := F) S_ .f32 0x00000000#32))

/-- The running count of a flat 0/1 array of 2^20 words: entry `q` is the sum of the entries up to and including `q`. -/
def cumsumBig (x : IVec S1048576 32) : IVec S1048576 32 :=
  Host.reduceWindow IntOp.addi ![1048576] ![1] ![1048575] ![0] x
    (broadcastInDim S_ ![] bcast_S_S_ (constantI S_ 32 0#32)) reduceWindows_S1048576_S1048576_w1048576s1p1048575_0 h_S_

/-- The mask flattened row-major, widened to 32-bit words, and its running count. -/
def count1 (mk : IVec S1024x1024 1) : IVec S1048576 32 :=
  cumsumBig (extui 32 (shapeCast S1048576 mk shapeCasts_S1024x1024_S1048576) natLt_1_32)

/-- The running counts clamped below at zero and, were one negative, wrapped by the histogram's length: the histogram's bin of each flat position. -/
def bins (c1 : IVec S1048576 32) : IVec S1048576 32 :=
  let v6 : IVec S1048576 32 := maxsi (broadcastInDim S1048576 ![] bcast_S_S1048576 (id (constantI S_ 32 0#32))) c1
  select (cmpi .slt v6 (broadcastInDim S1048576 ![] bcast_S_S1048576 (constantI S_ 32 0#32)))
    (addi v6 (broadcastInDim S1048576 ![] bcast_S_S1048576 (constantI S_ 32 523776#32))) v6

/-- The histogram: into 523776 zeros, one added at each flat position's bin (a bin outside the range is dropped). -/
def hist (bn : IVec S1048576 32) : IVec S523776 32 :=
  Host.scatter scatter_S523776_S1048576x1_S1048576_n_0_0_1 IntOp.addi
    (broadcastInDim S523776 ![] bcast_S_S523776 (constantI S_ 32 0#32))
    (broadcastInDim S1048576x1 ![0] bcast_S1048576_S1048576x1_0 bn)
    (broadcastInDim S1048576 ![] bcast_S_S1048576 (constantI S_ 32 1#32))

/-- The histogram's running count: the flat position of pair number `p`. -/
def flat (h : IVec S523776 32) : IVec S523776 32 :=
  Host.reduceWindow IntOp.addi ![523776] ![1] ![523775] ![0] h
    (broadcastInDim S_ ![] bcast_S_S_ (constantI S_ 32 0#32)) reduceWindows_S523776_S523776_w523776s1p523775_0 h_S_

/-- Floor division of each word by a scalar word, as the outlined helper writes it: the truncating quotient, less one where
    the signs differ and the remainder is not zero. -/
def floorDiv (x : IVec S523776 32) (n : IVec S_ 32) : IVec S523776 32 :=
  let v1 : IVec S523776 32 := Host.divsi x (broadcastInDim S523776 ![] bcast_S_S523776 n)
  let v5 : IVec S523776 1 := cmpi .ne (signi x) (broadcastInDim S523776 ![] bcast_S_S523776 (signi n))
  let v7 : IVec S523776 32 := Host.remsi x (broadcastInDim S523776 ![] bcast_S_S523776 n)
  let v9 : IVec S523776 1 := cmpi .ne v7 (broadcastInDim S523776 ![] bcast_S_S523776 (constantI S_ 32 0#32))
  select (andi v5 v9) (subi v1 (broadcastInDim S523776 ![] bcast_S_S523776 (constantI S_ 32 1#32))) v1

/-- The remainder with the divisor's sign, as the outlined helper writes it (a zero divisor replaced by one). -/
def pyRem (x : IVec S523776 32) (n : IVec S_ 32) : IVec S523776 32 :=
  let v0 : IVec S_ 32 := id n
  let c : IVec S_ 32 := constantI S_ 32 0#32
  let v2 : IVec S_ 32 := select (cmpi .eq v0 c) (constantI S_ 32 1#32) v0
  let v4 : IVec S523776 32 := Host.remsi x (broadcastInDim S523776 ![] bcast_S_S523776 v2)
  let v6 : IVec S523776 1 := cmpi .ne v4 (broadcastInDim S523776 ![] bcast_S_S523776 (constantI S_ 32 0#32))
  let v8 : IVec S523776 1 := cmpi .slt v4 (broadcastInDim S523776 ![] bcast_S_S523776 (constantI S_ 32 0#32))
  let v9 : IVec S_ 1 := cmpi .slt v2 (constantI S_ 32 0#32)
  let v11 : IVec S523776 1 := cmpi .ne v8 (broadcastInDim S523776 ![] bcast_S_S523776 v9)
  select (andi v11 v6) (addi v4 (broadcastInDim S523776 ![] bcast_S_S523776 v2)) v4

/-- The row number of each pair: the flat position floor-divided by 1024, then reduced modulo 1024. -/
def rowNo (fl : IVec S523776 32) : IVec S523776 32 :=
  pyRem (floorDiv fl (constantI S_ 32 1024#32)) (constantI S_ 32 1024#32)
/-- The column number of each pair: the flat position floor-divided by 1, then reduced modulo 1024. -/
def colNo (fl : IVec S523776 32) : IVec S523776 32 :=
  pyRem (floorDiv fl (constantI S_ 32 1#32)) (constantI S_ 32 1024#32)

/-- A negative row or column number wrapped by 1024 (python's negative indexing), as a column of start indices. -/
def wrapCol (r : IVec S523776 32) : IVec S523776x1 32 :=
  broadcastInDim S523776x1 ![0] bcast_S523776_S523776x1_0
    (select (cmpi .slt r (broadcastInDim S523776 ![] bcast_S_S523776 (constantI S_ 32 0#32)))
      (addi r (broadcastInDim S523776 ![] bcast_S_S523776 (constantI S_ 32 1024#32))) r)

/-! ## The scores of the numbered pairs -/

/-- The rows of a [1024, 128] table at the pairs' (wrapped) row numbers. -/
def rowsOf (x : FVec F S1024x128 .f32) (r : IVec S523776 32) : FVec F S523776x128 .f32 :=
  Host.gather gather_S1024x128_S523776x1_S523776x128_1_0_n_n_0_1_1128 x (wrapCol r)

/-- The pairs' features `[x i | a j | x i - a j]`, the first dense layer with its bias and ramp, the second layer with its
    bias, as a flat array of 523776 scores. -/
def scores (si aj : FVec F S523776x128 .f32) (W : FVec F S384x128 .f32) (b1 : FVec F S128 .f32) (W2 : FVec F S128x1 .f32)
    (b2 : FVec F S1 .f32) : FVec F S523776 .f32 :=
  let v35 : FVec F S523776x384 .f32 := concatenate S523776x384 1 [⟨S523776x128, si⟩, ⟨S523776x128, aj⟩, ⟨S523776x128, subf si aj⟩]
    concatenates_S523776x128_S523776x128_S523776x128_S523776x384_d1
  let v36 : FVec F S523776x128 .f32 := Host.dotGeneral dot_S523776x384_S384x128_S523776x128_1_0_0_1_n_n none v35 W
  let v39 : FVec F S523776x128 .f32 := addf v36 (broadcastInDim S523776x128 ![0, 1] bcast_S1x128_S523776x128_0_1
    (broadcastInDim S1x128 ![1] bcast_S128_S1x128_1 b1))
  let v40 : FVec F S523776x128 .f32 := maximumf v39 (broadcastInDim S523776x128 ![] bcast_S_S523776x128 (constant S_ .f32 0x00000000#32))
  let v41 : FVec F S523776x1 .f32 := Host.dotGeneral dot_S523776x128_S128x1_S523776x1_1_0_0_1_n_n none v40 W2
  let v44 : FVec F S523776x1 .f32 := addf v41 (broadcastInDim S523776x1 ![0, 1] bcast_S1x1_S523776x1_0_1
    (broadcastInDim S1x1 ![1] bcast_S1_S1x1_1 b2))
  shapeCast S523776 v44 shapeCasts_S523776x1_S523776

/-- The (row, column) start indices of the final write, one pair per line. -/
def pairIdx (r c : IVec S523776 32) : IVec S523776x2 32 :=
  concatenate S523776x2 1 [⟨S523776x1, wrapCol r⟩, ⟨S523776x1, wrapCol c⟩] concatenates_S523776x1_S523776x1_S523776x2_d1

/-- The result: into 1024 × 1024 zeros, each pair's score written at its (row, column). -/
def result (ix : IVec S523776x2 32) (sc : FVec F S523776 .f32) : FVec F S1024x1024 .f32 :=
  Host.scatter scatter_S1024x1024_S523776x2_S523776_n_01_01_1 (fun _ b => b)
    (broadcastInDim S1024x1024 ![] bcast_S_S1024x1024 (constant S_ .f32 0x00000000#32)) ix sc

/-- The row numbers and the column numbers of the numbered pairs (functions of nothing: the mask is a constant). -/
def rowsI : IVec S523776 32 := rowNo (flat (hist (bins (count1 (mask (F := F))))))
def colsJ : IVec S523776 32 := colNo (flat (hist (bins (count1 (mask (F := F))))))

/-- The whole reference as one function of its six argument arrays. -/
def refOut (x a : FVec F S1024x128 .f32) (W : FVec F S384x128 .f32) (b1 : FVec F S128 .f32) (W2 : FVec F S128x1 .f32)
    (b2 : FVec F S1 .f32) : FVec F S1024x1024 .f32 :=
  result (pairIdx (rowsI (F := F)) (colsJ (F := F)))
    (scores (rowsOf x (rowsI (F := F))) (rowsOf a (colsJ (F := F))) W b1 W2 b2)

end Cert.ReferenceIdeal.Stages

end
-- ==== Proof.TriSpec.lean ====
/-
  The strictly lower triangle of a 1024 × 1024 array, numbered in row-major order, over the natural numbers.
  A flat position `q = 1024 · i + j` lies below the diagonal when `j < i`.  `cnt q` counts the positions up to and
  including `q` that do; `hist v` counts the positions (of all 2^20) whose running count is `v`; `flat p` is the
  running sum of `hist` up to and including `p`: the number of positions whose running count is at most `p`, which is
  the flat position of pair number `p` (counting from zero).
-/
import Idealize.ShloMosaic.PureOps.Ideal

open scoped BigOperators

namespace Cert.Tri

/-- The flat position `q` (row `q / 1024`, column `q % 1024`) is strictly below the diagonal. -/
def below (q : ℕ) : Prop := q % 1024 < q / 1024

instance : DecidablePred below := fun q => inferInstanceAs (Decidable (q % 1024 < q / 1024))

/-- How many flat positions up to and including `q` lie below the diagonal. -/
def cnt (q : ℕ) : ℕ := ((Finset.range (q + 1)).filter below).card

/-- How many of the 2^20 flat positions have running count exactly `v`. -/
def hist (v : ℕ) : ℕ := ((Finset.range 1048576).filter fun q => cnt q = v).card

/-- The running sum of the histogram: the flat position of pair number `p`. -/
def flat (p : ℕ) : ℕ := ∑ v ∈ Finset.range (p + 1), hist v

end Cert.Tri
-- ==== Proof.TriFacts.lean ====
/-
  Facts about the numbering of the strictly lower triangle of a 1024 × 1024 array (see TriSpec).

  The running count `cnt` starts at 0, never decreases, and grows by exactly one at each flat position that lies
  below the diagonal.  Hence the positions with running count at most `p` form an initial segment of the natural
  numbers, and `flat p` (their number) is the first position whose running count exceeds `p`.  A closed form of
  `cnt` (full rows contribute 0 + 1 + … + (i - 1), the current row contributes min (j + 1) i) gives the total
  0 + 1 + … + 1023 = 523776.
-/
import proofs.«109150_j81982335746216_1_alg».proof.Proof.TriSpec

open scoped BigOperators

namespace Cert.Tri

/-! ### The running count: steps and monotonicity -/

theorem cnt_zero : cnt 0 = 0 := by
  unfold cnt
  simp [below]

/-- The running count grows by one exactly at the positions below the diagonal. -/
theorem cnt_succ (q : ℕ) : cnt (q + 1) = cnt q + if below (q + 1) then 1 else 0 := by
  unfold cnt
  rw [Finset.range_add_one (n := q + 1), Finset.filter_insert]
  split_ifs with h
  · rw [Finset.card_insert_of_notMem]
    simp
  · simp

theorem cnt_mono {q q' : ℕ} (h : q ≤ q') : cnt q ≤ cnt q' := by
  unfold cnt
  exact Finset.card_le_card (Finset.filter_subset_filter _ (Finset.range_mono (by omega)))

theorem cnt_succ_le (q : ℕ) : cnt (q + 1) ≤ cnt q + 1 := by
  rw [cnt_succ]
  split_ifs <;> omega

theorem cnt_succ_of_below {q : ℕ} (h : below (q + 1)) : cnt (q + 1) = cnt q + 1 := by
  rw [cnt_succ, if_pos h]

theorem cnt_succ_of_not_below {q : ℕ} (h : ¬ below (q + 1)) : cnt (q + 1) = cnt q := by
  rw [cnt_succ, if_neg h, Nat.add_zero]

theorem not_below_zero : ¬ below 0 := by
  simp [below]

/-! ### A closed form of the running count -/

/-- `tri i = 0 + 1 + … + (i - 1)`: the number of positions below the diagonal in the rows before row `i`. -/
def tri (i : ℕ) : ℕ := ∑ k ∈ Finset.range i, k

theorem tri_zero : tri 0 = 0 := by
  simp [tri]

theorem tri_succ (i : ℕ) : tri (i + 1) = tri i + i := by
  unfold tri
  rw [Finset.sum_range_succ]

theorem tri_1024 : tri 1024 = 523776 := by
  unfold tri
  rw [Finset.sum_range_id]

/-- In row `i = q / 1024` (at most 1024) and column `j = q % 1024`, the rows before contribute `tri i` and the
current row contributes the columns `0 … j` that are smaller than `i`. -/
theorem cnt_closed (q : ℕ) (hq : q / 1024 ≤ 1024) :
    cnt q = tri (q / 1024) + min (q % 1024 + 1) (q / 1024) := by
  induction q with
  | zero => simp [cnt_zero, tri_zero]
  | succ q ih =>
    have ih' := ih (by omega)
    have hbelow : below (q + 1) ↔ (q + 1) % 1024 < (q + 1) / 1024 := Iff.rfl
    by_cases hj : q % 1024 = 1023
    · have h1 : (q + 1) / 1024 = q / 1024 + 1 := by omega
      have h2 : (q + 1) % 1024 = 0 := by omega
      rw [h1, h2] at hbelow
      rw [h1, h2, tri_succ]
      by_cases hb : below (q + 1)
      · have hb' := hbelow.mp hb
        rw [cnt_succ_of_below hb, ih']
        simp only [Nat.min_def]
        split_ifs <;> omega
      · have hb' := mt hbelow.mpr hb
        rw [cnt_succ_of_not_below hb, ih']
        simp only [Nat.min_def]
        split_ifs <;> omega
    · have h1 : (q + 1) / 1024 = q / 1024 := by omega
      have h2 : (q + 1) % 1024 = q % 1024 + 1 := by omega
      rw [h1, h2] at hbelow
      rw [h1, h2]
      by_cases hb : below (q + 1)
      · have hb' := hbelow.mp hb
        rw [cnt_succ_of_below hb, ih']
        simp only [Nat.min_def]
        split_ifs <;> omega
      · have hb' := mt hbelow.mpr hb
        rw [cnt_succ_of_not_below hb, ih']
        simp only [Nat.min_def]
        split_ifs <;> omega

theorem cnt_last : cnt 1048575 = 523776 := by
  rw [cnt_closed 1048575 (by norm_num)]
  have h1 : 1048575 / 1024 = 1023 := by norm_num
  have h2 : 1048575 % 1024 = 1023 := by norm_num
  rw [h1, h2]
  have h3 : tri 1024 = tri 1023 + 1023 := tri_succ 1023
  have h4 := tri_1024
  omega

theorem cnt_le (q : ℕ) (hq : q < 1048576) : cnt q ≤ 523776 := by
  have h := cnt_mono (q := q) (q' := 1048575) (by omega)
  rw [cnt_last] at h
  exact h

/-! ### `flat p` counts the positions whose running count is at most `p` -/

theorem flat_eq_card (p : ℕ) :
    flat p = ((Finset.range 1048576).filter fun q => cnt q ≤ p).card := by
  unfold flat hist
  rw [Finset.sum_card_fiberwise_eq_card_filter]
  refine congrArg Finset.card (Finset.filter_congr ?_)
  intro q _
  rw [Finset.mem_range]
  omega

/-- Because the running count never decreases, the positions below `n` with running count at most `p` form an
initial segment of the natural numbers. -/
theorem filter_le_eq_range (p n : ℕ) :
    (Finset.range n).filter (fun q => cnt q ≤ p)
      = Finset.range ((Finset.range n).filter (fun q => cnt q ≤ p)).card := by
  induction n with
  | zero => simp
  | succ n ih =>
    by_cases h : cnt n ≤ p
    · have hall : (Finset.range (n + 1)).filter (fun q => cnt q ≤ p) = Finset.range (n + 1) := by
        apply Finset.filter_true_of_mem
        intro q hq
        have hq' := Finset.mem_range.mp hq
        exact le_trans (cnt_mono (by omega)) h
      rw [hall, Finset.card_range]
    · rw [Finset.range_add_one, Finset.filter_insert, if_neg h]
      exact ih

/-- The characterisation of `flat`: a position is before `flat p` exactly when it is one of the 2^20 positions and
its running count is at most `p`. -/
theorem lt_flat_iff (p q : ℕ) : q < flat p ↔ q < 1048576 ∧ cnt q ≤ p := by
  rw [flat_eq_card, ← Finset.mem_range, ← filter_le_eq_range, Finset.mem_filter, Finset.mem_range]

theorem flat_le (p : ℕ) : flat p ≤ 1048576 := by
  rw [flat_eq_card]
  calc ((Finset.range 1048576).filter fun q => cnt q ≤ p).card
      ≤ (Finset.range 1048576).card := Finset.card_filter_le _ _
    _ = 1048576 := Finset.card_range _

/-! ### The theorems -/

theorem flat_lt (p : ℕ) (hp : p < 523776) : flat p < 1048576 := by
  have hle := flat_le p
  by_contra hcon
  have heq : flat p = 1048576 := by omega
  have hmem : (1048575 : ℕ) < flat p := by omega
  have h := ((lt_flat_iff p 1048575).mp hmem).2
  rw [cnt_last] at h
  omega

/-- At `flat p` the running count has just stepped from `p` to `p + 1`. -/
theorem flat_step (p : ℕ) (hp : p < 523776) :
    ∃ m, flat p = m + 1 ∧ cnt m ≤ p ∧ p < cnt (m + 1) := by
  have hlt := flat_lt p hp
  have hnot : ¬ (flat p < 1048576 ∧ cnt (flat p) ≤ p) := by
    rw [← lt_flat_iff]
    omega
  have hgt : p < cnt (flat p) := by
    by_contra hc
    exact hnot ⟨hlt, by omega⟩
  have hpos : flat p ≠ 0 := by
    intro h0
    rw [h0, cnt_zero] at hgt
    omega
  obtain ⟨m, hm⟩ : ∃ m, flat p = m + 1 := ⟨flat p - 1, by omega⟩
  refine ⟨m, hm, ?_, ?_⟩
  · have : m < flat p := by omega
    exact ((lt_flat_iff p m).mp this).2
  · rw [← hm]
    exact hgt

theorem flat_below (p : ℕ) (hp : p < 523776) : below (flat p) := by
  obtain ⟨m, hm, h1, h2⟩ := flat_step p hp
  rw [hm]
  by_contra hb
  rw [cnt_succ_of_not_below hb] at h2
  omega

theorem cnt_flat (p : ℕ) (hp : p < 523776) : cnt (flat p) = p + 1 := by
  obtain ⟨m, hm, h1, h2⟩ := flat_step p hp
  rw [hm]
  have h3 := cnt_succ_le m
  omega

theorem flat_cnt (q : ℕ) (hq : q < 1048576) (hb : below q) :
    0 < cnt q ∧ flat (cnt q - 1) = q := by
  have hpos : q ≠ 0 := by
    intro h0
    rw [h0] at hb
    exact not_below_zero hb
  obtain ⟨m, hm⟩ : ∃ m, q = m + 1 := ⟨q - 1, by omega⟩
  subst hm
  have hstep : cnt (m + 1) = cnt m + 1 := cnt_succ_of_below hb
  refine ⟨by omega, ?_⟩
  have hup : ¬ m + 1 < flat (cnt (m + 1) - 1) := by
    rw [lt_flat_iff]
    omega
  have hlo : m < flat (cnt (m + 1) - 1) := by
    rw [lt_flat_iff]
    omega
  omega

end Cert.Tri
-- ==== Proof.Algebra.lean ====
/-
  The algebraic law that joins the two closed forms of the hidden layer.  Over the real numbers

      x i · (Ws + Wd) + a j · (Wa - Wd)  =  [x i | a j | x i - a j] · W

  by distributivity, where `Ws`, `Wa`, `Wd` are the three bands of 128 rows of `W`.  On the extended reals
  distributivity, subtraction and regrouping fail at infinite values, so the law is stated for real entries of
  `x`, `a` and `W`: the coercion `ℝ → EReal` is pushed outwards through products, sums and differences, the
  sum over 384 rows is cut into its three bands, and what is left is an identity of real numbers.
  The biases and the second layer enter both forms in the same way and may be any extended reals.
-/
import proofs.«109150_j81982335746216_1_alg».proof.Proof.Spec
import Mathlib.Algebra.BigOperators.Fin
import Mathlib.Data.EReal.Operations
import Mathlib.Tactic.Ring

noncomputable section

open scoped BigOperators

namespace Cert.Spec

open Idealize.ShloMosaic Idealize.ShloMosaic.ValueIdx

/-- The coercion of the reals into the extended reals commutes with finite sums. -/
theorem coe_finset_sum {ι : Type*} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A sum over the 384 rows is the sum of the sums over the three bands. -/
theorem sum_bands {M : Type*} [AddCommMonoid M] (f : Fin 384 → M) :
    ∑ k : Fin 384, f k
      = (∑ k : Fin 128, f (bandS k)) + ((∑ k : Fin 128, f (bandA k)) + (∑ k : Fin 128, f (bandD k))) := by
  have h1 : ∑ k : Fin 384, f k
      = (∑ k : Fin 128, f (Fin.castAdd 256 k)) + ∑ k : Fin 256, f (Fin.natAdd 128 k) :=
    Fin.sum_univ_add (a := 128) (b := 256) f
  have h2 : ∑ k : Fin 256, f (Fin.natAdd 128 k)
      = (∑ k : Fin 128, f (Fin.natAdd 128 (Fin.castAdd 128 k)))
        + ∑ k : Fin 128, f (Fin.natAdd 128 (Fin.natAdd 128 k)) :=
    Fin.sum_univ_add (a := 128) (b := 128) (fun k : Fin 256 => f (Fin.natAdd 128 k))
  rw [h1, h2]
  have e1 : ∀ k : Fin 128, (Fin.castAdd 256 k : Fin 384) = bandS k := fun k => Fin.ext rfl
  have e2 : ∀ k : Fin 128, (Fin.natAdd 128 (Fin.castAdd 128 k) : Fin 384) = bandA k := fun k => Fin.ext rfl
  have e3 : ∀ k : Fin 128, (Fin.natAdd 128 (Fin.natAdd 128 k) : Fin 384) = bandD k := fun k => by
    apply Fin.ext
    show 128 + (128 + k.val) = 256 + k.val
    omega
  simp only [e1, e2, e3]

section
variable (x a : Fin 1024 → Fin 128 → EReal) (W : Fin 384 → Fin 128 → EReal) (b1 w2 : Fin 128 → EReal) (b2 : EReal)

/-- On the first band the concatenated features are the span's. -/
theorem feats_bandS (i j : Fin 1024) (k : Fin 128) : feats x a i j (bandS k) = x i k := by
  have h : (bandS k).val < 128 := k.isLt
  unfold feats
  rw [dif_pos h]
  rfl

/-- On the second band the concatenated features are the antecedent's. -/
theorem feats_bandA (i j : Fin 1024) (k : Fin 128) : feats x a i j (bandA k) = a j k := by
  have h : ¬ (bandA k).val < 128 := by show ¬ (128 + k.val < 128); omega
  have h2 : (bandA k).val < 256 := by show 128 + k.val < 256; omega
  unfold feats
  rw [dif_neg h, dif_pos h2]
  congr 1
  apply Fin.ext
  show 128 + k.val - 128 = k.val
  omega

/-- On the third band the concatenated features are the difference of the two. -/
theorem feats_bandD (i j : Fin 1024) (k : Fin 128) : feats x a i j (bandD k) = x i k - a j k := by
  have h : ¬ (bandD k).val < 128 := by show ¬ (256 + k.val < 128); omega
  have h2 : ¬ (bandD k).val < 256 := by show ¬ (256 + k.val < 256); omega
  have e : (⟨(bandD k).val - 256, by have := (bandD k).isLt; omega⟩ : Fin 128) = k := by
    apply Fin.ext
    show 256 + k.val - 256 = k.val
    omega
  unfold feats
  rw [dif_neg h, dif_neg h2, e]

/-- The two groupings of the hidden layer's linear part agree when every entry of `x`, `a` and `W` is real. -/
theorem kA_add_kB_eq
    (hx : ∀ i k, ∃ r : ℝ, x i k = (r : EReal)) (ha : ∀ j k, ∃ r : ℝ, a j k = (r : EReal))
    (hW : ∀ k d, ∃ r : ℝ, W k d = (r : EReal)) (i j : Fin 1024) (d : Fin 128) :
    kA x W i d + kB a W j d = ∑ k : Fin 384, feats x a i j k * W k d := by
  choose xr hxr using hx
  choose ar har using ha
  choose Wr hWr using hW
  rw [sum_bands]
  simp only [feats_bandS, feats_bandA, feats_bandD, kA, kB, hxr, har, hWr]
  simp only [← EReal.coe_add, ← EReal.coe_sub, ← EReal.coe_mul, ← coe_finset_sum]
  congr 1
  simp only [mul_add, mul_sub, sub_mul, Finset.sum_add_distrib, Finset.sum_sub_distrib]
  ring

/-- The kernel's score and the reference's score of a pair agree for real entries of `x`, `a` and `W`. -/
theorem kScore_eq_rScore
    (hx : ∀ i k, ∃ r : ℝ, x i k = (r : EReal)) (ha : ∀ j k, ∃ r : ℝ, a j k = (r : EReal))
    (hW : ∀ k d, ∃ r : ℝ, W k d = (r : EReal)) (i j : Fin 1024) :
    kScore x a W b1 w2 b2 i j = rScore x a W b1 w2 b2 i j := by
  unfold kScore rScore rPre
  simp only [kA_add_kB_eq x a W hx ha hW]
end

/-- The two forms of the whole result agree when every entry of the two feature arrays and of the first layer's
    weights is real. -/
theorem outK_eq_outR (X A : (⟨2, ![1024, 128]⟩ : Shape).Idx → EReal) (W : (⟨2, ![384, 128]⟩ : Shape).Idx → EReal)
    (B1 : (⟨1, ![128]⟩ : Shape).Idx → EReal) (W2 : (⟨2, ![128, 1]⟩ : Shape).Idx → EReal) (B2 : (⟨1, ![1]⟩ : Shape).Idx → EReal)
    (hX : ∀ ix, ∃ r : ℝ, X ix = (r : EReal)) (hA : ∀ ix, ∃ r : ℝ, A ix = (r : EReal))
    (hW : ∀ ix, ∃ r : ℝ, W ix = (r : EReal)) :
    outK X A W B1 W2 B2 = outR X A W B1 W2 B2 := by
  unfold outK outR
  congr 1
  funext i j
  exact kScore_eq_rScore (arr2 X) (arr2 A) (arr2 W) (arr1 B1) (fun d => W2 (ix2 d 0)) (B2 (ix1 0))
    (fun i k => hX (ix2 i k)) (fun j k => hA (ix2 j k)) (fun k d => hW (ix2 k d)) i j

end Cert.Spec

end
-- ==== Proof.Finite.lean ====
/-
  From the precondition to "every entry is a real number".  The precondition is a conjunction of six `jnp.all`s, each a
  reduction by `and` of the bits `|x| < +∞`; a bit that is one says the entry is neither `+∞` nor `-∞`, that is, a real.
-/
import proofs.«109150_j81982335746216_1_alg».proof.Pre_finite_inputs
import proofs.«109150_j81982335746216_1_alg».proof.Proof.Gen.Pre_finite_inputs
import Idealize.ShloMosaic.Lib.ReduceAll
import Idealize.ShloMosaic.Lib.ValueIdx
import Idealize.ShloMosaic.PureOps.Ideal.Laws

noncomputable section

namespace Cert.Finite

open Idealize.ShloMosaic Cert.Pre_finite_inputs Cert.Pre_finite_inputs.Gen

instance : Subsingleton S_.Idx := ⟨fun a b => funext fun d => d.elim0⟩

/-- An extended real whose absolute value compares below the f32 word of `+∞` is a real number. -/
theorem real_of_bit (x : EReal)
    (h : FloatOps.cmpf (F := Ideal) (φ := .f32) .olt (FloatOps.hostAbsf (F := Ideal) (φ := .f32) x) (Ideal.ofBits .f32 0x7F800000#32) = 1#1) :
    ∃ r : ℝ, x = (r : EReal) := by
  have htop : Ideal.ofBits .f32 0x7F800000#32 = (⊤ : EReal) := by simp [Ideal.ofBits, Ideal.ieee]
  rw [Ideal.cmpf_def, Ideal.hostAbsf_def, Ideal.absf_def, htop] at h
  induction x using EReal.rec with
  | bot => simp [Ideal.cmp] at h
  | top => simp [Ideal.cmp] at h
  | coe r => exact ⟨r, rfl⟩

/-- One `jnp.all(|x| < inf)` that came out one: every entry of `x` is a real number. -/
theorem all_real {s : Shape} {axes : List (Fin s.rank)} (x : FVec Ideal s .f32) (hb : S_.BroadcastsInDim s (![] : Fin 0 → Fin s.rank))
    (hr : s.ReducesTo axes S_) (hu : 0 < S_.numel)
    (e : Host.reduce IntOp.andi (cmpf .olt (Host.absf x) (broadcastInDim s ![] hb (constant (F := Ideal) S_ .f32 0x7F800000#32)))
      (constantI S_ 1 1#1) hr hu ValueIdx.ix0 = 1#1) (i : s.Idx) : ∃ r : ℝ, x i = (r : EReal) :=
  real_of_bit (x i) (Host.reduce_andi_all _ _ hr hu ValueIdx.ix0 e i)

/-- The precondition read back: the first three argument arrays (the two feature tables and the first layer's weights)
    hold real numbers. -/
theorem reals_of_pre (a0 a1 : FVec Ideal S1024x128 .f32) (a2 : FVec Ideal S384x128 .f32) (a3 : FVec Ideal S128 .f32)
    (a4 : FVec Ideal S128x1 .f32) (a5 : FVec Ideal S1 .f32)
    (h : Cert.Pre_finite_inputs.fn (F := Ideal) a0 a1 a2 a3 a4 a5 = fun _ => 1#1) :
    (∀ i, ∃ r : ℝ, a0 i = (r : EReal)) ∧ (∀ i, ∃ r : ℝ, a1 i = (r : EReal)) ∧ (∀ i, ∃ r : ℝ, a2 i = (r : EReal)) := by
  have h0 := congrFun h ValueIdx.ix0
  dsimp only [Cert.Pre_finite_inputs.fn, Cert.Pre_finite_inputs.fn_part1] at h0
  obtain ⟨h1, -⟩ := IntOp.andi_eq_one.mp h0
  obtain ⟨h2, -⟩ := IntOp.andi_eq_one.mp h1
  obtain ⟨h3, -⟩ := IntOp.andi_eq_one.mp h2
  obtain ⟨h4, e2⟩ := IntOp.andi_eq_one.mp h3
  obtain ⟨e0, e1⟩ := IntOp.andi_eq_one.mp h4
  exact ⟨all_real a0 _ _ _ e0, all_real a1 _ _ _ e1, all_real a2 _ _ _ e2⟩

end Cert.Finite

end
-- ==== Proof.KernelValuePayload.lean ====
/-
  The kernel body's arithmetic at one entry of its 128 × 128 output block.  From the seven loaded blocks — a block `x0` of
  span rows, a block `x1` of antecedent rows, the two combined weight bands `x2`, `x3`, the first bias `x4`, the second
  layer's weights `x5` (a column) and the second bias `x6` (one number) — the body forms the two products `x0 · x2` and
  `x1 · x3` (each entry a sum of 128 products), adds row `r` of the first to row `c` of the second and the bias, takes the
  maximum with zero, multiplies by the second layer's weights and sums over the 128 features, and adds the second bias.
  Every layout step (casts that insert a unit axis, broadcasts along it, the column read as a vector) reads one entry of its
  operand; the lemmas below name that entry, and `pay2_apply` assembles the entry of the block as a double sum.
-/
import proofs.«109150_j81982335746216_1_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.KValue

open Idealize.ShloMosaic Idealize.ShloMosaic.ValueIdx Cert.KernelIdeal Cert.KernelIdeal.Gen

/-! ## The matrix product at an entry -/

theorem lhs_row (j : S128x128.Idx) (q : dot_S128x128_S128x128_S128x128_1_0_0_1_n_n.contr.Idx) :
    (dot_S128x128_S128x128_S128x128_1_0_0_1_n_n.lhsIdx j q 0).val = (j 0).val := by
  unfold DotDims.lhsIdx
  rw [dif_neg (show ¬(0 : Fin S128x128.rank) ∈ dot_S128x128_S128x128_S128x128_1_0_0_1_n_n.lhsBatch by decide),
    dif_pos (show (0 : Fin S128x128.rank) ∈ dot_S128x128_S128x128_S128x128_1_0_0_1_n_n.lhsNonContracting by decide)]
  rfl

theorem lhs_col (j : S128x128.Idx) (q : dot_S128x128_S128x128_S128x128_1_0_0_1_n_n.contr.Idx) :
    (dot_S128x128_S128x128_S128x128_1_0_0_1_n_n.lhsIdx j q 1).val = (q ⟨0, by decide⟩).val :=
  dot_S128x128_S128x128_S128x128_1_0_0_1_n_n.lhsIdx_val_of_single rfl j q

theorem rhs_row (j : S128x128.Idx) (q : dot_S128x128_S128x128_S128x128_1_0_0_1_n_n.contr.Idx) :
    (dot_S128x128_S128x128_S128x128_1_0_0_1_n_n.rhsIdx j q 0).val = (q ⟨0, by decide⟩).val :=
  dot_S128x128_S128x128_S128x128_1_0_0_1_n_n.rhsIdx_val_of_single rfl j q

theorem rhs_col (j : S128x128.Idx) (q : dot_S128x128_S128x128_S128x128_1_0_0_1_n_n.contr.Idx) :
    (dot_S128x128_S128x128_S128x128_1_0_0_1_n_n.rhsIdx j q 1).val = (j 1).val := by
  unfold DotDims.rhsIdx
  rw [dif_neg (show ¬(1 : Fin S128x128.rank) ∈ dot_S128x128_S128x128_S128x128_1_0_0_1_n_n.rhsBatch by decide),
    dif_pos (show (1 : Fin S128x128.rank) ∈ dot_S128x128_S128x128_S128x128_1_0_0_1_n_n.rhsNonContracting by decide)]
  rfl

/-- Entry (r, d) of a product into a zero accumulator: the sum over the 128 inner positions. -/
theorem matmul_at (a b : FVec Ideal S128x128 .f32) (r d : Fin 128) :
    matmul dot_S128x128_S128x128_S128x128_1_0_0_1_n_n none a b (constant (F := Ideal) S128x128 .f32 0x00000000#32) (ix2 r d)
      = ∑ k : Fin 128, a (ix2 r k) * b (ix2 k d) := by
  refine (Ideal.matmul_constant_zero_apply dot_S128x128_S128x128_S128x128_1_0_0_1_n_n none a b (ix2 r d)).trans ?_
  rw [← Equiv.sum_comp (contrEquiv1 dot_S128x128_S128x128_S128x128_1_0_0_1_n_n 128 rfl rfl).symm]
  refine Finset.sum_congr rfl fun k _ => ?_
  have hk := contrEquiv1_symm_val dot_S128x128_S128x128_S128x128_1_0_0_1_n_n 128 rfl rfl k
  have el : dot_S128x128_S128x128_S128x128_1_0_0_1_n_n.lhsIdx (ix2 r d) ((contrEquiv1 dot_S128x128_S128x128_S128x128_1_0_0_1_n_n 128 rfl rfl).symm k) = ix2 r k :=
    funext fun a => Fin.ext (by
      match a with
      | ⟨0, _⟩ => exact lhs_row _ _
      | ⟨1, _⟩ => exact (lhs_col _ _).trans hk)
  have er : dot_S128x128_S128x128_S128x128_1_0_0_1_n_n.rhsIdx (ix2 r d) ((contrEquiv1 dot_S128x128_S128x128_S128x128_1_0_0_1_n_n 128 rfl rfl).symm k) = ix2 k d :=
    funext fun a => Fin.ext (by
      match a with
      | ⟨0, _⟩ => exact (rhs_row _ _).trans hk
      | ⟨1, _⟩ => exact rhs_col _ _)
  rw [el, er]

/-! ## The layout steps at an entry -/

/-- A 128 × 128 matrix viewed as 128 × 1 × 128 and broadcast along the middle axis: entry (r, ·, d) is entry (r, d). -/
theorem bcastRow_at (v : FVec Ideal S128x128 .f32) (j : S128x128x128.Idx) (r d : Fin 128) (hr : (j 0).val = r.val) (hd : (j 2).val = d.val) :
    broadcastTo S128x128x128 (shapeCast S128x1x128 v shapeCasts_S128x128_S128x1x128) broadcasts_S128x1x128_S128x128x128 j = v (ix2 r d) := by
  refine (broadcastTo_apply _ _ j (ix3 r 0 d) fun a => ?_).trans ?_
  · match a with
    | ⟨0, _⟩ => exact hr.symm
    | ⟨1, _⟩ => rfl
    | ⟨2, _⟩ => exact hd.symm
  · exact shapeCast_apply v _ (ix3 r 0 d) (ix2 r d) (by
      rw [Shape.rowMajor_val_two, Shape.rowMajor_val_three]
      show r.val * 128 + d.val = (r.val * 1 + 0) * 128 + d.val
      omega)

/-- A 128 × 128 matrix viewed as 1 × 128 × 128 and broadcast along the first axis: entry (·, c, d) is entry (c, d). -/
theorem bcastCol_at (v : FVec Ideal S128x128 .f32) (j : S128x128x128.Idx) (c d : Fin 128) (hc : (j 1).val = c.val) (hd : (j 2).val = d.val) :
    broadcastTo S128x128x128 (shapeCast S1x128x128 v shapeCasts_S128x128_S1x128x128) broadcasts_S1x128x128_S128x128x128 j = v (ix2 c d) := by
  refine (broadcastTo_apply _ _ j (ix3 0 c d) fun a => ?_).trans ?_
  · match a with
    | ⟨0, _⟩ => rfl
    | ⟨1, _⟩ => exact hc.symm
    | ⟨2, _⟩ => exact hd.symm
  · exact shapeCast_apply v _ (ix3 0 c d) (ix2 c d) (by
      rw [Shape.rowMajor_val_two, Shape.rowMajor_val_three]
      show c.val * 128 + d.val = (0 * 128 + c.val) * 128 + d.val
      omega)

/-- A vector of 128 numbers viewed as 1 × 1 × 128 and broadcast along the first two axes: entry (·, ·, d) is entry d. -/
theorem bcastLane_at (v : FVec Ideal S128 .f32) (j : S128x128x128.Idx) (d : Fin 128) (hd : (j 2).val = d.val) :
    broadcastTo S128x128x128 (shapeCast S1x1x128 v shapeCasts_S128_S1x1x128) broadcasts_S1x1x128_S128x128x128 j = v (ix1 d) := by
  refine (broadcastTo_apply _ _ j (ix3 0 0 d) fun a => ?_).trans ?_
  · match a with
    | ⟨0, _⟩ => rfl
    | ⟨1, _⟩ => rfl
    | ⟨2, _⟩ => exact hd.symm
  · exact shapeCast_apply v _ (ix3 0 0 d) (ix1 d) (by
      rw [Shape.rowMajor_val_one, Shape.rowMajor_val_three]
      show d.val = (0 * 1 + 0) * 128 + d.val
      omega)

/-- A 128 × 1 column viewed as a vector of 128 numbers: entry d is entry (d, 0). -/
theorem column_at (v : FVec Ideal S128x1 .f32) (d : Fin 128) :
    shapeCast S128 v shapeCasts_S128x1_S128 (ix1 d) = v (ix2 d 0) :=
  shapeCast_apply v _ (ix1 d) (ix2 d 0) (by
    rw [Shape.rowMajor_val_two, Shape.rowMajor_val_one]
    show d.val * 1 + 0 = d.val
    omega)

/-! ## The block's entry -/

/-- Entry (r, c) of the body's score block, from the seven loaded blocks. -/
theorem pay2_apply (x0 x1 x2 x3 : Vec Ideal S128x128 .f32) (x4 : Vec Ideal S128 .f32) (x5 : Vec Ideal S128x1 .f32)
    (x6 : Vec Ideal S1 .f32) (r c : Fin 128) :
    k0_pay2 x0 x1 x2 x3 x4 x5 x6 (ix2 r c)
      = (∑ d : Fin 128, max (((∑ k : Fin 128, x0 (ix2 r k) * x2 (ix2 k d)) + (∑ k : Fin 128, x1 (ix2 c k) * x3 (ix2 k d)))
            + x4 (ix1 d)) 0 * x5 (ix2 d 0)) + x6 (ix1 0) := by
  unfold k0_pay2
  dsimp only
  refine (addf_apply _ _ _).trans (congrArg₂ (· + ·) ?_ ?_)
  · -- the sum over the 128 features
    refine (Ideal.multiReduction_add_single _ _ _ _ _ (ix2 r c)).trans ?_
    show ∑ d : Fin 128, _ = ∑ d : Fin 128, _
    refine Finset.sum_congr rfl fun d _ => ?_
    refine (mulf_apply _ _ _).trans (congrArg₂ (· * ·) ?_ ?_)
    · refine (maximumf_apply _ _ _).trans (congrArg₂ max ?_ ?_)
      · refine (addf_apply _ _ _).trans (congrArg₂ (· + ·) ?_ ?_)
        · refine (addf_apply _ _ _).trans (congrArg₂ (· + ·) ?_ ?_)
          · refine (bcastRow_at _ _ r d rfl rfl).trans ((matmul_at _ _ r d).trans ?_)
            rw [shapeCast_self]
          · refine (bcastCol_at _ _ c d rfl rfl).trans ((matmul_at _ _ c d).trans ?_)
            rw [shapeCast_self]
        · exact bcastLane_at x4 _ d rfl
      · exact Ideal.ofBits_zero_f32
    · exact (bcastLane_at _ _ d rfl).trans (column_at x5 d)
  · -- the second bias, the one entry of its block
    exact congrArg x6 (funext fun a => by match a with | ⟨0, _⟩ => rfl)

end Cert.KernelIdeal.KValue

end
-- ==== Proof.KernelValueMask.lean ====
/-
  The kernel's mask.  At grid point (bi, bj) the body compares, entry by entry of its 128 × 128 block, the row number
  128·bi + r with the column number 128·bj + c, both built as 32-bit words (the grid coordinate times 128 plus an iota),
  by a signed "greater than".  All the numbers involved are below 1024, so the words are their own signed readings and the
  comparison is the comparison of the natural numbers: the mask bit at (r, c) is set exactly when the entry's column lies
  strictly before its row in the whole 1024 × 1024 array.
-/
import proofs.«109150_j81982335746216_1_alg».proof.Proof.Gen.KernelIdeal.Skeleton
import Idealize.ShloMosaic.Lib.ValueIdx
import Idealize.ShloMosaic.Lib.Pipeline.Value

noncomputable section

namespace Cert.KernelIdeal.KValue

open Idealize.ShloMosaic Idealize.ShloMosaic.ValueIdx Cert.KernelIdeal Cert.KernelIdeal.Gen

/-- A block coordinate times 128 plus an offset inside the block, as a 32-bit word, is that number. -/
theorem word_toNat (a r : Nat) (ha : a < 8) (hr : r < 128) :
    (IntOp.addi (Scalar.muli (BitVec.ofNat 32 a) 128#32) (BitVec.ofNat 32 r)).toNat = 128 * a + r := by
  unfold IntOp.addi Scalar.muli IntOp.muli
  rw [BitVec.toNat_add, BitVec.toNat_mul, BitVec.toNat_ofNat, BitVec.toNat_ofNat]
  show ((a % 2 ^ 32) * 128 % 2 ^ 32 + r % 2 ^ 32) % 2 ^ 32 = 128 * a + r
  omega

/-- The signed comparison of two such words is the comparison of the numbers. -/
theorem word_sgt (a b r c : Nat) (ha : a < 8) (hb : b < 8) (hr : r < 128) (hc : c < 128) :
    IntOp.cmpi .sgt (IntOp.addi (Scalar.muli (BitVec.ofNat 32 a) 128#32) (BitVec.ofNat 32 r))
        (IntOp.addi (Scalar.muli (BitVec.ofNat 32 b) 128#32) (BitVec.ofNat 32 c)) = 1#1
      ↔ 128 * b + c < 128 * a + r := by
  have e1 := word_toNat a r ha hr
  have e2 := word_toNat b c hb hc
  unfold IntOp.cmpi
  show BitVec.ofBool (BitVec.slt _ _) = 1#1 ↔ _
  rw [show (1#1 : BitVec 1) = BitVec.ofBool true from rfl, BitVec.ofBool_eq_iff_eq, BitVec.slt_iff_toInt_lt, BitVec.toInt_eq_toNat_of_lt (by rw [e2]; omega),
    BitVec.toInt_eq_toNat_of_lt (by rw [e1]; omega), e1, e2]
  omega

/-- The mask bit of entry (r, c) of the block at grid coordinates `i`. -/
theorem mask_apply (i : grid0.Coords) (r c : Fin 128) :
    k0_pay3 i (ix2 r c) = 1#1 ↔ 128 * (i 1).val + c.val < 128 * (i 0).val + r.val := by
  unfold k0_pay3
  show IntOp.cmpi .sgt (IntOp.addi (Scalar.muli (BitVec.ofNat 32 (i 0).val) 128#32) (iota .tc S128x128 32 [0] iota_S128x128_d0_w32 (ix2 r c)))
      (IntOp.addi (Scalar.muli (BitVec.ofNat 32 (i 1).val) 128#32) (iota .tc S128x128 32 [1] iota_S128x128_d1_w32 (ix2 r c))) = 1#1 ↔ _
  rw [iota_single_apply, iota_single_apply]
  exact word_sgt (i 0).val (i 1).val r.val c.val (i 0).isLt (i 1).isLt r.isLt c.isLt

end Cert.KernelIdeal.KValue

end
-- ==== Proof.KernelValueBlock.lean ====
/-
  One entry of the block the kernel stores at a grid point, as the specification's value.  The stored block is the score
  block where the mask is set and zero elsewhere; the mask is set where the entry's column in the whole array lies before
  its row.  When the seven loaded blocks are the rows 128·bi … 128·bi + 127 of the spans, the rows 128·bj … 128·bj + 127 of
  the antecedents, the sum of the first and third bands of the weights, the difference of the second and third, and the two
  biases and the second layer's weights as given, the entry (r, c) of the stored block is the specification's result at
  row 128·bi + r and column 128·bj + c.  No law of arithmetic is used: the two sides are the same sums, term by term.
-/
import proofs.«109150_j81982335746216_1_alg».proof.Proof.KernelValuePayload
import proofs.«109150_j81982335746216_1_alg».proof.Proof.KernelValueMask
import proofs.«109150_j81982335746216_1_alg».proof.Proof.Spec

noncomputable section

open scoped BigOperators

namespace Cert.KernelIdeal.KValue

open Idealize.ShloMosaic Idealize.ShloMosaic.ValueIdx Cert.KernelIdeal Cert.KernelIdeal.Gen

/-- Row `r` of block `b` of an array of 1024 rows cut into 8 blocks of 128. -/
def rowOf (b : Fin 8) (r : Fin 128) : Fin 1024 := ⟨128 * b.val + r.val, by omega⟩

theorem rowOf_val (b : Fin 8) (r : Fin 128) : (rowOf b r).val = 128 * b.val + r.val := rfl

/-- Entry (r, c) of the stored block: the score where the mask is set, zero elsewhere. -/
theorem stored_at (i : grid0.Coords) (x0 x1 x2 x3 : Vec Ideal S128x128 .f32) (x4 : Vec Ideal S128 .f32) (x5 : Vec Ideal S128x1 .f32)
    (x6 : Vec Ideal S1 .f32) (r c : Fin 128) :
    k0_pay1 (k0_pay2 x0 x1 x2 x3 x4 x5 x6) (k0_pay3 i) (k0_pay4 (F := Ideal)) (ix2 r c)
      = if 128 * (i 1).val + c.val < 128 * (i 0).val + r.val then
          (∑ d : Fin 128, max (((∑ k : Fin 128, x0 (ix2 r k) * x2 (ix2 k d)) + (∑ k : Fin 128, x1 (ix2 c k) * x3 (ix2 k d)))
            + x4 (ix1 d)) 0 * x5 (ix2 d 0)) + x6 (ix1 0)
        else 0 := by
  unfold k0_pay1 k0_pay4
  dsimp only
  refine (select_apply _ _ _ _).trans ?_
  by_cases h : 128 * (i 1).val + c.val < 128 * (i 0).val + r.val
  · rw [if_pos h, (mask_apply i r c).mpr h, select_one]
    exact pay2_apply x0 x1 x2 x3 x4 x5 x6 r c
  · rw [if_neg h, eq_zero_of_ne_one (fun e => h ((mask_apply i r c).mp e)), select_zero]
    exact Ideal.ofBits_zero_f32

/-- The stored entry is the specification's, when the loaded blocks are the named parts of the argument arrays. -/
theorem block_entry (X A : (⟨2, ![1024, 128]⟩ : Shape).Idx → EReal) (W : (⟨2, ![384, 128]⟩ : Shape).Idx → EReal)
    (B1 : (⟨1, ![128]⟩ : Shape).Idx → EReal) (W2 : (⟨2, ![128, 1]⟩ : Shape).Idx → EReal) (B2 : (⟨1, ![1]⟩ : Shape).Idx → EReal)
    (i : grid0.Coords) (bi bj : Fin 8) (hi0 : (i 0).val = bi.val) (hi1 : (i 1).val = bj.val)
    (x0 x1 x2 x3 : Vec Ideal S128x128 .f32) (x4 : Vec Ideal S128 .f32) (x5 : Vec Ideal S128x1 .f32) (x6 : Vec Ideal S1 .f32)
    (h0 : ∀ r k : Fin 128, x0 (ix2 r k) = X (ix2 (rowOf bi r) k))
    (h1 : ∀ r k : Fin 128, x1 (ix2 r k) = A (ix2 (rowOf bj r) k))
    (h2 : ∀ k d : Fin 128, x2 (ix2 k d) = W (ix2 (Spec.bandS k) d) + W (ix2 (Spec.bandD k) d))
    (h3 : ∀ k d : Fin 128, x3 (ix2 k d) = W (ix2 (Spec.bandA k) d) - W (ix2 (Spec.bandD k) d))
    (h4 : x4 = B1) (h5 : x5 = W2) (h6 : x6 = B2) (r c : Fin 128) :
    k0_pay1 (k0_pay2 x0 x1 x2 x3 x4 x5 x6) (k0_pay3 i) (k0_pay4 (F := Ideal)) (ix2 r c)
      = Spec.outK X A W B1 W2 B2 (ix2 (rowOf bi r) (rowOf bj c)) := by
  rw [stored_at, hi0, hi1]
  unfold Spec.outK Spec.out
  show (if 128 * bj.val + c.val < 128 * bi.val + r.val then _ else (0 : EReal))
    = if 128 * bj.val + c.val < 128 * bi.val + r.val then _ else (0 : EReal)
  refine if_congr Iff.rfl ?_ rfl
  unfold Spec.kScore Spec.kA Spec.kB Spec.arr2 Spec.arr1
  subst h4 h5 h6
  refine congrArg₂ (· + ·) (Finset.sum_congr rfl fun d _ => ?_) rfl
  refine congrArg₂ (· * ·) (congrArg₂ max (congrArg₂ (· + ·) (congrArg₂ (· + ·)
    (Finset.sum_congr rfl fun k _ => ?_) (Finset.sum_congr rfl fun k _ => ?_)) rfl) rfl) rfl
  · rw [h0, h2]
  · rw [h1, h3]

/-- The same at any entry `y` of the block and any entry `g` of the whole array that sits 128·bi rows and 128·bj columns
    further on. -/
theorem block_entry_at (X A : (⟨2, ![1024, 128]⟩ : Shape).Idx → EReal) (W : (⟨2, ![384, 128]⟩ : Shape).Idx → EReal)
    (B1 : (⟨1, ![128]⟩ : Shape).Idx → EReal) (W2 : (⟨2, ![128, 1]⟩ : Shape).Idx → EReal) (B2 : (⟨1, ![1]⟩ : Shape).Idx → EReal)
    (i : grid0.Coords) (bi bj : Fin 8) (hi0 : (i 0).val = bi.val) (hi1 : (i 1).val = bj.val)
    (x0 x1 x2 x3 : Vec Ideal S128x128 .f32) (x4 : Vec Ideal S128 .f32) (x5 : Vec Ideal S128x1 .f32) (x6 : Vec Ideal S1 .f32)
    (h0 : ∀ r k : Fin 128, x0 (ix2 r k) = X (ix2 (rowOf bi r) k))
    (h1 : ∀ r k : Fin 128, x1 (ix2 r k) = A (ix2 (rowOf bj r) k))
    (h2 : ∀ k d : Fin 128, x2 (ix2 k d) = W (ix2 (Spec.bandS k) d) + W (ix2 (Spec.bandD k) d))
    (h3 : ∀ k d : Fin 128, x3 (ix2 k d) = W (ix2 (Spec.bandA k) d) - W (ix2 (Spec.bandD k) d))
    (h4 : x4 = B1) (h5 : x5 = W2) (h6 : x6 = B2) (y : S128x128.Idx) (g : (⟨2, ![1024, 1024]⟩ : Shape).Idx)
    (hg0 : (g 0).val = 128 * bi.val + (y 0).val) (hg1 : (g 1).val = 128 * bj.val + (y 1).val) :
    k0_pay1 (k0_pay2 x0 x1 x2 x3 x4 x5 x6) (k0_pay3 i) (k0_pay4 (F := Ideal)) y = Spec.outK X A W B1 W2 B2 g := by
  obtain ⟨r, c, rfl⟩ : ∃ r c : Fin 128, y = ix2 r c := ⟨y 0, y 1, eq_ix2 y⟩
  have eg : g = ix2 (rowOf bi r) (rowOf bj c) := by
    rw [eq_ix2 g]
    exact congrArg₂ ix2 (Fin.ext hg0) (Fin.ext hg1)
  rw [eg]
  exact block_entry X A W B1 W2 B2 i bi bj hi0 hi1 x0 x1 x2 x3 x4 x5 x6 h0 h1 h2 h3 h4 h5 h6 r c

end Cert.KernelIdeal.KValue

end
-- ==== Proof.KernelValue.lean ====
/-
  From the kernel's blocks to its result array.  The 8 × 8 grid visits the 64 blocks of 128 × 128 entries of the
  1024 × 1024 result, block (bi, bj) at the point with coordinates (bi, bj), and writes each back once.  At that point the
  body is given rows 128·bi … of the spans, rows 128·bj … of the antecedents, and, whole, the two combined weight bands the
  host operations made before the call (first band plus third, second band minus third), the first bias, the second
  layer's weights and the second bias.  So what the point writes back is its block of the specification's result
  (`flushed_eq`, by the entry lemma of the block), every entry of the array lies in the block of the point
  (row / 128, column / 128) (`cover`), and the array after the run is the specification's result (`final`).  The run
  itself is the frame run with that array named.
-/
import proofs.«109150_j81982335746216_1_alg».proof.Proof.KernelIdealFrameP
import proofs.«109150_j81982335746216_1_alg».proof.Proof.KernelValueBlock
import Idealize.ShloMosaic.Lib.Pipeline.Value
import Idealize.ShloMosaic.Lib.Tactic

set_option maxRecDepth 16384

noncomputable section

namespace Cert.KernelIdeal.KValue

open Cert.KernelIdeal Cert.KernelIdeal.Gen Cert.KernelIdeal.GenP
open Idealize.ShloMosaic Idealize.ShloMosaic.TcCoe Idealize.ShloMosaic.ValueIdx Idealize.ShloMosaic.Tactic Idealize.SL.Sem
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-- The six arguments as launched, as functions of their indices. -/
abbrev argX (c : Dev nD) : S1024x128.Idx → EReal := m ((c.tc : Thread nD τ).loc main_arg0)
abbrev argA (c : Dev nD) : S1024x128.Idx → EReal := m ((c.tc : Thread nD τ).loc main_arg1)
abbrev argW (c : Dev nD) : S384x128.Idx → EReal := m ((c.tc : Thread nD τ).loc main_arg2)
abbrev argB1 (c : Dev nD) : S128.Idx → EReal := m ((c.tc : Thread nD τ).loc main_arg3)
abbrev argW2 (c : Dev nD) : S128x1.Idx → EReal := m ((c.tc : Thread nD τ).loc main_arg4)
abbrev argB2 (c : Dev nD) : S1.Idx → EReal := m ((c.tc : Thread nD τ).loc main_arg5)

/-- The result array the specification names, from the six arguments as launched. -/
abbrev G (c : Dev nD) : (⟨2, ![1024, 1024]⟩ : Shape).Idx → EReal :=
  Cert.Spec.outK (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

/-! ## The index maps over the grid -/

/-- The block index of each window at each point: the span rows follow the first grid coordinate, the antecedent rows
    the second, the result both; the other windows stay at their one block. -/
theorem idx_facts : ∀ t : Fin cfg0.N,
    win0_0.index t (0 : Fin 2) = (grid0.coords t 0).val ∧ win0_0.index t (1 : Fin 2) = 0
    ∧ win0_1.index t (0 : Fin 2) = (grid0.coords t 1).val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = (grid0.coords t 0).val ∧ win0_7.index t (1 : Fin 2) = (grid0.coords t 1).val :=
  (by decide +kernel : ∀ t : Fin grid0.N, _)

/-- Every pair of block coordinates is some point's. -/
theorem idx_onto : ∀ (q0 q1 : Fin 8), ∃ t : Fin cfg0.N, (grid0.coords t 0).val = q0.val ∧ (grid0.coords t 1).val = q1.val :=
  (by decide +kernel : ∀ (q0 q1 : Fin 8), ∃ t : Fin grid0.N, (grid0.coords t 0).val = q0.val ∧ (grid0.coords t 1).val = q1.val)

/-! ## The two arrays the host operations make before the call -/

/-- The first combined band: rows 0 … 127 of the weights plus rows 256 … 383. -/
theorem V_v3 (c : Dev nD) : (V m c main_v3 : S128x128.Idx → EReal)
    = addf (F := Ideal) (φ := .f32)
        (extractStridedSlice S128x128 ![0, 0] (argW m c) slices_S384x128_S128x128_0_0)
        (extractStridedSlice S128x128 ![256, 0] (argW m c) slices_S384x128_S128x128_256_0) := by
  dsimp only [GenP.V, Gen.hostOps0]; after_results

/-- The second combined band: rows 128 … 255 of the weights minus rows 256 … 383. -/
theorem V_v4 (c : Dev nD) : (V m c main_v4 : S128x128.Idx → EReal)
    = subf (F := Ideal) (φ := .f32)
        (extractStridedSlice S128x128 ![128, 0] (argW m c) slices_S384x128_S128x128_128_0)
        (extractStridedSlice S128x128 ![256, 0] (argW m c) slices_S384x128_S128x128_256_0) := by
  dsimp only [GenP.V, Gen.hostOps0]; after_results

/-! ## The input blocks at a point -/

/-- The span block at point `t`: rows 128·bi … of the first argument, `bi` the point's first coordinate. -/
theorem iblk0_at (c : Dev nD) (t : Fin cfg0.N) (r k : Fin 128) :
    (iblk m c 0 t : Vec Ideal S128x128 .f32) (ix2 r k)
      = argX m c (ix2 (rowOf (grid0.coords t 0) r) k) := by
  obtain ⟨e0, e1, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 2) * 128 + 1 * r.val = 128 * (grid0.coords t 0).val + r.val; rw [e0]; omega
  | ⟨1, _⟩ => show win0_0.index t (1 : Fin 2) * 128 + 1 * k.val = k.val; rw [e1]; omega

/-- The antecedent block at point `t`: rows 128·bj … of the second argument, `bj` the point's second coordinate. -/
theorem iblk1_at (c : Dev nD) (t : Fin cfg0.N) (r k : Fin 128) :
    (iblk m c 1 t : Vec Ideal S128x128 .f32) (ix2 r k)
      = argA m c (ix2 (rowOf (grid0.coords t 1) r) k) := by
  obtain ⟨-, -, e0, e1, -⟩ := idx_facts t
  unfold iblk
  rw [View.read_apply]
  show V m c main_arg1 _ = _
  rw [V_main_arg1]
  refine congrArg _ (funext fun a => Fin.ext ?_)
  match a with
  | ⟨0, _⟩ => show win0_1.index t (0 : Fin 2) * 128 + 1 * r.val = 128 * (grid0.coords t 1).val + r.val; rw [e0]; omega
  | ⟨1, _⟩ => show win0_1.index t (1 : Fin 2) * 128 + 1 * k.val = k.val; rw [e1]; omega

/-- The first combined band at every point: the first band of the weights plus the third, entry by entry. -/
theorem iblk2_at (c : Dev nD) (t : Fin cfg0.N) (k d : Fin 128) :
    (iblk m c 2 t : Vec Ideal S128x128 .f32) (ix2 k d)
      = argW m c (ix2 (Cert.Spec.bandS k) d)
        + argW m c (ix2 (Cert.Spec.bandD k) d) := by
  obtain ⟨-, -, -, -, e0, e1, -⟩ := idx_facts t
  unfold iblk
  rw [View.read_apply]
  show V m c main_v3 _ = _
  have ey : ((cfg0.win 2).blk t).view.emb (ix2 k d) = (ix2 k d : S128x128.Idx) := funext fun a => Fin.ext (by
    match a with
    | ⟨0, _⟩ => show win0_2.index t (0 : Fin 2) * 128 + 1 * k.val = k.val; rw [e0]; omega
    | ⟨1, _⟩ => show win0_2.index t (1 : Fin 2) * 128 + 1 * d.val = d.val; rw [e1]; omega)
  rw [ey, V_v3]
  refine (addf_apply _ _ _).trans (congrArg₂ (· + ·) ?_ ?_)
  · exact extractStridedSlice_apply _ _ _ (ix2 k d) (ix2 (Cert.Spec.bandS k) d) fun a => by
      match a with
      | ⟨0, _⟩ => show k.val = 0 + k.val; omega
      | ⟨1, _⟩ => show d.val = 0 + d.val; omega
  · exact extractStridedSlice_apply _ _ _ (ix2 k d) (ix2 (Cert.Spec.bandD k) d) fun a => by
      match a with
      | ⟨0, _⟩ => show 256 + k.val = 256 + k.val; rfl
      | ⟨1, _⟩ => show d.val = 0 + d.val; omega

/-- The second combined band at every point: the second band of the weights minus the third, entry by entry. -/
theorem iblk3_at (c : Dev nD) (t : Fin cfg0.N) (k d : Fin 128) :
    (iblk m c 3 t : Vec Ideal S128x128 .f32) (ix2 k d)
      = argW m c (ix2 (Cert.Spec.bandA k) d)
        - argW m c (ix2 (Cert.Spec.bandD k) d) := by
  obtain ⟨-, -, -, -, -, -, e0, e1, -⟩ := idx_facts t
  unfold iblk
  rw [View.read_apply]
  show V m c main_v4 _ = _
  have ey : ((cfg0.win 3).blk t).view.emb (ix2 k d) = (ix2 k d : S128x128.Idx) := funext fun a => Fin.ext (by
    match a with
    | ⟨0, _⟩ => show win0_3.index t (0 : Fin 2) * 128 + 1 * k.val = k.val; rw [e0]; omega
    | ⟨1, _⟩ => show win0_3.index t (1 : Fin 2) * 128 + 1 * d.val = d.val; rw [e1]; omega)
  rw [ey, V_v4]
  refine (subf_apply _ _ _).trans (congrArg₂ (· - ·) ?_ ?_)
  · exact extractStridedSlice_apply _ _ _ (ix2 k d) (ix2 (Cert.Spec.bandA k) d) fun a => by
      match a with
      | ⟨0, _⟩ => show 128 + k.val = 128 + k.val; rfl
      | ⟨1, _⟩ => show d.val = 0 + d.val; omega
  · exact extractStridedSlice_apply _ _ _ (ix2 k d) (ix2 (Cert.Spec.bandD k) d) fun a => by
      match a with
      | ⟨0, _⟩ => show 256 + k.val = 256 + k.val; rfl
      | ⟨1, _⟩ => show d.val = 0 + d.val; omega

/-- The first bias at every point: the fourth argument, whole. -/
theorem iblk4_eq (c : Dev nD) (t : Fin cfg0.N) :
    (iblk m c 4 t : Vec Ideal S128 .f32) = argB1 m c := by
  obtain ⟨-, -, -, -, -, -, -, -, e0, -⟩ := idx_facts t
  funext y
  unfold iblk
  rw [View.read_apply]
  show V m c main_arg3 _ = _
  rw [V_main_arg3]
  refine congrArg _ (funext fun a => Fin.ext ?_)
  match a with
  | ⟨0, _⟩ => show win0_4.index t (0 : Fin 1) * 128 + 1 * (y 0).val = (y 0).val; rw [e0]; omega

/-- The second layer's weights at every point: the fifth argument, whole. -/
theorem iblk5_eq (c : Dev nD) (t : Fin cfg0.N) :
    (iblk m c 5 t : Vec Ideal S128x1 .f32) = argW2 m c := by
  obtain ⟨-, -, -, -, -, -, -, -, -, e0, e1, -⟩ := idx_facts t
  funext y
  unfold iblk
  rw [View.read_apply]
  show V m c main_arg4 _ = _
  rw [V_main_arg4]
  refine congrArg _ (funext fun a => Fin.ext ?_)
  match a with
  | ⟨0, _⟩ => show win0_5.index t (0 : Fin 2) * 128 + 1 * (y 0).val = (y 0).val; rw [e0]; omega
  | ⟨1, _⟩ => show win0_5.index t (1 : Fin 2) * 1 + 1 * (y 1).val = (y 1).val; rw [e1]; omega

/-- The second bias at every point: the sixth argument, whole. -/
theorem iblk6_eq (c : Dev nD) (t : Fin cfg0.N) :
    (iblk m c 6 t : Vec Ideal S1 .f32) = argB2 m c := by
  obtain ⟨-, -, -, -, -, -, -, -, -, -, -, e0, -⟩ := idx_facts t
  funext y
  unfold iblk
  rw [View.read_apply]
  show V m c main_arg5 _ = _
  rw [V_main_arg5]
  refine congrArg _ (funext fun a => Fin.ext ?_)
  match a with
  | ⟨0, _⟩ => show win0_6.index t (0 : Fin 1) * 1 + 1 * (y 0).val = (y 0).val; rw [e0]; omega

/-! ## What a point writes back, the cover, and the array after the run -/

/-- Point `t` writes back its block of the specification's result. -/
theorem flushed_eq (c : Dev nD) (t : Fin cfg0.N) :
    (dats m 0 c).flushed 7 t = ((cfg0.win 7).blk t).view.read (Elt Ideal) (G m c) := by
  show (cfg0.win 7).cut (grid0.coords t) ((dats m 0 c).after 7 t) = _
  rw [after0_7]
  unfold out0_7
  rw [View.canon_unit_zero hz2]
  simp only [View.ld_unit_zero (S := S128x128) hz2, View.ld_unit_zero (S := S128) hz1, View.ld_unit_zero (S := S128x1) hz2,
    View.ld_unit_zero (S := S1) hz1]
  obtain ⟨-, -, -, -, -, -, -, -, -, -, -, -, e0, e1⟩ := idx_facts t
  funext j
  rw [View.read_apply]
  show k0_pay1 (F := Ideal) _ _ _ ((cfg0.win 7).xinj (grid0.coords t) j) = Cert.Spec.outK _ _ _ _ _ _ (((cfg0.win 7).blk t).view.emb j)
  refine block_entry_at (argX m c) (argA m c) (argW m c) (argB1 m c) (argW2 m c) (argB2 m c)
    (grid0.coords t) (grid0.coords t 0) (grid0.coords t 1) rfl rfl
    (iblk m c 0 t) (iblk m c 1 t) (iblk m c 2 t) (iblk m c 3 t) (iblk m c 4 t) (iblk m c 5 t) (iblk m c 6 t)
    (iblk0_at m c t) (iblk1_at m c t) (iblk2_at m c t) (iblk3_at m c t) (iblk4_eq m c t) (iblk5_eq m c t) (iblk6_eq m c t)
    ((cfg0.win 7).xinj (grid0.coords t) j) (((cfg0.win 7).blk t).view.emb j) ?_ ?_
  · show win0_7.index t (0 : Fin 2) * 128 + 1 * (j 0).val = 128 * (grid0.coords t 0).val + (j 0).val
    rw [e0]; omega
  · show win0_7.index t (1 : Fin 2) * 128 + 1 * (j 1).val = 128 * (grid0.coords t 1).val + (j 1).val
    rw [e1]; omega

/-- An entry of the array is in point `t`'s block iff each coordinate is in the block's range on its axis. -/
theorem mem_blk (t : Fin cfg0.N) (i : S1024x1024.Idx) :
    i ∈ ((cfg0.win 7).blk t).view.set
      ↔ ∀ a : Fin 2, win0_7.index t a * S128x128.size a ≤ (i a).val ∧ (i a).val < win0_7.index t a * S128x128.size a + S128x128.size a := by
  show i ∈ ((View.whole main_v5).slice (win0_7.rect t)).set ↔ _
  rw [View.set_slice_whole, Rect.mem_set_unit]
  exact Iff.rfl

/-- Every entry of the array is in the block of the point (row / 128, column / 128). -/
theorem cover (i : S1024x1024.Idx) : ∃ t : Fin cfg0.N, (cfg0.win 7).flush t = true ∧ i ∈ ((cfg0.win 7).blk t).view.set := by
  have hi0 : (i 0).val < 1024 := (i 0).isLt
  have hi1 : (i 1).val < 1024 := (i 1).isLt
  obtain ⟨t, q0, q1⟩ := idx_onto ⟨(i 0).val / 128, by omega⟩ ⟨(i 1).val / 128, by omega⟩
  obtain ⟨-, -, -, -, -, -, -, -, -, -, -, -, e0, e1⟩ := idx_facts t
  refine ⟨t, flush0_7 t, ?_⟩
  rw [mem_blk]
  intro a
  match a with
  | ⟨0, _⟩ =>
    show win0_7.index t (0 : Fin 2) * 128 ≤ (i 0).val ∧ (i 0).val < win0_7.index t (0 : Fin 2) * 128 + 128
    rw [e0, q0]
    show (i 0).val / 128 * 128 ≤ (i 0).val ∧ (i 0).val < (i 0).val / 128 * 128 + 128
    omega
  | ⟨1, _⟩ =>
    show win0_7.index t (1 : Fin 2) * 128 ≤ (i 1).val ∧ (i 1).val < win0_7.index t (1 : Fin 2) * 128 + 128
    rw [e1, q1]
    show (i 1).val / 128 * 128 ≤ (i 1).val ∧ (i 1).val < (i 1).val / 128 * 128 + 128
    omega

/-- The result array after the run is the specification's. -/
theorem final (c : Dev nD) : (dats m 0 c).arrAt 7 cfg0.N = G m c :=
  (dats m 0 c).arrAt_eq_of_cover 7 (G m c) (fun t _ => flushed_eq m c t) cover

/-! ## The run, read -/

/-- At the compiled mesh, from any memory with zero counters, @main runs to a state whose result array is the
    specification's result of the six arguments as launched, the arguments unchanged. -/
theorem run :
    θ_run (defs (F := Ideal)) (onTc (τ := τ) (main (F := Ideal))) ⟨m, fun _ => 0, ρ⟩ fun r => ∀ c : Dev nD,
      r.2.mem ((c.tc : Thread nD τ).loc main_v5) = Cert.Spec.outK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h c).1 7).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).1 4).trans (((dats m 0 c).arrAt_in 4 rfl _).trans ((A_eq m c 4).trans (V_main_arg3 m c))),
      ((h c).1 5).trans (((dats m 0 c).arrAt_in 5 rfl _).trans ((A_eq m c 5).trans (V_main_arg4 m c))),
      ((h c).1 6).trans (((dats m 0 c).arrAt_in 6 rfl _).trans ((A_eq m c 6).trans (V_main_arg5 m c)))⟩)
    (run_main m ρ)

end Cert.KernelIdeal.KValue

end
-- ==== Proof.RefRunOps.lean ====
/-
  The reference's host program as lists of its operations, in program order, each outlined function's operations
  written at its call over the call's buffer record: nine consecutive lists, one per stage of the computation
  (the mask; the running counts, histogram and flat positions; floor division and remainder for the row number;
  the same for the column number; the two gathers; the scores; the index pairs and the final write). Beside each
  list, the buffers its operations write, and that every operation touches TensorCore references only. Last, that a
  typed reference's moves of contents between a value's type and its buffer's are the identity at each literal buffer.
-/
import proofs.«109150_j81982335746216_1_alg».proof.Proof.Gen.ReferenceIdeal
import Idealize.ShloMosaic.Lib.StableHlo.Run

noncomputable section

namespace Cert.ReferenceIdeal.RRun

open Cert.ReferenceIdeal Cert.ReferenceIdeal.Gen Idealize.ShloMosaic Idealize.ShloMosaic.TcCoe Idealize.SL.Sem Idealize.ShloMosaic.StableHlo

variable {F : FTy → Type} [FloatOps F]

/-- Operations 1 … 14 of 169, in order. -/
abbrev opsA : List (HloOp τ sig (Elt F)) :=
  [ StableHlo.nullary main_cst (constant S_ .f32 0x3F800000#32),
    StableHlo.unary main_cst main_v0 (broadcastInDim S1024x1024 ![] bcast_S_S1024x1024 : (⟨S_, .f32⟩ : BufTy).Contents (Elt F) → (⟨S1024x1024, .f32⟩ : BufTy).Contents (Elt F)),
    StableHlo.TRef.nullary main_call0.v0 (iotaInDim S1024x1024 32 0),
    StableHlo.TRef.nullary main_call0.c (constantI S_ 32 4294967295#32),
    StableHlo.TRef.unary main_call0.c main_call0.v1 (broadcastInDim S1024x1024 ![] bcast_S_S1024x1024),
    StableHlo.TRef.binary main_call0.v0 main_call0.v1 main_call0.v2 addi,
    StableHlo.TRef.nullary main_call0.v3 (iotaInDim S1024x1024 32 1),
    StableHlo.TRef.binary main_call0.v2 main_call0.v3 main_call0.v4 (cmpi .sge),
    StableHlo.TRef.nullary main_call0.cst (constant S_ .f32 0x00000000#32),
    StableHlo.TRef.unary main_call0.cst main_call0.v5 (broadcastInDim S1024x1024 ![] bcast_S_S1024x1024),
    StableHlo.TRef.ternary main_call0.v4 (StableHlo.TRef.of main_v0 : StableHlo.TRef sig ⟨S1024x1024, .f32⟩) main_call0.v5 main_call0.v6 select,
    StableHlo.nullary main_cst_0 (constant S_ .f32 0x00000000#32),
    StableHlo.unary main_cst_0 main_v2 (broadcastInDim S1024x1024 ![] bcast_S_S1024x1024 : (⟨S_, .f32⟩ : BufTy).Contents (Elt F) → (⟨S1024x1024, .f32⟩ : BufTy).Contents (Elt F)),
    StableHlo.binary main_v1 main_v2 main_v3 (cmpf .une : (⟨S1024x1024, .f32⟩ : BufTy).Contents (Elt F) → (⟨S1024x1024, .f32⟩ : BufTy).Contents (Elt F) → (⟨S1024x1024, .i1⟩ : BufTy).Contents (Elt F)) ]
/-- The buffers they write. -/
abbrev opsA_W : List (Ref sig .tc) := [main_cst, main_v0, main_call0_v0, main_call0_c, main_call0_v1, main_call0_v2, main_call0_v3, main_call0_v4, main_call0_cst, main_call0_v5, main_v1, main_cst_0, main_v2, main_v3]
theorem opsA_sub : (opsA : List (HloOp τ sig (Elt F))).Forall fun op => op.bufs ⊆ tcRefs τ sig :=
  ⟨nullary_bufs_sub .., unary_bufs_sub .., nullary_bufs_sub .., nullary_bufs_sub .., unary_bufs_sub .., binary_bufs_sub .., nullary_bufs_sub .., binary_bufs_sub .., nullary_bufs_sub .., unary_bufs_sub .., ternary_bufs_sub .., nullary_bufs_sub .., unary_bufs_sub .., binary_bufs_sub ..⟩

/-- Operations 15 … 39 of 169, in order. -/
abbrev opsB : List (HloOp τ sig (Elt F)) :=
  [ StableHlo.TRef.reshape (StableHlo.TRef.of main_v3 : StableHlo.TRef sig ⟨S1024x1024, .i1⟩) main_call1.v0 rfl shapeCasts_S1024x1024_S1048576,
    StableHlo.TRef.unary main_call1.v0 main_call1.v1 (extui 32 · natLt_1_32),
    StableHlo.TRef.nullary main_call1.call0.c (constantI S_ 32 0#32),
    StableHlo.TRef.unary main_call1.call0.c main_call1.call0.v0 (broadcastInDim S_ ![] bcast_S_S_),
    StableHlo.TRef.binary main_call1.v1 main_call1.call0.v0 main_call1.call0.v1 (fun x v => Host.reduceWindow IntOp.addi ![1048576] ![1] ![1048575] ![0] x v reduceWindows_S1048576_S1048576_w1048576s1p1048575_0 h_S_),
    StableHlo.nullary main_c (constantI S_ 32 0#32),
    StableHlo.unary main_c main_v5 (broadcastInDim S523776 ![] bcast_S_S523776 : (⟨S_, .i32⟩ : BufTy).Contents (Elt F) → (⟨S523776, .i32⟩ : BufTy).Contents (Elt F)),
    StableHlo.nullary main_c_1 (constantI S_ 32 0#32),
    StableHlo.TRef.unary (StableHlo.TRef.of main_c_1 : StableHlo.TRef sig ⟨S_, .i32⟩) main_call2.v0 id,
    StableHlo.TRef.unary main_call2.v0 main_call2.v1 (broadcastInDim S1048576 ![] bcast_S_S1048576),
    StableHlo.TRef.binary main_call2.v1 (StableHlo.TRef.of main_v4 : StableHlo.TRef sig ⟨S1048576, .i32⟩) main_call2.v2 maxsi,
    StableHlo.nullary main_c_2 (constantI S_ 32 0#32),
    StableHlo.unary main_c_2 main_v7 (broadcastInDim S1048576 ![] bcast_S_S1048576 : (⟨S_, .i32⟩ : BufTy).Contents (Elt F) → (⟨S1048576, .i32⟩ : BufTy).Contents (Elt F)),
    StableHlo.binary main_v6 main_v7 main_v8 (cmpi .slt : (⟨S1048576, .i32⟩ : BufTy).Contents (Elt F) → (⟨S1048576, .i32⟩ : BufTy).Contents (Elt F) → (⟨S1048576, .i1⟩ : BufTy).Contents (Elt F)),
    StableHlo.nullary main_c_3 (constantI S_ 32 523776#32),
    StableHlo.unary main_c_3 main_v9 (broadcastInDim S1048576 ![] bcast_S_S1048576 : (⟨S_, .i32⟩ : BufTy).Contents (Elt F) → (⟨S1048576, .i32⟩ : BufTy).Contents (Elt F)),
    StableHlo.binary main_v6 main_v9 main_v10 (addi : (⟨S1048576, .i32⟩ : BufTy).Contents (Elt F) → (⟨S1048576, .i32⟩ : BufTy).Contents (Elt F) → (⟨S1048576, .i32⟩ : BufTy).Contents (Elt F)),
    StableHlo.ternary main_v8 main_v10 main_v6 main_v11 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.unary main_v11 main_v12 (broadcastInDim S1048576x1 ![0] bcast_S1048576_S1048576x1_0 : (⟨S1048576, .i32⟩ : BufTy).Contents (Elt F) → (⟨S1048576x1, .i32⟩ : BufTy).Contents (Elt F)),
    StableHlo.nullary main_c_4 (constantI S_ 32 1#32),
    StableHlo.unary main_c_4 main_v13 (broadcastInDim S1048576 ![] bcast_S_S1048576 : (⟨S_, .i32⟩ : BufTy).Contents (Elt F) → (⟨S1048576, .i32⟩ : BufTy).Contents (Elt F)),
    StableHlo.ternary main_v5 main_v12 main_v13 main_v14 ((fun x i u => Host.scatter scatter_S523776_S1048576x1_S1048576_n_0_0_1 IntOp.addi x i u) : (⟨S523776, .i32⟩ : BufTy).Contents (Elt F) → (⟨S1048576x1, .i32⟩ : BufTy).Contents (Elt F) → (⟨S1048576, .i32⟩ : BufTy).Contents (Elt F) → (⟨S523776, .i32⟩ : BufTy).Contents (Elt F)),
    StableHlo.TRef.nullary main_call3.call0.c (constantI S_ 32 0#32),
    StableHlo.TRef.unary main_call3.call0.c main_call3.call0.v0 (broadcastInDim S_ ![] bcast_S_S_),
    StableHlo.TRef.binary (StableHlo.TRef.of main_v14 : StableHlo.TRef sig ⟨S523776, .i32⟩) main_call3.call0.v0 main_call3.call0.v1 (fun x v => Host.reduceWindow IntOp.addi ![523776] ![1] ![523775] ![0] x v reduceWindows_S523776_S523776_w523776s1p523775_0 h_S_) ]
/-- The buffers they write. -/
abbrev opsB_W : List (Ref sig .tc) := [main_call1_v0, main_call1_v1, main_call1_call0_c, main_call1_call0_v0, main_v4, main_c, main_v5, main_c_1, main_call2_v0, main_call2_v1, main_v6, main_c_2, main_v7, main_v8, main_c_3, main_v9, main_v10, main_v11, main_v12, main_c_4, main_v13, main_v14, main_call3_call0_c, main_call3_call0_v0, main_v15]
theorem opsB_sub : (opsB : List (HloOp τ sig (Elt F))).Forall fun op => op.bufs ⊆ tcRefs τ sig :=
  ⟨reshape_bufs_sub .., unary_bufs_sub .., nullary_bufs_sub .., unary_bufs_sub .., binary_bufs_sub .., nullary_bufs_sub .., unary_bufs_sub .., nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub ..⟩

/-- Operations 40 … 56 of 169, in order. -/
abbrev opsC1 : List (HloOp τ sig (Elt F)) :=
  [ StableHlo.nullary main_c_5 (constantI S_ 32 1024#32),
    StableHlo.TRef.unary (StableHlo.TRef.of main_c_5 : StableHlo.TRef sig ⟨S_, .i32⟩) main_call4.v0 (broadcastInDim S523776 ![] bcast_S_S523776),
    StableHlo.TRef.binary (StableHlo.TRef.of main_v15 : StableHlo.TRef sig ⟨S523776, .i32⟩) main_call4.v0 main_call4.v1 Host.divsi,
    StableHlo.TRef.unary (StableHlo.TRef.of main_v15 : StableHlo.TRef sig ⟨S523776, .i32⟩) main_call4.v2 signi,
    StableHlo.TRef.unary (StableHlo.TRef.of main_c_5 : StableHlo.TRef sig ⟨S_, .i32⟩) main_call4.v3 signi,
    StableHlo.TRef.unary main_call4.v3 main_call4.v4 (broadcastInDim S523776 ![] bcast_S_S523776),
    StableHlo.TRef.binary main_call4.v2 main_call4.v4 main_call4.v5 (cmpi .ne),
    StableHlo.TRef.unary (StableHlo.TRef.of main_c_5 : StableHlo.TRef sig ⟨S_, .i32⟩) main_call4.v6 (broadcastInDim S523776 ![] bcast_S_S523776),
    StableHlo.TRef.binary (StableHlo.TRef.of main_v15 : StableHlo.TRef sig ⟨S523776, .i32⟩) main_call4.v6 main_call4.v7 Host.remsi,
    StableHlo.TRef.nullary main_call4.c (constantI S_ 32 0#32),
    StableHlo.TRef.unary main_call4.c main_call4.v8 (broadcastInDim S523776 ![] bcast_S_S523776),
    StableHlo.TRef.binary main_call4.v7 main_call4.v8 main_call4.v9 (cmpi .ne),
    StableHlo.TRef.binary main_call4.v5 main_call4.v9 main_call4.v10 andi,
    StableHlo.TRef.nullary main_call4.c_0 (constantI S_ 32 1#32),
    StableHlo.TRef.unary main_call4.c_0 main_call4.v11 (broadcastInDim S523776 ![] bcast_S_S523776),
    StableHlo.TRef.binary main_call4.v1 main_call4.v11 main_call4.v12 subi,
    StableHlo.TRef.ternary main_call4.v10 main_call4.v12 main_call4.v1 main_call4.call0.v0 select ]
/-- The buffers they write. -/
abbrev opsC1_W : List (Ref sig .tc) := [main_c_5, main_call4_v0, main_call4_v1, main_call4_v2, main_call4_v3, main_call4_v4, main_call4_v5, main_call4_v6, main_call4_v7, main_call4_c, main_call4_v8, main_call4_v9, main_call4_v10, main_call4_c_0, main_call4_v11, main_call4_v12, main_v16]
theorem opsC1_sub : (opsC1 : List (HloOp τ sig (Elt F))).Forall fun op => op.bufs ⊆ tcRefs τ sig :=
  ⟨nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩

/-- Operations 57 … 78 of 169, in order. -/
abbrev opsC2 : List (HloOp τ sig (Elt F)) :=
  [ StableHlo.nullary main_c_6 (constantI S_ 32 1024#32),
    StableHlo.TRef.unary (StableHlo.TRef.of main_c_6 : StableHlo.TRef sig ⟨S_, .i32⟩) main_call5.v0 id,
    StableHlo.TRef.nullary main_call5.c (constantI S_ 32 0#32),
    StableHlo.TRef.binary main_call5.v0 main_call5.c main_call5.v1 (cmpi .eq),
    StableHlo.TRef.nullary main_call5.c_0 (constantI S_ 32 1#32),
    StableHlo.TRef.ternary main_call5.v1 main_call5.c_0 main_call5.v0 main_call5.call0.v0 select,
    StableHlo.TRef.unary main_call5.call0.v0 main_call5.v3 (broadcastInDim S523776 ![] bcast_S_S523776),
    StableHlo.TRef.binary (StableHlo.TRef.of main_v16 : StableHlo.TRef sig ⟨S523776, .i32⟩) main_call5.v3 main_call5.v4 Host.remsi,
    StableHlo.TRef.nullary main_call5.c_1 (constantI S_ 32 0#32),
    StableHlo.TRef.unary main_call5.c_1 main_call5.v5 (broadcastInDim S523776 ![] bcast_S_S523776),
    StableHlo.TRef.binary main_call5.v4 main_call5.v5 main_call5.v6 (cmpi .ne),
    StableHlo.TRef.nullary main_call5.c_2 (constantI S_ 32 0#32),
    StableHlo.TRef.unary main_call5.c_2 main_call5.v7 (broadcastInDim S523776 ![] bcast_S_S523776),
    StableHlo.TRef.binary main_call5.v4 main_call5.v7 main_call5.v8 (cmpi .slt),
    StableHlo.TRef.nullary main_call5.c_3 (constantI S_ 32 0#32),
    StableHlo.TRef.binary main_call5.call0.v0 main_call5.c_3 main_call5.v9 (cmpi .slt),
    StableHlo.TRef.unary main_call5.v9 main_call5.v10 (broadcastInDim S523776 ![] bcast_S_S523776),
    StableHlo.TRef.binary main_call5.v8 main_call5.v10 main_call5.v11 (cmpi .ne),
    StableHlo.TRef.binary main_call5.v11 main_call5.v6 main_call5.v12 andi,
    StableHlo.TRef.unary main_call5.call0.v0 main_call5.v13 (broadcastInDim S523776 ![] bcast_S_S523776),
    StableHlo.TRef.binary main_call5.v4 main_call5.v13 main_call5.v14 addi,
    StableHlo.TRef.ternary main_call5.v12 main_call5.v14 main_call5.v4 main_call5.v15 select ]
/-- The buffers they write. -/
abbrev opsC2_W : List (Ref sig .tc) := [main_c_6, main_call5_v0, main_call5_c, main_call5_v1, main_call5_c_0, main_call5_v2, main_call5_v3, main_call5_v4, main_call5_c_1, main_call5_v5, main_call5_v6, main_call5_c_2, main_call5_v7, main_call5_v8, main_call5_c_3, main_call5_v9, main_call5_v10, main_call5_v11, main_call5_v12, main_call5_v13, main_call5_v14, main_v17]
theorem opsC2_sub : (opsC2 : List (HloOp τ sig (Elt F))).Forall fun op => op.bufs ⊆ tcRefs τ sig :=
  ⟨nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩

/-- Operations 79 … 95 of 169, in order. -/
abbrev opsD1 : List (HloOp τ sig (Elt F)) :=
  [ StableHlo.nullary main_c_7 (constantI S_ 32 1#32),
    StableHlo.TRef.unary (StableHlo.TRef.of main_c_7 : StableHlo.TRef sig ⟨S_, .i32⟩) main_call6.v0 (broadcastInDim S523776 ![] bcast_S_S523776),
    StableHlo.TRef.binary (StableHlo.TRef.of main_v15 : StableHlo.TRef sig ⟨S523776, .i32⟩) main_call6.v0 main_call6.v1 Host.divsi,
    StableHlo.TRef.unary (StableHlo.TRef.of main_v15 : StableHlo.TRef sig ⟨S523776, .i32⟩) main_call6.v2 signi,
    StableHlo.TRef.unary (StableHlo.TRef.of main_c_7 : StableHlo.TRef sig ⟨S_, .i32⟩) main_call6.v3 signi,
    StableHlo.TRef.unary main_call6.v3 main_call6.v4 (broadcastInDim S523776 ![] bcast_S_S523776),
    StableHlo.TRef.binary main_call6.v2 main_call6.v4 main_call6.v5 (cmpi .ne),
    StableHlo.TRef.unary (StableHlo.TRef.of main_c_7 : StableHlo.TRef sig ⟨S_, .i32⟩) main_call6.v6 (broadcastInDim S523776 ![] bcast_S_S523776),
    StableHlo.TRef.binary (StableHlo.TRef.of main_v15 : StableHlo.TRef sig ⟨S523776, .i32⟩) main_call6.v6 main_call6.v7 Host.remsi,
    StableHlo.TRef.nullary main_call6.c (constantI S_ 32 0#32),
    StableHlo.TRef.unary main_call6.c main_call6.v8 (broadcastInDim S523776 ![] bcast_S_S523776),
    StableHlo.TRef.binary main_call6.v7 main_call6.v8 main_call6.v9 (cmpi .ne),
    StableHlo.TRef.binary main_call6.v5 main_call6.v9 main_call6.v10 andi,
    StableHlo.TRef.nullary main_call6.c_0 (constantI S_ 32 1#32),
    StableHlo.TRef.unary main_call6.c_0 main_call6.v11 (broadcastInDim S523776 ![] bcast_S_S523776),
    StableHlo.TRef.binary main_call6.v1 main_call6.v11 main_call6.v12 subi,
    StableHlo.TRef.ternary main_call6.v10 main_call6.v12 main_call6.v1 main_call6.call0.v0 select ]
/-- The buffers they write. -/
abbrev opsD1_W : List (Ref sig .tc) := [main_c_7, main_call6_v0, main_call6_v1, main_call6_v2, main_call6_v3, main_call6_v4, main_call6_v5, main_call6_v6, main_call6_v7, main_call6_c, main_call6_v8, main_call6_v9, main_call6_v10, main_call6_c_0, main_call6_v11, main_call6_v12, main_v18]
theorem opsD1_sub : (opsD1 : List (HloOp τ sig (Elt F))).Forall fun op => op.bufs ⊆ tcRefs τ sig :=
  ⟨nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩

/-- Operations 96 … 117 of 169, in order. -/
abbrev opsD2 : List (HloOp τ sig (Elt F)) :=
  [ StableHlo.nullary main_c_8 (constantI S_ 32 1024#32),
    StableHlo.TRef.unary (StableHlo.TRef.of main_c_8 : StableHlo.TRef sig ⟨S_, .i32⟩) main_call7.v0 id,
    StableHlo.TRef.nullary main_call7.c (constantI S_ 32 0#32),
    StableHlo.TRef.binary main_call7.v0 main_call7.c main_call7.v1 (cmpi .eq),
    StableHlo.TRef.nullary main_call7.c_0 (constantI S_ 32 1#32),
    StableHlo.TRef.ternary main_call7.v1 main_call7.c_0 main_call7.v0 main_call7.call0.v0 select,
    StableHlo.TRef.unary main_call7.call0.v0 main_call7.v3 (broadcastInDim S523776 ![] bcast_S_S523776),
    StableHlo.TRef.binary (StableHlo.TRef.of main_v18 : StableHlo.TRef sig ⟨S523776, .i32⟩) main_call7.v3 main_call7.v4 Host.remsi,
    StableHlo.TRef.nullary main_call7.c_1 (constantI S_ 32 0#32),
    StableHlo.TRef.unary main_call7.c_1 main_call7.v5 (broadcastInDim S523776 ![] bcast_S_S523776),
    StableHlo.TRef.binary main_call7.v4 main_call7.v5 main_call7.v6 (cmpi .ne),
    StableHlo.TRef.nullary main_call7.c_2 (constantI S_ 32 0#32),
    StableHlo.TRef.unary main_call7.c_2 main_call7.v7 (broadcastInDim S523776 ![] bcast_S_S523776),
    StableHlo.TRef.binary main_call7.v4 main_call7.v7 main_call7.v8 (cmpi .slt),
    StableHlo.TRef.nullary main_call7.c_3 (constantI S_ 32 0#32),
    StableHlo.TRef.binary main_call7.call0.v0 main_call7.c_3 main_call7.v9 (cmpi .slt),
    StableHlo.TRef.unary main_call7.v9 main_call7.v10 (broadcastInDim S523776 ![] bcast_S_S523776),
    StableHlo.TRef.binary main_call7.v8 main_call7.v10 main_call7.v11 (cmpi .ne),
    StableHlo.TRef.binary main_call7.v11 main_call7.v6 main_call7.v12 andi,
    StableHlo.TRef.unary main_call7.call0.v0 main_call7.v13 (broadcastInDim S523776 ![] bcast_S_S523776),
    StableHlo.TRef.binary main_call7.v4 main_call7.v13 main_call7.v14 addi,
    StableHlo.TRef.ternary main_call7.v12 main_call7.v14 main_call7.v4 main_call7.v15 select ]
/-- The buffers they write. -/
abbrev opsD2_W : List (Ref sig .tc) := [main_c_8, main_call7_v0, main_call7_c, main_call7_v1, main_call7_c_0, main_call7_v2, main_call7_v3, main_call7_v4, main_call7_c_1, main_call7_v5, main_call7_v6, main_call7_c_2, main_call7_v7, main_call7_v8, main_call7_c_3, main_call7_v9, main_call7_v10, main_call7_v11, main_call7_v12, main_call7_v13, main_call7_v14, main_v19]
theorem opsD2_sub : (opsD2 : List (HloOp τ sig (Elt F))).Forall fun op => op.bufs ⊆ tcRefs τ sig :=
  ⟨nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩

/-- Operations 118 … 135 of 169, in order. -/
abbrev opsE : List (HloOp τ sig (Elt F)) :=
  [ StableHlo.nullary main_c_9 (constantI S_ 32 0#32),
    StableHlo.unary main_c_9 main_v20 (broadcastInDim S523776 ![] bcast_S_S523776 : (⟨S_, .i32⟩ : BufTy).Contents (Elt F) → (⟨S523776, .i32⟩ : BufTy).Contents (Elt F)),
    StableHlo.binary main_v17 main_v20 main_v21 (cmpi .slt : (⟨S523776, .i32⟩ : BufTy).Contents (Elt F) → (⟨S523776, .i32⟩ : BufTy).Contents (Elt F) → (⟨S523776, .i1⟩ : BufTy).Contents (Elt F)),
    StableHlo.nullary main_c_10 (constantI S_ 32 1024#32),
    StableHlo.unary main_c_10 main_v22 (broadcastInDim S523776 ![] bcast_S_S523776 : (⟨S_, .i32⟩ : BufTy).Contents (Elt F) → (⟨S523776, .i32⟩ : BufTy).Contents (Elt F)),
    StableHlo.binary main_v17 main_v22 main_v23 (addi : (⟨S523776, .i32⟩ : BufTy).Contents (Elt F) → (⟨S523776, .i32⟩ : BufTy).Contents (Elt F) → (⟨S523776, .i32⟩ : BufTy).Contents (Elt F)),
    StableHlo.ternary main_v21 main_v23 main_v17 main_v24 (select : (⟨S523776, .i1⟩ : BufTy).Contents (Elt F) → (⟨S523776, .i32⟩ : BufTy).Contents (Elt F) → (⟨S523776, .i32⟩ : BufTy).Contents (Elt F) → (⟨S523776, .i32⟩ : BufTy).Contents (Elt F)),
    StableHlo.unary main_v24 main_v25 (broadcastInDim S523776x1 ![0] bcast_S523776_S523776x1_0 : (⟨S523776, .i32⟩ : BufTy).Contents (Elt F) → (⟨S523776x1, .i32⟩ : BufTy).Contents (Elt F)),
    StableHlo.binary main_arg0 main_v25 main_v26 ((fun x i => Host.gather gather_S1024x128_S523776x1_S523776x128_1_0_n_n_0_1_1128 x i) : (⟨S1024x128, .f32⟩ : BufTy).Contents (Elt F) → (⟨S523776x1, .i32⟩ : BufTy).Contents (Elt F) → (⟨S523776x128, .f32⟩ : BufTy).Contents (Elt F)),
    StableHlo.nullary main_c_11 (constantI S_ 32 0#32),
    StableHlo.unary main_c_11 main_v27 (broadcastInDim S523776 ![] bcast_S_S523776 : (⟨S_, .i32⟩ : BufTy).Contents (Elt F) → (⟨S523776, .i32⟩ : BufTy).Contents (Elt F)),
    StableHlo.binary main_v19 main_v27 main_v28 (cmpi .slt : (⟨S523776, .i32⟩ : BufTy).Contents (Elt F) → (⟨S523776, .i32⟩ : BufTy).Contents (Elt F) → (⟨S523776, .i1⟩ : BufTy).Contents (Elt F)),
    StableHlo.nullary main_c_12 (constantI S_ 32 1024#32),
    StableHlo.unary main_c_12 main_v29 (broadcastInDim S523776 ![] bcast_S_S523776 : (⟨S_, .i32⟩ : BufTy).Contents (Elt F) → (⟨S523776, .i32⟩ : BufTy).Contents (Elt F)),
    StableHlo.binary main_v19 main_v29 main_v30 (addi : (⟨S523776, .i32⟩ : BufTy).Contents (Elt F) → (⟨S523776, .i32⟩ : BufTy).Contents (Elt F) → (⟨S523776, .i32⟩ : BufTy).Contents (Elt F)),
    StableHlo.ternary main_v28 main_v30 main_v19 main_v31 (select : (⟨S523776, .i1⟩ : BufTy).Contents (Elt F) → (⟨S523776, .i32⟩ : BufTy).Contents (Elt F) → (⟨S523776, .i32⟩ : BufTy).Contents (Elt F) → (⟨S523776, .i32⟩ : BufTy).Contents (Elt F)),
    StableHlo.unary main_v31 main_v32 (broadcastInDim S523776x1 ![0] bcast_S523776_S523776x1_0 : (⟨S523776, .i32⟩ : BufTy).Contents (Elt F) → (⟨S523776x1, .i32⟩ : BufTy).Contents (Elt F)),
    StableHlo.binary main_arg1 main_v32 main_v33 ((fun x i => Host.gather gather_S1024x128_S523776x1_S523776x128_1_0_n_n_0_1_1128 x i) : (⟨S1024x128, .f32⟩ : BufTy).Contents (Elt F) → (⟨S523776x1, .i32⟩ : BufTy).Contents (Elt F) → (⟨S523776x128, .f32⟩ : BufTy).Contents (Elt F)) ]
/-- The buffers they write. -/
abbrev opsE_W : List (Ref sig .tc) := [main_c_9, main_v20, main_v21, main_c_10, main_v22, main_v23, main_v24, main_v25, main_v26, main_c_11, main_v27, main_v28, main_c_12, main_v29, main_v30, main_v31, main_v32, main_v33]
theorem opsE_sub : (opsE : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩

/-- Operations 136 … 149 of 169, in order. -/
abbrev opsF : List (HloOp τ sig (Elt F)) :=
  [ StableHlo.binary main_v26 main_v33 main_v34 (subf : (⟨S523776x128, .f32⟩ : BufTy).Contents (Elt F) → (⟨S523776x128, .f32⟩ : BufTy).Contents (Elt F) → (⟨S523776x128, .f32⟩ : BufTy).Contents (Elt F)),
    StableHlo.nary ![main_v26, main_v33, main_v34] main_v35 (fun u => concatenate S523776x384 1 [⟨S523776x128, u 0⟩, ⟨S523776x128, u 1⟩, ⟨S523776x128, u 2⟩] concatenates_S523776x128_S523776x128_S523776x128_S523776x384_d1),
    StableHlo.binary main_v35 main_arg2 main_v36 ((fun l r => Host.dotGeneral dot_S523776x384_S384x128_S523776x128_1_0_0_1_n_n none l r) : (⟨S523776x384, .f32⟩ : BufTy).Contents (Elt F) → (⟨S384x128, .f32⟩ : BufTy).Contents (Elt F) → (⟨S523776x128, .f32⟩ : BufTy).Contents (Elt F)),
    StableHlo.unary main_arg3 main_v37 (broadcastInDim S1x128 ![1] bcast_S128_S1x128_1 : (⟨S128, .f32⟩ : BufTy).Contents (Elt F) → (⟨S1x128, .f32⟩ : BufTy).Contents (Elt F)),
    StableHlo.unary main_v37 main_v38 (broadcastInDim S523776x128 ![0, 1] bcast_S1x128_S523776x128_0_1 : (⟨S1x128, .f32⟩ : BufTy).Contents (Elt F) → (⟨S523776x128, .f32⟩ : BufTy).Contents (Elt F)),
    StableHlo.binary main_v36 main_v38 main_v39 (addf : (⟨S523776x128, .f32⟩ : BufTy).Contents (Elt F) → (⟨S523776x128, .f32⟩ : BufTy).Contents (Elt F) → (⟨S523776x128, .f32⟩ : BufTy).Contents (Elt F)),
    StableHlo.TRef.nullary main_call8.cst (constant S_ .f32 0x00000000#32),
    StableHlo.TRef.unary main_call8.cst main_call8.v0 (broadcastInDim S523776x128 ![] bcast_S_S523776x128),
    StableHlo.TRef.binary (StableHlo.TRef.of main_v39 : StableHlo.TRef sig ⟨S523776x128, .f32⟩) main_call8.v0 main_call8.v1 maximumf,
    StableHlo.binary main_v40 main_arg4 main_v41 ((fun l r => Host.dotGeneral dot_S523776x128_S128x1_S523776x1_1_0_0_1_n_n none l r) : (⟨S523776x128, .f32⟩ : BufTy).Contents (Elt F) → (⟨S128x1, .f32⟩ : BufTy).Contents (Elt F) → (⟨S523776x1, .f32⟩ : BufTy).Contents (Elt F)),
    StableHlo.unary main_arg5 main_v42 (broadcastInDim S1x1 ![1] bcast_S1_S1x1_1 : (⟨S1, .f32⟩ : BufTy).Contents (Elt F) → (⟨S1x1, .f32⟩ : BufTy).Contents (Elt F)),
    StableHlo.unary main_v42 main_v43 (broadcastInDim S523776x1 ![0, 1] bcast_S1x1_S523776x1_0_1 : (⟨S1x1, .f32⟩ : BufTy).Contents (Elt F) → (⟨S523776x1, .f32⟩ : BufTy).Contents (Elt F)),
    StableHlo.binary main_v41 main_v43 main_v44 (addf : (⟨S523776x1, .f32⟩ : BufTy).Contents (Elt F) → (⟨S523776x1, .f32⟩ : BufTy).Contents (Elt F) → (⟨S523776x1, .f32⟩ : BufTy).Contents (Elt F)),
    StableHlo.reshape main_v44 main_v45 rfl shapeCasts_S523776x1_S523776 ]
/-- The buffers they write. -/
abbrev opsF_W : List (Ref sig .tc) := [main_v34, main_v35, main_v36, main_v37, main_v38, main_v39, main_call8_cst, main_call8_v0, main_v40, main_v41, main_v42, main_v43, main_v44, main_v45]
theorem opsF_sub : (opsF : List (HloOp τ sig (Elt F))).Forall fun op => op.bufs ⊆ tcRefs τ sig :=
  ⟨binary_bufs_sub .., nary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., reshape_bufs_sub ..⟩

/-- Operations 150 … 169 of 169, in order. -/
abbrev opsG : List (HloOp τ sig (Elt F)) :=
  [ StableHlo.nullary main_cst_13 (constant S_ .f32 0x00000000#32),
    StableHlo.unary main_cst_13 main_v46 (broadcastInDim S1024x1024 ![] bcast_S_S1024x1024 : (⟨S_, .f32⟩ : BufTy).Contents (Elt F) → (⟨S1024x1024, .f32⟩ : BufTy).Contents (Elt F)),
    StableHlo.nullary main_c_14 (constantI S_ 32 0#32),
    StableHlo.unary main_c_14 main_v47 (broadcastInDim S523776 ![] bcast_S_S523776 : (⟨S_, .i32⟩ : BufTy).Contents (Elt F) → (⟨S523776, .i32⟩ : BufTy).Contents (Elt F)),
    StableHlo.binary main_v17 main_v47 main_v48 (cmpi .slt : (⟨S523776, .i32⟩ : BufTy).Contents (Elt F) → (⟨S523776, .i32⟩ : BufTy).Contents (Elt F) → (⟨S523776, .i1⟩ : BufTy).Contents (Elt F)),
    StableHlo.nullary main_c_15 (constantI S_ 32 1024#32),
    StableHlo.unary main_c_15 main_v49 (broadcastInDim S523776 ![] bcast_S_S523776 : (⟨S_, .i32⟩ : BufTy).Contents (Elt F) → (⟨S523776, .i32⟩ : BufTy).Contents (Elt F)),
    StableHlo.binary main_v17 main_v49 main_v50 (addi : (⟨S523776, .i32⟩ : BufTy).Contents (Elt F) → (⟨S523776, .i32⟩ : BufTy).Contents (Elt F) → (⟨S523776, .i32⟩ : BufTy).Contents (Elt F)),
    StableHlo.ternary main_v48 main_v50 main_v17 main_v51 (select : (⟨S523776, .i1⟩ : BufTy).Contents (Elt F) → (⟨S523776, .i32⟩ : BufTy).Contents (Elt F) → (⟨S523776, .i32⟩ : BufTy).Contents (Elt F) → (⟨S523776, .i32⟩ : BufTy).Contents (Elt F)),
    StableHlo.nullary main_c_16 (constantI S_ 32 0#32),
    StableHlo.unary main_c_16 main_v52 (broadcastInDim S523776 ![] bcast_S_S523776 : (⟨S_, .i32⟩ : BufTy).Contents (Elt F) → (⟨S523776, .i32⟩ : BufTy).Contents (Elt F)),
    StableHlo.binary main_v19 main_v52 main_v53 (cmpi .slt : (⟨S523776, .i32⟩ : BufTy).Contents (Elt F) → (⟨S523776, .i32⟩ : BufTy).Contents (Elt F) → (⟨S523776, .i1⟩ : BufTy).Contents (Elt F)),
    StableHlo.nullary main_c_17 (constantI S_ 32 1024#32),
    StableHlo.unary main_c_17 main_v54 (broadcastInDim S523776 ![] bcast_S_S523776 : (⟨S_, .i32⟩ : BufTy).Contents (Elt F) → (⟨S523776, .i32⟩ : BufTy).Contents (Elt F)),
    StableHlo.binary main_v19 main_v54 main_v55 (addi : (⟨S523776, .i32⟩ : BufTy).Contents (Elt F) → (⟨S523776, .i32⟩ : BufTy).Contents (Elt F) → (⟨S523776, .i32⟩ : BufTy).Contents (Elt F)),
    StableHlo.ternary main_v53 main_v55 main_v19 main_v56 (select : (⟨S523776, .i1⟩ : BufTy).Contents (Elt F) → (⟨S523776, .i32⟩ : BufTy).Contents (Elt F) → (⟨S523776, .i32⟩ : BufTy).Contents (Elt F) → (⟨S523776, .i32⟩ : BufTy).Contents (Elt F)),
    StableHlo.unary main_v51 main_v57 (broadcastInDim S523776x1 ![0] bcast_S523776_S523776x1_0 : (⟨S523776, .i32⟩ : BufTy).Contents (Elt F) → (⟨S523776x1, .i32⟩ : BufTy).Contents (Elt F)),
    StableHlo.unary main_v56 main_v58 (broadcastInDim S523776x1 ![0] bcast_S523776_S523776x1_0 : (⟨S523776, .i32⟩ : BufTy).Contents (Elt F) → (⟨S523776x1, .i32⟩ : BufTy).Contents (Elt F)),
    StableHlo.binary main_v57 main_v58 main_v59 ((fun a b => concatenate S523776x2 1 [⟨S523776x1, a⟩, ⟨S523776x1, b⟩] concatenates_S523776x1_S523776x1_S523776x2_d1) : (⟨S523776x1, .i32⟩ : BufTy).Contents (Elt F) → (⟨S523776x1, .i32⟩ : BufTy).Contents (Elt F) → (⟨S523776x2, .i32⟩ : BufTy).Contents (Elt F)),
    StableHlo.ternary main_v46 main_v59 main_v45 main_v60 ((fun x i u => Host.scatter scatter_S1024x1024_S523776x2_S523776_n_01_01_1 (fun _ b => b) x i u) : (⟨S1024x1024, .f32⟩ : BufTy).Contents (Elt F) → (⟨S523776x2, .i32⟩ : BufTy).Contents (Elt F) → (⟨S523776, .f32⟩ : BufTy).Contents (Elt F) → (⟨S1024x1024, .f32⟩ : BufTy).Contents (Elt F)) ]
/-- The buffers they write. -/
abbrev opsG_W : List (Ref sig .tc) := [main_cst_13, main_v46, main_c_14, main_v47, main_v48, main_c_15, main_v49, main_v50, main_v51, main_c_16, main_v52, main_v53, main_c_17, main_v54, main_v55, main_v56, main_v57, main_v58, main_v59, main_v60]
theorem opsG_sub : (opsG : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., ternary_bufs_sub ..⟩

/-! A typed reference to a literal buffer moves contents to the buffer's own type and back along an equation of types
    that holds by computation: each move is the identity. One pair of equations per buffer named through a typed reference. -/
theorem toBuf_main_call0_v0 (X : (⟨S1024x1024, .i32⟩ : BufTy).Contents (Elt F)) : (StableHlo.TRef.of main_call0_v0 : StableHlo.TRef sig ⟨S1024x1024, .i32⟩).toBuf (Val := Elt F) X = X := rfl
theorem ofBuf_main_call0_v0 (X : (⟨S1024x1024, .i32⟩ : BufTy).Contents (Elt F)) : (StableHlo.TRef.of main_call0_v0 : StableHlo.TRef sig ⟨S1024x1024, .i32⟩).ofBuf (Val := Elt F) X = X := rfl
theorem toBuf_main_call0_c (X : (⟨S_, .i32⟩ : BufTy).Contents (Elt F)) : (StableHlo.TRef.of main_call0_c : StableHlo.TRef sig ⟨S_, .i32⟩).toBuf (Val := Elt F) X = X := rfl
theorem ofBuf_main_call0_c (X : (⟨S_, .i32⟩ : BufTy).Contents (Elt F)) : (StableHlo.TRef.of main_call0_c : StableHlo.TRef sig ⟨S_, .i32⟩).ofBuf (Val := Elt F) X = X := rfl
theorem toBuf_main_call0_v1 (X : (⟨S1024x1024, .i32⟩ : BufTy).Contents (Elt F)) : (StableHlo.TRef.of main_call0_v1 : StableHlo.TRef sig ⟨S1024x1024, .i32⟩).toBuf (Val := Elt F) X = X := rfl
theorem ofBuf_main_call0_v1 (X : (⟨S1024x1024, .i32⟩ : BufTy).Contents (Elt F)) : (StableHlo.TRef.of main_call0_v1 : StableHlo.TRef sig ⟨S1024x1024, .i32⟩).ofBuf (Val := Elt F) X = X := rfl
theorem toBuf_main_call0_v2 (X : (⟨S1024x1024, .i32⟩ : BufTy).Contents (Elt F)) : (StableHlo.TRef.of main_call0_v2 : StableHlo.TRef sig ⟨S1024x1024, .i32⟩).toBuf (Val := Elt F) X = X := rfl
theorem ofBuf_main_call0_v2 (X : (⟨S1024x1024, .i32⟩ : BufTy).Contents (Elt F)) : (StableHlo.TRef.of main_call0_v2 : StableHlo.TRef sig ⟨S1024x1024, .i32⟩).ofBuf (Val := Elt F) X = X := rfl
theorem toBuf_main_call0_v3 (X : (⟨S1024x1024, .i32⟩ : BufTy).Contents (Elt F)) : (StableHlo.TRef.of main_call0_v3 : StableHlo.TRef sig ⟨S1024x1024, .i32⟩).toBuf (Val := Elt F) X = X := rfl
theorem ofBuf_main_call0_v3 (X : (⟨S1024x1024, .i32⟩ : BufTy).Contents (Elt F)) : (StableHlo.TRef.of main_call0_v3 : StableHlo.TRef sig ⟨S1024x1024, .i32⟩).ofBuf (Val := Elt F) X = X := rfl
theorem toBuf_main_call0_v4 (X : (⟨S1024x1024, .i1⟩ : BufTy).Contents (Elt F)) : (StableHlo.TRef.of main_call0_v4 : StableHlo.TRef sig ⟨S1024x1024, .i1⟩).toBuf (Val := Elt F) X = X := rfl
theorem ofBuf_main_call0_v4 (X : (⟨S1024x1024, .i1⟩ : BufTy).Contents (Elt F)) : (StableHlo.TRef.of main_call0_v4 : StableHlo.TRef sig ⟨S1024x1024, .i1⟩).ofBuf (Val := Elt F) X = X := rfl
theorem toBuf_main_call0_cst (X : (⟨S_, .f32⟩ : BufTy).Contents (Elt F)) : (StableHlo.TRef.of main_call0_cst : StableHlo.TRef sig ⟨S_, .f32⟩).toBuf (Val := Elt F) X = X := rfl
theorem ofBuf_main_call0_cst (X : (⟨S_, .f32⟩ : BufTy).Contents (Elt F)) : (StableHlo.TRef.of main_call0_cst : StableHlo.TRef sig ⟨S_, .f32⟩).ofBuf (Val := Elt F) X = X := rfl
theorem toBuf_main_call0_v5 (X : (⟨S1024x1024, .f32⟩ : BufTy).Contents (Elt F)) : (StableHlo.TRef.of main_call0_v5 : StableHlo.TRef sig ⟨S1024x1024, .f32⟩).toBuf (Val := Elt F) X = X := rfl
theorem ofBuf_main_call0_v5 (X : (⟨S1024x1024, .f32⟩ : BufTy).Contents (Elt F)) : (StableHlo.TRef.of main_call0_v5 : StableHlo.TRef sig ⟨S1024x1024, .f32⟩).ofBuf (Val := Elt F) X = X := rfl
theorem toBuf_main_v0 (X : (⟨S1024x1024, .f32⟩ : BufTy).Contents (Elt F)) : (StableHlo.TRef.of main_v0 : StableHlo.TRef sig ⟨S1024x1024, .f32⟩).toBuf (Val := Elt F) X = X := rfl
theorem ofBuf_main_v0 (X : (⟨S1024x1024, .f32⟩ : BufTy).Contents (Elt F)) : (StableHlo.TRef.of main_v0 : StableHlo.TRef sig ⟨S1024x1024, .f32⟩).ofBuf (Val := Elt F) X = X := rfl
theorem toBuf_main_v1 (X : (⟨S1024x1024, .f32⟩ : BufTy).Contents (Elt F)) : (StableHlo.TRef.of main_v1 : StableHlo.TRef sig ⟨S1024x1024, .f32⟩).toBuf (Val := Elt F) X = X := rfl
theorem ofBuf_main_v1 (X : (⟨S1024x1024, .f32⟩ : BufTy).Contents (Elt F)) : (StableHlo.TRef.of main_v1 : StableHlo.TRef sig ⟨S1024x1024, .f32⟩).ofBuf (Val := Elt F) X = X := rfl
theorem toBuf_main_v3 (X : (⟨S1024x1024, .i1⟩ : BufTy).Contents (Elt F)) : (StableHlo.TRef.of main_v3 : StableHlo.TRef sig ⟨S1024x1024, .i1⟩).toBuf (Val := Elt F) X = X := rfl
theorem ofBuf_main_v3 (X : (⟨S1024x1024, .i1⟩ : BufTy).Contents (Elt F)) : (StableHlo.TRef.of main_v3 : StableHlo.TRef sig ⟨S1024x1024, .i1⟩).ofBuf (Val := Elt F) X = X := rfl
theorem toBuf_main_call1_v0 (X : (⟨S1048576, .i1⟩ : BufTy).Contents (Elt F)) : (StableHlo.TRef.of main_call1_v0 : StableHlo.TRef sig ⟨S1048576, .i1⟩).toBuf (Val := Elt F) X = X := rfl
theorem ofBuf_main_call1_v0 (X : (⟨S1048576, .i1⟩ : BufTy).Contents (Elt F)) : (StableHlo.TRef.of main_call1_v0 : StableHlo.TRef sig ⟨S1048576, .i1⟩).ofBuf (Val := Elt F) X = X := rfl
theorem toBuf_main_call1_v1 (X : (⟨S1048576, .i32⟩ : BufTy).Contents (Elt F)) : (StableHlo.TRef.of main_call1_v1 : StableHlo.TRef sig ⟨S1048576, .i32⟩).toBuf (Val := Elt F) X = X := rfl
theorem ofBuf_main_call1_v1 (X : (⟨S1048576, .i32⟩ : BufTy).Contents (Elt F)) : (StableHlo.TRef.of main_call1_v1 : StableHlo.TRef sig ⟨S1048576, .i32⟩).ofBuf (Val := Elt F) X = X := rfl
theorem toBuf_main_call1_call0_c (X : (⟨S_, .i32⟩ : BufTy).Contents (Elt F)) : (StableHlo.TRef.of main_call1_call0_c : StableHlo.TRef sig ⟨S_, .i32⟩).toBuf (Val := Elt F) X = X := rfl
theorem ofBuf_main_call1_call0_c (X : (⟨S_, .i32⟩ : BufTy).Contents (Elt F)) : (StableHlo.TRef.of main_call1_call0_c : StableHlo.TRef sig ⟨S_, .i32⟩).ofBuf (Val := Elt F) X = X := rfl
theorem toBuf_main_call1_call0_v0 (X : (⟨S_, .i32⟩ : BufTy).Contents (Elt F)) : (StableHlo.TRef.of main_call1_call0_v0 : StableHlo.TRef sig ⟨S_, .i32⟩).toBuf (Val := Elt F) X = X := rfl
theorem ofBuf_main_call1_call0_v0 (X : (⟨S_, .i32⟩ : BufTy).Contents (Elt F)) : (StableHlo.TRef.of main_call1_call0_v0 : StableHlo.TRef sig ⟨S_, .i32⟩).ofBuf (Val := Elt F) X = X := rfl
theorem toBuf_main_v4 (X : (⟨S1048576, .i32⟩ : BufTy).Contents (Elt F)) : (StableHlo.TRef.of main_v4 : StableHlo.TRef sig ⟨S1048576, .i32⟩).toBuf (Val := Elt F) X = X := rfl
theorem ofBuf_main_v4 (X : (⟨S1048576, .i32⟩ : BufTy).Contents (Elt F)) : (StableHlo.TRef.of main_v4 : StableHlo.TRef sig ⟨S1048576, .i32⟩).ofBuf (Val := Elt F) X = X := rfl
theorem toBuf_main_c_1 (X : (⟨S_, .i32⟩ : BufTy).Contents (Elt F)) : (StableHlo.TRef.of main_c_1 : StableHlo.TRef sig ⟨S_, .i32⟩).toBuf (Val := Elt F) X = X := rfl
theorem ofBuf_main_c_1 (X : (⟨S_, .i32⟩ : BufTy).Contents (Elt F)) : (StableHlo.TRef.of main_c_1 : StableHlo.TRef sig ⟨S_, .i32⟩).ofBuf (Val := Elt F) X = X := rfl
theorem toBuf_main_call2_v0 (X : (⟨S_, .i32⟩ : BufTy).Contents (Elt F)) : (StableHlo.TRef.of main_call2_v0 : StableHlo.TRef sig ⟨S_, .i32⟩).toBuf (Val := Elt F) X = X := rfl
theorem ofBuf_main_call2_v0 (X : (⟨S_, .i32⟩ : BufTy).Contents (Elt F)) : (StableHlo.TRef.of main_call2_v0 : StableHlo.TRef sig ⟨S_, .i32⟩).ofBuf (Val := Elt F) X = X := rfl
theorem toBuf_main_call2_v1 (X : (⟨S1048576, .i32⟩ : BufTy).Contents (Elt F)) : (StableHlo.TRef.of main_call2_v1 : StableHlo.TRef sig ⟨S1048576, .i32⟩).toBuf (Val := Elt F) X = X := rfl
theorem ofBuf_main_call2_v1 (X : (⟨S1048576, .i32⟩ : BufTy).Contents (Elt F)) : (StableHlo.TRef.of main_call2_v1 : StableHlo.TRef sig ⟨S1048576, .i32⟩).ofBuf (Val := Elt F) X = X := rfl
theorem toBuf_main_v6 (X : (⟨S1048576, .i32⟩ : BufTy).Contents (Elt F)) : (StableHlo.TRef.of main_v6 : StableHlo.TRef sig ⟨S1048576, .i32⟩).toBuf (Val := Elt F) X = X := rfl
theorem ofBuf_main_v6 (X : (⟨S1048576, .i32⟩ : BufTy).Contents (Elt F)) : (StableHlo.TRef.of main_v6 : StableHlo.TRef sig ⟨S1048576, .i32⟩).ofBuf (Val := Elt F) X = X := rfl
theorem toBuf_main_call3_call0_c (X : (⟨S_, .i32⟩ : BufTy).Contents (Elt F)) : (StableHlo.TRef.of main_call3_call0_c : StableHlo.TRef sig ⟨S_, .i32⟩).toBuf (Val := Elt F) X = X := rfl
theorem ofBuf_main_call3_call0_c (X : (⟨S_, .i32⟩ : BufTy).Contents (Elt F)) : (StableHlo.TRef.of main_call3_call0_c : StableHlo.TRef sig ⟨S_, .i32⟩).ofBuf (Val := Elt F) X = X := rfl
theorem toBuf_main_call3_call0_v0 (X : (⟨S_, .i32⟩ : BufTy).Contents (Elt F)) : (StableHlo.TRef.of main_call3_call0_v0 : StableHlo.TRef sig ⟨S_, .i32⟩).toBuf (Val := Elt F) X = X := rfl
theorem ofBuf_main_call3_call0_v0 (X : (⟨S_, .i32⟩ : BufTy).Contents (Elt F)) : (StableHlo.TRef.of main_call3_call0_v0 : StableHlo.TRef sig ⟨S_, .i32⟩).ofBuf (Val := Elt F) X = X := rfl
theorem toBuf_main_v14 (X : (⟨S523776, .i32⟩ : BufTy).Contents (Elt F)) : (StableHlo.TRef.of main_v14 : StableHlo.TRef sig ⟨S523776, .i32⟩).toBuf (Val := Elt F) X = X := rfl
theorem ofBuf_main_v14 (X : (⟨S523776, .i32⟩ : BufTy).Contents (Elt F)) : (StableHlo.TRef.of main_v14 : StableHlo.TRef sig ⟨S523776, .i32⟩).ofBuf (Val := Elt F) X = X := rfl
theorem toBuf_main_v15 (X : (⟨S523776, .i32⟩ : BufTy).Contents (Elt F)) : (StableHlo.TRef.of main_v15 : StableHlo.TRef sig ⟨S523776, .i32⟩).toBuf (Val := Elt F) X = X := rfl
theorem ofBuf_main_v15 (X : (⟨S523776, .i32⟩ : BufTy).Contents (Elt F)) : (StableHlo.TRef.of main_v15 : StableHlo.TRef sig ⟨S523776, .i32⟩).ofBuf (Val := Elt F) X = X := rfl
theorem toBuf_main_c_5 (X : (⟨S_, .i32⟩ : BufTy).Contents (Elt F)) : (StableHlo.TRef.of main_c_5 : StableHlo.TRef sig ⟨S_, .i32⟩).toBuf (Val := Elt F) X = X := rfl
theorem ofBuf_main_c_5 (X : (⟨S_, .i32⟩ : BufTy).Contents (Elt F)) : (StableHlo.TRef.of main_c_5 : StableHlo.TRef sig ⟨S_, .i32⟩).ofBuf (Val := Elt F) X = X := rfl
theorem toBuf_main_call4_v0 (X : (⟨S523776, .i32⟩ : BufTy).Contents (Elt F)) : (StableHlo.TRef.of main_call4_v0 : StableHlo.TRef sig ⟨S523776, .i32⟩).toBuf (Val := Elt F) X = X := rfl
theorem ofBuf_main_call4_v0 (X : (⟨S523776, .i32⟩ : BufTy).Contents (Elt F)) : (StableHlo.TRef.of main_call4_v0 : StableHlo.TRef sig ⟨S523776, .i32⟩).ofBuf (Val := Elt F) X = X := rfl
theorem toBuf_main_call4_v1 (X : (⟨S523776, .i32⟩ : BufTy).Contents (Elt F)) : (StableHlo.TRef.of main_call4_v1 : StableHlo.TRef sig ⟨S523776, .i32⟩).toBuf (Val := Elt F) X = X := rfl
theorem ofBuf_main_call4_v1 (X : (⟨S523776, .i32⟩ : BufTy).Contents (Elt F)) : (StableHlo.TRef.of main_call4_v1 : StableHlo.TRef sig ⟨S523776, .i32⟩).ofBuf (Val := Elt F) X = X := rfl
theorem toBuf_main_call4_v2 (X : (⟨S523776, .i32⟩ : BufTy).Contents (Elt F)) : (StableHlo.TRef.of main_call4_v2 : StableHlo.TRef sig ⟨S523776, .i32⟩).toBuf (Val := Elt F) X = X := rfl
theorem ofBuf_main_call4_v2 (X : (⟨S523776, .i32⟩ : BufTy).Contents (Elt F)) : (StableHlo.TRef.of main_call4_v2 : StableHlo.TRef sig ⟨S523776, .i32⟩).ofBuf (Val := Elt F) X = X := rfl
theorem toBuf_main_call4_v3 (X : (⟨S_, .i32⟩ : BufTy).Contents (Elt F)) : (StableHlo.TRef.of main_call4_v3 : StableHlo.TRef sig ⟨S_, .i32⟩).toBuf (Val := Elt F) X = X := rfl
theorem ofBuf_main_call4_v3 (X : (⟨S_, .i32⟩ : BufTy).Contents (Elt F)) : (StableHlo.TRef.of main_call4_v3 : StableHlo.TRef sig ⟨S_, .i32⟩).ofBuf (Val := Elt F) X = X := rfl
theorem toBuf_main_call4_v4 (X : (⟨S523776, .i32⟩ : BufTy).Contents (Elt F)) : (StableHlo.TRef.of main_call4_v4 : StableHlo.TRef sig ⟨S523776, .i32⟩).toBuf (Val := Elt F) X = X := rfl
theorem ofBuf_main_call4_v4 (X : (⟨S523776, .i32⟩ : BufTy).Contents (Elt F)) : (StableHlo.TRef.of main_call4_v4 : StableHlo.TRef sig ⟨S523776, .i32⟩).ofBuf (Val := Elt F) X = X := rfl
theorem toBuf_main_call4_v5 (X : (⟨S523776, .i1⟩ : BufTy).Contents (Elt F)) : (StableHlo.TRef.of main_call4_v5 : StableHlo.TRef sig ⟨S523776, .i1⟩).toBuf (Val := Elt F) X = X := rfl
theorem ofBuf_main_call4_v5 (X : (⟨S523776, .i1⟩ : BufTy).Contents (Elt F)) : (StableHlo.TRef.of main_call4_v5 : StableHlo.TRef sig ⟨S523776, .i1⟩).ofBuf (Val := Elt F) X = X := rfl
theorem toBuf_main_call4_v6 (X : (⟨S523776, .i32⟩ : BufTy).Contents (Elt F)) : (StableHlo.TRef.of main_call4_v6 : StableHlo.TRef sig ⟨S523776, .i32⟩).toBuf (Val := Elt F) X = X := rfl
theorem ofBuf_main_call4_v6 (X : (⟨S523776, .i32⟩ : BufTy).Contents (Elt F)) : (StableHlo.TRef.of main_call4_v6 : StableHlo.TRef sig ⟨S523776, .i32⟩).ofBuf (Val := Elt F) X = X := rfl
theorem toBuf_main_call4_v7 (X : (⟨S523776, .i32⟩ : BufTy).Contents (Elt F)) : (StableHlo.TRef.of main_call4_v7 : StableHlo.TRef sig ⟨S523776, .i32⟩).toBuf (Val := Elt F) X = X := rfl
theorem ofBuf_main_call4_v7 (X : (⟨S523776, .i32⟩ : BufTy).Contents (Elt F)) : (StableHlo.TRef.of main_call4_v7 : StableHlo.TRef sig ⟨S523776, .i32⟩).ofBuf (Val := Elt F) X = X := rfl
theorem toBuf_main_call4_c (X : (⟨S_, .i32⟩ : BufTy).Contents (Elt F)) : (StableHlo.TRef.of main_call4_c : StableHlo.TRef sig ⟨S_, .i32⟩).toBuf (Val := Elt F) X = X := rfl
theorem ofBuf_main_call4_c (X : (⟨S_, .i32⟩ : BufTy).Contents (Elt F)) : (StableHlo.TRef.of main_call4_c : StableHlo.TRef sig ⟨S_, .i32⟩).ofBuf (Val := Elt F) X = X := rfl
theorem toBuf_main_call4_v8 (X : (⟨S523776, .i32⟩ : BufTy).Contents (Elt F)) : (StableHlo.TRef.of main_call4_v8 : StableHlo.TRef sig ⟨S523776, .i32⟩).toBuf (Val := Elt F) X = X := rfl
theorem ofBuf_main_call4_v8 (X : (⟨S523776, .i32⟩ : BufTy).Contents (Elt F)) : (StableHlo.TRef.of main_call4_v8 : StableHlo.TRef sig ⟨S523776, .i32⟩).ofBuf (Val := Elt F) X = X := rfl
theorem toBuf_main_call4_v9 (X : (⟨S523776, .i1⟩ : BufTy).Contents (Elt F)) : (StableHlo.TRef.of main_call4_v9 : StableHlo.TRef sig ⟨S523776, .i1⟩).toBuf (Val := Elt F) X = X := rfl
theorem ofBuf_main_call4_v9 (X : (⟨S523776, .i1⟩ : BufTy).Contents (Elt F)) : (StableHlo.TRef.of main_call4_v9 : StableHlo.TRef sig ⟨S523776, .i1⟩).ofBuf (Val := Elt F) X = X := rfl
theorem toBuf_main_call4_v10 (X : (⟨S523776, .i1⟩ : BufTy).Contents (Elt F)) : (StableHlo.TRef.of main_call4_v10 : StableHlo.TRef sig ⟨S523776, .i1⟩).toBuf (Val := Elt F) X = X := rfl
theorem ofBuf_main_call4_v10 (X : (⟨S523776, .i1⟩ : BufTy).Contents (Elt F)) : (StableHlo.TRef.of main_call4_v10 : StableHlo.TRef sig ⟨S523776, .i1⟩).ofBuf (Val := Elt F) X = X := rfl
theorem toBuf_main_call4_c_0 (X : (⟨S_, .i32⟩ : BufTy).Contents (Elt F)) : (StableHlo.TRef.of main_call4_c_0 : StableHlo.TRef sig ⟨S_, .i32⟩).toBuf (Val := Elt F) X = X := rfl
theorem ofBuf_main_call4_c_0 (X : (⟨S_, .i32⟩ : BufTy).Contents (Elt F)) : (StableHlo.TRef.of main_call4_c_0 : StableHlo.TRef sig ⟨S_, .i32⟩).ofBuf (Val := Elt F) X = X := rfl
theorem toBuf_main_call4_v11 (X : (⟨S523776, .i32⟩ : BufTy).Contents (Elt F)) : (StableHlo.TRef.of main_call4_v11 : StableHlo.TRef sig ⟨S523776, .i32⟩).toBuf (Val := Elt F) X = X := rfl
theorem ofBuf_main_call4_v11 (X : (⟨S523776, .i32⟩ : BufTy).Contents (Elt F)) : (StableHlo.TRef.of main_call4_v11 : StableHlo.TRef sig ⟨S523776, .i32⟩).ofBuf (Val := Elt F) X = X := rfl
theorem toBuf_main_call4_v12 (X : (⟨S523776, .i32⟩ : BufTy).Contents (Elt F)) : (StableHlo.TRef.of main_call4_v12 : StableHlo.TRef sig ⟨S523776, .i32⟩).toBuf (Val := Elt F) X = X := rfl
theorem ofBuf_main_call4_v12 (X : (⟨S523776, .i32⟩ : BufTy).Contents (Elt F)) : (StableHlo.TRef.of main_call4_v12 : StableHlo.TRef sig ⟨S523776, .i32⟩).ofBuf (Val := Elt F) X = X := rfl
theorem toBuf_main_v16 (X : (⟨S523776, .i32⟩ : BufTy).Contents (Elt F)) : (StableHlo.TRef.of main_v16 : StableHlo.TRef sig ⟨S523776, .i32⟩).toBuf (Val := Elt F) X = X := rfl
theorem ofBuf_main_v16 (X : (⟨S523776, .i32⟩ : BufTy).Contents (Elt F)) : (StableHlo.TRef.of main_v16 : StableHlo.TRef sig ⟨S523776, .i32⟩).ofBuf (Val := Elt F) X = X := rfl
theorem toBuf_main_c_6 (X : (⟨S_, .i32⟩ : BufTy).Contents (Elt F)) : (StableHlo.TRef.of main_c_6 : StableHlo.TRef sig ⟨S_, .i32⟩).toBuf (Val := Elt F) X = X := rfl
theorem ofBuf_main_c_6 (X : (⟨S_, .i32⟩ : BufTy).Contents (Elt F)) : (StableHlo.TRef.of main_c_6 : StableHlo.TRef sig ⟨S_, .i32⟩).ofBuf (Val := Elt F) X = X := rfl
theorem toBuf_main_call5_v0 (X : (⟨S_, .i32⟩ : BufTy).Contents (Elt F)) : (StableHlo.TRef.of main_call5_v0 : StableHlo.TRef sig ⟨S_, .i32⟩).toBuf (Val := Elt F) X = X := rfl
theorem ofBuf_main_call5_v0 (X : (⟨S_, .i32⟩ : BufTy).Contents (Elt F)) : (StableHlo.TRef.of main_call5_v0 : StableHlo.TRef sig ⟨S_, .i32⟩).ofBuf (Val := Elt F) X = X := rfl
theorem toBuf_main_call5_c (X : (⟨S_, .i32⟩ : BufTy).Contents (Elt F)) : (StableHlo.TRef.of main_call5_c : StableHlo.TRef sig ⟨S_, .i32⟩).toBuf (Val := Elt F) X = X := rfl
theorem ofBuf_main_call5_c (X : (⟨S_, .i32⟩ : BufTy).Contents (Elt F)) : (StableHlo.TRef.of main_call5_c : StableHlo.TRef sig ⟨S_, .i32⟩).ofBuf (Val := Elt F) X = X := rfl
theorem toBuf_main_call5_v1 (X : (⟨S_, .i1⟩ : BufTy).Contents (Elt F)) : (StableHlo.TRef.of main_call5_v1 : StableHlo.TRef sig ⟨S_, .i1⟩).toBuf (Val := Elt F) X = X := rfl
theorem ofBuf_main_call5_v1 (X : (⟨S_, .i1⟩ : BufTy).Contents (Elt F)) : (StableHlo.TRef.of main_call5_v1 : StableHlo.TRef sig ⟨S_, .i1⟩).ofBuf (Val := Elt F) X = X := rfl
theorem toBuf_main_call5_c_0 (X : (⟨S_, .i32⟩ : BufTy).Contents (Elt F)) : (StableHlo.TRef.of main_call5_c_0 : StableHlo.TRef sig ⟨S_, .i32⟩).toBuf (Val := Elt F) X = X := rfl
theorem ofBuf_main_call5_c_0 (X : (⟨S_, .i32⟩ : BufTy).Contents (Elt F)) : (StableHlo.TRef.of main_call5_c_0 : StableHlo.TRef sig ⟨S_, .i32⟩).ofBuf (Val := Elt F) X = X := rfl
theorem toBuf_main_call5_v2 (X : (⟨S_, .i32⟩ : BufTy).Contents (Elt F)) : (StableHlo.TRef.of main_call5_v2 : StableHlo.TRef sig ⟨S_, .i32⟩).toBuf (Val := Elt F) X = X := rfl
theorem ofBuf_main_call5_v2 (X : (⟨S_, .i32⟩ : BufTy).Contents (Elt F)) : (StableHlo.TRef.of main_call5_v2 : StableHlo.TRef sig ⟨S_, .i32⟩).ofBuf (Val := Elt F) X = X := rfl
theorem toBuf_main_call5_v3 (X : (⟨S523776, .i32⟩ : BufTy).Contents (Elt F)) : (StableHlo.TRef.of main_call5_v3 : StableHlo.TRef sig ⟨S523776, .i32⟩).toBuf (Val := Elt F) X = X := rfl
theorem ofBuf_main_call5_v3 (X : (⟨S523776, .i32⟩ : BufTy).Contents (Elt F)) : (StableHlo.TRef.of main_call5_v3 : StableHlo.TRef sig ⟨S523776, .i32⟩).ofBuf (Val := Elt F) X = X := rfl
theorem toBuf_main_call5_v4 (X : (⟨S523776, .i32⟩ : BufTy).Contents (Elt F)) : (StableHlo.TRef.of main_call5_v4 : StableHlo.TRef sig ⟨S523776, .i32⟩).toBuf (Val := Elt F) X = X := rfl
theorem ofBuf_main_call5_v4 (X : (⟨S523776, .i32⟩ : BufTy).Contents (Elt F)) : (StableHlo.TRef.of main_call5_v4 : StableHlo.TRef sig ⟨S523776, .i32⟩).ofBuf (Val := Elt F) X = X := rfl
theorem toBuf_main_call5_c_1 (X : (⟨S_, .i32⟩ : BufTy).Contents (Elt F)) : (StableHlo.TRef.of main_call5_c_1 : StableHlo.TRef sig ⟨S_, .i32⟩).toBuf (Val := Elt F) X = X := rfl
theorem ofBuf_main_call5_c_1 (X : (⟨S_, .i32⟩ : BufTy).Contents (Elt F)) : (StableHlo.TRef.of main_call5_c_1 : StableHlo.TRef sig ⟨S_, .i32⟩).ofBuf (Val := Elt F) X = X := rfl
theorem toBuf_main_call5_v5 (X : (⟨S523776, .i32⟩ : BufTy).Contents (Elt F)) : (StableHlo.TRef.of main_call5_v5 : StableHlo.TRef sig ⟨S523776, .i32⟩).toBuf (Val := Elt F) X = X := rfl
theorem ofBuf_main_call5_v5 (X : (⟨S523776, .i32⟩ : BufTy).Contents (Elt F)) : (StableHlo.TRef.of main_call5_v5 : StableHlo.TRef sig ⟨S523776, .i32⟩).ofBuf (Val := Elt F) X = X := rfl
theorem toBuf_main_call5_v6 (X : (⟨S523776, .i1⟩ : BufTy).Contents (Elt F)) : (StableHlo.TRef.of main_call5_v6 : StableHlo.TRef sig ⟨S523776, .i1⟩).toBuf (Val := Elt F) X = X := rfl
theorem ofBuf_main_call5_v6 (X : (⟨S523776, .i1⟩ : BufTy).Contents (Elt F)) : (StableHlo.TRef.of main_call5_v6 : StableHlo.TRef sig ⟨S523776, .i1⟩).ofBuf (Val := Elt F) X = X := rfl
theorem toBuf_main_call5_c_2 (X : (⟨S_, .i32⟩ : BufTy).Contents (Elt F)) : (StableHlo.TRef.of main_call5_c_2 : StableHlo.TRef sig ⟨S_, .i32⟩).toBuf (Val := Elt F) X = X := rfl
theorem ofBuf_main_call5_c_2 (X : (⟨S_, .i32⟩ : BufTy).Contents (Elt F)) : (StableHlo.TRef.of main_call5_c_2 : StableHlo.TRef sig ⟨S_, .i32⟩).ofBuf (Val := Elt F) X = X := rfl
theorem toBuf_main_call5_v7 (X : (⟨S523776, .i32⟩ : BufTy).Contents (Elt F)) : (StableHlo.TRef.of main_call5_v7 : StableHlo.TRef sig ⟨S523776, .i32⟩).toBuf (Val := Elt F) X = X := rfl
theorem ofBuf_main_call5_v7 (X : (⟨S523776, .i32⟩ : BufTy).Contents (Elt F)) : (StableHlo.TRef.of main_call5_v7 : StableHlo.TRef sig ⟨S523776, .i32⟩).ofBuf (Val := Elt F) X = X := rfl
theorem toBuf_main_call5_v8 (X : (⟨S523776, .i1⟩ : BufTy).Contents (Elt F)) : (StableHlo.TRef.of main_call5_v8 : StableHlo.TRef sig ⟨S523776, .i1⟩).toBuf (Val := Elt F) X = X := rfl
theorem ofBuf_main_call5_v8 (X : (⟨S523776, .i1⟩ : BufTy).Contents (Elt F)) : (StableHlo.TRef.of main_call5_v8 : StableHlo.TRef sig ⟨S523776, .i1⟩).ofBuf (Val := Elt F) X = X := rfl
theorem toBuf_main_call5_c_3 (X : (⟨S_, .i32⟩ : BufTy).Contents (Elt F)) : (StableHlo.TRef.of main_call5_c_3 : StableHlo.TRef sig ⟨S_, .i32⟩).toBuf (Val := Elt F) X = X := rfl
theorem ofBuf_main_call5_c_3 (X : (⟨S_, .i32⟩ : BufTy).Contents (Elt F)) : (StableHlo.TRef.of main_call5_c_3 : StableHlo.TRef sig ⟨S_, .i32⟩).ofBuf (Val := Elt F) X = X := rfl
theorem toBuf_main_call5_v9 (X : (⟨S_, .i1⟩ : BufTy).Contents (Elt F)) : (StableHlo.TRef.of main_call5_v9 : StableHlo.TRef sig ⟨S_, .i1⟩).toBuf (Val := Elt F) X = X := rfl
theorem ofBuf_main_call5_v9 (X : (⟨S_, .i1⟩ : BufTy).Contents (Elt F)) : (StableHlo.TRef.of main_call5_v9 : StableHlo.TRef sig ⟨S_, .i1⟩).ofBuf (Val := Elt F) X = X := rfl
theorem toBuf_main_call5_v10 (X : (⟨S523776, .i1⟩ : BufTy).Contents (Elt F)) : (StableHlo.TRef.of main_call5_v10 : StableHlo.TRef sig ⟨S523776, .i1⟩).toBuf (Val := Elt F) X = X := rfl
theorem ofBuf_main_call5_v10 (X : (⟨S523776, .i1⟩ : BufTy).Contents (Elt F)) : (StableHlo.TRef.of main_call5_v10 : StableHlo.TRef sig ⟨S523776, .i1⟩).ofBuf (Val := Elt F) X = X := rfl
theorem toBuf_main_call5_v11 (X : (⟨S523776, .i1⟩ : BufTy).Contents (Elt F)) : (StableHlo.TRef.of main_call5_v11 : StableHlo.TRef sig ⟨S523776, .i1⟩).toBuf (Val := Elt F) X = X := rfl
theorem ofBuf_main_call5_v11 (X : (⟨S523776, .i1⟩ : BufTy).Contents (Elt F)) : (StableHlo.TRef.of main_call5_v11 : StableHlo.TRef sig ⟨S523776, .i1⟩).ofBuf (Val := Elt F) X = X := rfl
theorem toBuf_main_call5_v12 (X : (⟨S523776, .i1⟩ : BufTy).Contents (Elt F)) : (StableHlo.TRef.of main_call5_v12 : StableHlo.TRef sig ⟨S523776, .i1⟩).toBuf (Val := Elt F) X = X := rfl
theorem ofBuf_main_call5_v12 (X : (⟨S523776, .i1⟩ : BufTy).Contents (Elt F)) : (StableHlo.TRef.of main_call5_v12 : StableHlo.TRef sig ⟨S523776, .i1⟩).ofBuf (Val := Elt F) X = X := rfl
theorem toBuf_main_call5_v13 (X : (⟨S523776, .i32⟩ : BufTy).Contents (Elt F)) : (StableHlo.TRef.of main_call5_v13 : StableHlo.TRef sig ⟨S523776, .i32⟩).toBuf (Val := Elt F) X = X := rfl
theorem ofBuf_main_call5_v13 (X : (⟨S523776, .i32⟩ : BufTy).Contents (Elt F)) : (StableHlo.TRef.of main_call5_v13 : StableHlo.TRef sig ⟨S523776, .i32⟩).ofBuf (Val := Elt F) X = X := rfl
theorem toBuf_main_call5_v14 (X : (⟨S523776, .i32⟩ : BufTy).Contents (Elt F)) : (StableHlo.TRef.of main_call5_v14 : StableHlo.TRef sig ⟨S523776, .i32⟩).toBuf (Val := Elt F) X = X := rfl
theorem ofBuf_main_call5_v14 (X : (⟨S523776, .i32⟩ : BufTy).Contents (Elt F)) : (StableHlo.TRef.of main_call5_v14 : StableHlo.TRef sig ⟨S523776, .i32⟩).ofBuf (Val := Elt F) X = X := rfl
theorem toBuf_main_v17 (X : (⟨S523776, .i32⟩ : BufTy).Contents (Elt F)) : (StableHlo.TRef.of main_v17 : StableHlo.TRef sig ⟨S523776, .i32⟩).toBuf (Val := Elt F) X = X := rfl
theorem ofBuf_main_v17 (X : (⟨S523776, .i32⟩ : BufTy).Contents (Elt F)) : (StableHlo.TRef.of main_v17 : StableHlo.TRef sig ⟨S523776, .i32⟩).ofBuf (Val := Elt F) X = X := rfl
theorem toBuf_main_c_7 (X : (⟨S_, .i32⟩ : BufTy).Contents (Elt F)) : (StableHlo.TRef.of main_c_7 : StableHlo.TRef sig ⟨S_, .i32⟩).toBuf (Val := Elt F) X = X := rfl
theorem ofBuf_main_c_7 (X : (⟨S_, .i32⟩ : BufTy).Contents (Elt F)) : (StableHlo.TRef.of main_c_7 : StableHlo.TRef sig ⟨S_, .i32⟩).ofBuf (Val := Elt F) X = X := rfl
theorem toBuf_main_call6_v0 (X : (⟨S523776, .i32⟩ : BufTy).Contents (Elt F)) : (StableHlo.TRef.of main_call6_v0 : StableHlo.TRef sig ⟨S523776, .i32⟩).toBuf (Val := Elt F) X = X := rfl
theorem ofBuf_main_call6_v0 (X : (⟨S523776, .i32⟩ : BufTy).Contents (Elt F)) : (StableHlo.TRef.of main_call6_v0 : StableHlo.TRef sig ⟨S523776, .i32⟩).ofBuf (Val := Elt F) X = X := rfl
theorem toBuf_main_call6_v1 (X : (⟨S523776, .i32⟩ : BufTy).Contents (Elt F)) : (StableHlo.TRef.of main_call6_v1 : StableHlo.TRef sig ⟨S523776, .i32⟩).toBuf (Val := Elt F) X = X := rfl
theorem ofBuf_main_call6_v1 (X : (⟨S523776, .i32⟩ : BufTy).Contents (Elt F)) : (StableHlo.TRef.of main_call6_v1 : StableHlo.TRef sig ⟨S523776, .i32⟩).ofBuf (Val := Elt F) X = X := rfl
theorem toBuf_main_call6_v2 (X : (⟨S523776, .i32⟩ : BufTy).Contents (Elt F)) : (StableHlo.TRef.of main_call6_v2 : StableHlo.TRef sig ⟨S523776, .i32⟩).toBuf (Val := Elt F) X = X := rfl
theorem ofBuf_main_call6_v2 (X : (⟨S523776, .i32⟩ : BufTy).Contents (Elt F)) : (StableHlo.TRef.of main_call6_v2 : StableHlo.TRef sig ⟨S523776, .i32⟩).ofBuf (Val := Elt F) X = X := rfl
theorem toBuf_main_call6_v3 (X : (⟨S_, .i32⟩ : BufTy).Contents (Elt F)) : (StableHlo.TRef.of main_call6_v3 : StableHlo.TRef sig ⟨S_, .i32⟩).toBuf (Val := Elt F) X = X := rfl
theorem ofBuf_main_call6_v3 (X : (⟨S_, .i32⟩ : BufTy).Contents (Elt F)) : (StableHlo.TRef.of main_call6_v3 : StableHlo.TRef sig ⟨S_, .i32⟩).ofBuf (Val := Elt F) X = X := rfl
theorem toBuf_main_call6_v4 (X : (⟨S523776, .i32⟩ : BufTy).Contents (Elt F)) : (StableHlo.TRef.of main_call6_v4 : StableHlo.TRef sig ⟨S523776, .i32⟩).toBuf (Val := Elt F) X = X := rfl
theorem ofBuf_main_call6_v4 (X : (⟨S523776, .i32⟩ : BufTy).Contents (Elt F)) : (StableHlo.TRef.of main_call6_v4 : StableHlo.TRef sig ⟨S523776, .i32⟩).ofBuf (Val := Elt F) X = X := rfl
theorem toBuf_main_call6_v5 (X : (⟨S523776, .i1⟩ : BufTy).Contents (Elt F)) : (StableHlo.TRef.of main_call6_v5 : StableHlo.TRef sig ⟨S523776, .i1⟩).toBuf (Val := Elt F) X = X := rfl
theorem ofBuf_main_call6_v5 (X : (⟨S523776, .i1⟩ : BufTy).Contents (Elt F)) : (StableHlo.TRef.of main_call6_v5 : StableHlo.TRef sig ⟨S523776, .i1⟩).ofBuf (Val := Elt F) X = X := rfl
theorem toBuf_main_call6_v6 (X : (⟨S523776, .i32⟩ : BufTy).Contents (Elt F)) : (StableHlo.TRef.of main_call6_v6 : StableHlo.TRef sig ⟨S523776, .i32⟩).toBuf (Val := Elt F) X = X := rfl
theorem ofBuf_main_call6_v6 (X : (⟨S523776, .i32⟩ : BufTy).Contents (Elt F)) : (StableHlo.TRef.of main_call6_v6 : StableHlo.TRef sig ⟨S523776, .i32⟩).ofBuf (Val := Elt F) X = X := rfl
theorem toBuf_main_call6_v7 (X : (⟨S523776, .i32⟩ : BufTy).Contents (Elt F)) : (StableHlo.TRef.of main_call6_v7 : StableHlo.TRef sig ⟨S523776, .i32⟩).toBuf (Val := Elt F) X = X := rfl
theorem ofBuf_main_call6_v7 (X : (⟨S523776, .i32⟩ : BufTy).Contents (Elt F)) : (StableHlo.TRef.of main_call6_v7 : StableHlo.TRef sig ⟨S523776, .i32⟩).ofBuf (Val := Elt F) X = X := rfl
theorem toBuf_main_call6_c (X : (⟨S_, .i32⟩ : BufTy).Contents (Elt F)) : (StableHlo.TRef.of main_call6_c : StableHlo.TRef sig ⟨S_, .i32⟩).toBuf (Val := Elt F) X = X := rfl
theorem ofBuf_main_call6_c (X : (⟨S_, .i32⟩ : BufTy).Contents (Elt F)) : (StableHlo.TRef.of main_call6_c : StableHlo.TRef sig ⟨S_, .i32⟩).ofBuf (Val := Elt F) X = X := rfl
theorem toBuf_main_call6_v8 (X : (⟨S523776, .i32⟩ : BufTy).Contents (Elt F)) : (StableHlo.TRef.of main_call6_v8 : StableHlo.TRef sig ⟨S523776, .i32⟩).toBuf (Val := Elt F) X = X := rfl
theorem ofBuf_main_call6_v8 (X : (⟨S523776, .i32⟩ : BufTy).Contents (Elt F)) : (StableHlo.TRef.of main_call6_v8 : StableHlo.TRef sig ⟨S523776, .i32⟩).ofBuf (Val := Elt F) X = X := rfl
theorem toBuf_main_call6_v9 (X : (⟨S523776, .i1⟩ : BufTy).Contents (Elt F)) : (StableHlo.TRef.of main_call6_v9 : StableHlo.TRef sig ⟨S523776, .i1⟩).toBuf (Val := Elt F) X = X := rfl
theorem ofBuf_main_call6_v9 (X : (⟨S523776, .i1⟩ : BufTy).Contents (Elt F)) : (StableHlo.TRef.of main_call6_v9 : StableHlo.TRef sig ⟨S523776, .i1⟩).ofBuf (Val := Elt F) X = X := rfl
theorem toBuf_main_call6_v10 (X : (⟨S523776, .i1⟩ : BufTy).Contents (Elt F)) : (StableHlo.TRef.of main_call6_v10 : StableHlo.TRef sig ⟨S523776, .i1⟩).toBuf (Val := Elt F) X = X := rfl
theorem ofBuf_main_call6_v10 (X : (⟨S523776, .i1⟩ : BufTy).Contents (Elt F)) : (StableHlo.TRef.of main_call6_v10 : StableHlo.TRef sig ⟨S523776, .i1⟩).ofBuf (Val := Elt F) X = X := rfl
theorem toBuf_main_call6_c_0 (X : (⟨S_, .i32⟩ : BufTy).Contents (Elt F)) : (StableHlo.TRef.of main_call6_c_0 : StableHlo.TRef sig ⟨S_, .i32⟩).toBuf (Val := Elt F) X = X := rfl
theorem ofBuf_main_call6_c_0 (X : (⟨S_, .i32⟩ : BufTy).Contents (Elt F)) : (StableHlo.TRef.of main_call6_c_0 : StableHlo.TRef sig ⟨S_, .i32⟩).ofBuf (Val := Elt F) X = X := rfl
theorem toBuf_main_call6_v11 (X : (⟨S523776, .i32⟩ : BufTy).Contents (Elt F)) : (StableHlo.TRef.of main_call6_v11 : StableHlo.TRef sig ⟨S523776, .i32⟩).toBuf (Val := Elt F) X = X := rfl
theorem ofBuf_main_call6_v11 (X : (⟨S523776, .i32⟩ : BufTy).Contents (Elt F)) : (StableHlo.TRef.of main_call6_v11 : StableHlo.TRef sig ⟨S523776, .i32⟩).ofBuf (Val := Elt F) X = X := rfl
theorem toBuf_main_call6_v12 (X : (⟨S523776, .i32⟩ : BufTy).Contents (Elt F)) : (StableHlo.TRef.of main_call6_v12 : StableHlo.TRef sig ⟨S523776, .i32⟩).toBuf (Val := Elt F) X = X := rfl
theorem ofBuf_main_call6_v12 (X : (⟨S523776, .i32⟩ : BufTy).Contents (Elt F)) : (StableHlo.TRef.of main_call6_v12 : StableHlo.TRef sig ⟨S523776, .i32⟩).ofBuf (Val := Elt F) X = X := rfl
theorem toBuf_main_v18 (X : (⟨S523776, .i32⟩ : BufTy).Contents (Elt F)) : (StableHlo.TRef.of main_v18 : StableHlo.TRef sig ⟨S523776, .i32⟩).toBuf (Val := Elt F) X = X := rfl
theorem ofBuf_main_v18 (X : (⟨S523776, .i32⟩ : BufTy).Contents (Elt F)) : (StableHlo.TRef.of main_v18 : StableHlo.TRef sig ⟨S523776, .i32⟩).ofBuf (Val := Elt F) X = X := rfl
theorem toBuf_main_c_8 (X : (⟨S_, .i32⟩ : BufTy).Contents (Elt F)) : (StableHlo.TRef.of main_c_8 : StableHlo.TRef sig ⟨S_, .i32⟩).toBuf (Val := Elt F) X = X := rfl
theorem ofBuf_main_c_8 (X : (⟨S_, .i32⟩ : BufTy).Contents (Elt F)) : (StableHlo.TRef.of main_c_8 : StableHlo.TRef sig ⟨S_, .i32⟩).ofBuf (Val := Elt F) X = X := rfl
theorem toBuf_main_call7_v0 (X : (⟨S_, .i32⟩ : BufTy).Contents (Elt F)) : (StableHlo.TRef.of main_call7_v0 : StableHlo.TRef sig ⟨S_, .i32⟩).toBuf (Val := Elt F) X = X := rfl
theorem ofBuf_main_call7_v0 (X : (⟨S_, .i32⟩ : BufTy).Contents (Elt F)) : (StableHlo.TRef.of main_call7_v0 : StableHlo.TRef sig ⟨S_, .i32⟩).ofBuf (Val := Elt F) X = X := rfl
theorem toBuf_main_call7_c (X : (⟨S_, .i32⟩ : BufTy).Contents (Elt F)) : (StableHlo.TRef.of main_call7_c : StableHlo.TRef sig ⟨S_, .i32⟩).toBuf (Val := Elt F) X = X := rfl
theorem ofBuf_main_call7_c (X : (⟨S_, .i32⟩ : BufTy).Contents (Elt F)) : (StableHlo.TRef.of main_call7_c : StableHlo.TRef sig ⟨S_, .i32⟩).ofBuf (Val := Elt F) X = X := rfl
theorem toBuf_main_call7_v1 (X : (⟨S_, .i1⟩ : BufTy).Contents (Elt F)) : (StableHlo.TRef.of main_call7_v1 : StableHlo.TRef sig ⟨S_, .i1⟩).toBuf (Val := Elt F) X = X := rfl
theorem ofBuf_main_call7_v1 (X : (⟨S_, .i1⟩ : BufTy).Contents (Elt F)) : (StableHlo.TRef.of main_call7_v1 : StableHlo.TRef sig ⟨S_, .i1⟩).ofBuf (Val := Elt F) X = X := rfl
theorem toBuf_main_call7_c_0 (X : (⟨S_, .i32⟩ : BufTy).Contents (Elt F)) : (StableHlo.TRef.of main_call7_c_0 : StableHlo.TRef sig ⟨S_, .i32⟩).toBuf (Val := Elt F) X = X := rfl
theorem ofBuf_main_call7_c_0 (X : (⟨S_, .i32⟩ : BufTy).Contents (Elt F)) : (StableHlo.TRef.of main_call7_c_0 : StableHlo.TRef sig ⟨S_, .i32⟩).ofBuf (Val := Elt F) X = X := rfl
theorem toBuf_main_call7_v2 (X : (⟨S_, .i32⟩ : BufTy).Contents (Elt F)) : (StableHlo.TRef.of main_call7_v2 : StableHlo.TRef sig ⟨S_, .i32⟩).toBuf (Val := Elt F) X = X := rfl
theorem ofBuf_main_call7_v2 (X : (⟨S_, .i32⟩ : BufTy).Contents (Elt F)) : (StableHlo.TRef.of main_call7_v2 : StableHlo.TRef sig ⟨S_, .i32⟩).ofBuf (Val := Elt F) X = X := rfl
theorem toBuf_main_call7_v3 (X : (⟨S523776, .i32⟩ : BufTy).Contents (Elt F)) : (StableHlo.TRef.of main_call7_v3 : StableHlo.TRef sig ⟨S523776, .i32⟩).toBuf (Val := Elt F) X = X := rfl
theorem ofBuf_main_call7_v3 (X : (⟨S523776, .i32⟩ : BufTy).Contents (Elt F)) : (StableHlo.TRef.of main_call7_v3 : StableHlo.TRef sig ⟨S523776, .i32⟩).ofBuf (Val := Elt F) X = X := rfl
theorem toBuf_main_call7_v4 (X : (⟨S523776, .i32⟩ : BufTy).Contents (Elt F)) : (StableHlo.TRef.of main_call7_v4 : StableHlo.TRef sig ⟨S523776, .i32⟩).toBuf (Val := Elt F) X = X := rfl
theorem ofBuf_main_call7_v4 (X : (⟨S523776, .i32⟩ : BufTy).Contents (Elt F)) : (StableHlo.TRef.of main_call7_v4 : StableHlo.TRef sig ⟨S523776, .i32⟩).ofBuf (Val := Elt F) X = X := rfl
theorem toBuf_main_call7_c_1 (X : (⟨S_, .i32⟩ : BufTy).Contents (Elt F)) : (StableHlo.TRef.of main_call7_c_1 : StableHlo.TRef sig ⟨S_, .i32⟩).toBuf (Val := Elt F) X = X := rfl
theorem ofBuf_main_call7_c_1 (X : (⟨S_, .i32⟩ : BufTy).Contents (Elt F)) : (StableHlo.TRef.of main_call7_c_1 : StableHlo.TRef sig ⟨S_, .i32⟩).ofBuf (Val := Elt F) X = X := rfl
theorem toBuf_main_call7_v5 (X : (⟨S523776, .i32⟩ : BufTy).Contents (Elt F)) : (StableHlo.TRef.of main_call7_v5 : StableHlo.TRef sig ⟨S523776, .i32⟩).toBuf (Val := Elt F) X = X := rfl
theorem ofBuf_main_call7_v5 (X : (⟨S523776, .i32⟩ : BufTy).Contents (Elt F)) : (StableHlo.TRef.of main_call7_v5 : StableHlo.TRef sig ⟨S523776, .i32⟩).ofBuf (Val := Elt F) X = X := rfl
theorem toBuf_main_call7_v6 (X : (⟨S523776, .i1⟩ : BufTy).Contents (Elt F)) : (StableHlo.TRef.of main_call7_v6 : StableHlo.TRef sig ⟨S523776, .i1⟩).toBuf (Val := Elt F) X = X := rfl
theorem ofBuf_main_call7_v6 (X : (⟨S523776, .i1⟩ : BufTy).Contents (Elt F)) : (StableHlo.TRef.of main_call7_v6 : StableHlo.TRef sig ⟨S523776, .i1⟩).ofBuf (Val := Elt F) X = X := rfl
theorem toBuf_main_call7_c_2 (X : (⟨S_, .i32⟩ : BufTy).Contents (Elt F)) : (StableHlo.TRef.of main_call7_c_2 : StableHlo.TRef sig ⟨S_, .i32⟩).toBuf (Val := Elt F) X = X := rfl
theorem ofBuf_main_call7_c_2 (X : (⟨S_, .i32⟩ : BufTy).Contents (Elt F)) : (StableHlo.TRef.of main_call7_c_2 : StableHlo.TRef sig ⟨S_, .i32⟩).ofBuf (Val := Elt F) X = X := rfl
theorem toBuf_main_call7_v7 (X : (⟨S523776, .i32⟩ : BufTy).Contents (Elt F)) : (StableHlo.TRef.of main_call7_v7 : StableHlo.TRef sig ⟨S523776, .i32⟩).toBuf (Val := Elt F) X = X := rfl
theorem ofBuf_main_call7_v7 (X : (⟨S523776, .i32⟩ : BufTy).Contents (Elt F)) : (StableHlo.TRef.of main_call7_v7 : StableHlo.TRef sig ⟨S523776, .i32⟩).ofBuf (Val := Elt F) X = X := rfl
theorem toBuf_main_call7_v8 (X : (⟨S523776, .i1⟩ : BufTy).Contents (Elt F)) : (StableHlo.TRef.of main_call7_v8 : StableHlo.TRef sig ⟨S523776, .i1⟩).toBuf (Val := Elt F) X = X := rfl
theorem ofBuf_main_call7_v8 (X : (⟨S523776, .i1⟩ : BufTy).Contents (Elt F)) : (StableHlo.TRef.of main_call7_v8 : StableHlo.TRef sig ⟨S523776, .i1⟩).ofBuf (Val := Elt F) X = X := rfl
theorem toBuf_main_call7_c_3 (X : (⟨S_, .i32⟩ : BufTy).Contents (Elt F)) : (StableHlo.TRef.of main_call7_c_3 : StableHlo.TRef sig ⟨S_, .i32⟩).toBuf (Val := Elt F) X = X := rfl
theorem ofBuf_main_call7_c_3 (X : (⟨S_, .i32⟩ : BufTy).Contents (Elt F)) : (StableHlo.TRef.of main_call7_c_3 : StableHlo.TRef sig ⟨S_, .i32⟩).ofBuf (Val := Elt F) X = X := rfl
theorem toBuf_main_call7_v9 (X : (⟨S_, .i1⟩ : BufTy).Contents (Elt F)) : (StableHlo.TRef.of main_call7_v9 : StableHlo.TRef sig ⟨S_, .i1⟩).toBuf (Val := Elt F) X = X := rfl
theorem ofBuf_main_call7_v9 (X : (⟨S_, .i1⟩ : BufTy).Contents (Elt F)) : (StableHlo.TRef.of main_call7_v9 : StableHlo.TRef sig ⟨S_, .i1⟩).ofBuf (Val := Elt F) X = X := rfl
theorem toBuf_main_call7_v10 (X : (⟨S523776, .i1⟩ : BufTy).Contents (Elt F)) : (StableHlo.TRef.of main_call7_v10 : StableHlo.TRef sig ⟨S523776, .i1⟩).toBuf (Val := Elt F) X = X := rfl
theorem ofBuf_main_call7_v10 (X : (⟨S523776, .i1⟩ : BufTy).Contents (Elt F)) : (StableHlo.TRef.of main_call7_v10 : StableHlo.TRef sig ⟨S523776, .i1⟩).ofBuf (Val := Elt F) X = X := rfl
theorem toBuf_main_call7_v11 (X : (⟨S523776, .i1⟩ : BufTy).Contents (Elt F)) : (StableHlo.TRef.of main_call7_v11 : StableHlo.TRef sig ⟨S523776, .i1⟩).toBuf (Val := Elt F) X = X := rfl
theorem ofBuf_main_call7_v11 (X : (⟨S523776, .i1⟩ : BufTy).Contents (Elt F)) : (StableHlo.TRef.of main_call7_v11 : StableHlo.TRef sig ⟨S523776, .i1⟩).ofBuf (Val := Elt F) X = X := rfl
theorem toBuf_main_call7_v12 (X : (⟨S523776, .i1⟩ : BufTy).Contents (Elt F)) : (StableHlo.TRef.of main_call7_v12 : StableHlo.TRef sig ⟨S523776, .i1⟩).toBuf (Val := Elt F) X = X := rfl
theorem ofBuf_main_call7_v12 (X : (⟨S523776, .i1⟩ : BufTy).Contents (Elt F)) : (StableHlo.TRef.of main_call7_v12 : StableHlo.TRef sig ⟨S523776, .i1⟩).ofBuf (Val := Elt F) X = X := rfl
theorem toBuf_main_call7_v13 (X : (⟨S523776, .i32⟩ : BufTy).Contents (Elt F)) : (StableHlo.TRef.of main_call7_v13 : StableHlo.TRef sig ⟨S523776, .i32⟩).toBuf (Val := Elt F) X = X := rfl
theorem ofBuf_main_call7_v13 (X : (⟨S523776, .i32⟩ : BufTy).Contents (Elt F)) : (StableHlo.TRef.of main_call7_v13 : StableHlo.TRef sig ⟨S523776, .i32⟩).ofBuf (Val := Elt F) X = X := rfl
theorem toBuf_main_call7_v14 (X : (⟨S523776, .i32⟩ : BufTy).Contents (Elt F)) : (StableHlo.TRef.of main_call7_v14 : StableHlo.TRef sig ⟨S523776, .i32⟩).toBuf (Val := Elt F) X = X := rfl
theorem ofBuf_main_call7_v14 (X : (⟨S523776, .i32⟩ : BufTy).Contents (Elt F)) : (StableHlo.TRef.of main_call7_v14 : StableHlo.TRef sig ⟨S523776, .i32⟩).ofBuf (Val := Elt F) X = X := rfl
theorem toBuf_main_v19 (X : (⟨S523776, .i32⟩ : BufTy).Contents (Elt F)) : (StableHlo.TRef.of main_v19 : StableHlo.TRef sig ⟨S523776, .i32⟩).toBuf (Val := Elt F) X = X := rfl
theorem ofBuf_main_v19 (X : (⟨S523776, .i32⟩ : BufTy).Contents (Elt F)) : (StableHlo.TRef.of main_v19 : StableHlo.TRef sig ⟨S523776, .i32⟩).ofBuf (Val := Elt F) X = X := rfl
theorem toBuf_main_call8_cst (X : (⟨S_, .f32⟩ : BufTy).Contents (Elt F)) : (StableHlo.TRef.of main_call8_cst : StableHlo.TRef sig ⟨S_, .f32⟩).toBuf (Val := Elt F) X = X := rfl
theorem ofBuf_main_call8_cst (X : (⟨S_, .f32⟩ : BufTy).Contents (Elt F)) : (StableHlo.TRef.of main_call8_cst : StableHlo.TRef sig ⟨S_, .f32⟩).ofBuf (Val := Elt F) X = X := rfl
theorem toBuf_main_call8_v0 (X : (⟨S523776x128, .f32⟩ : BufTy).Contents (Elt F)) : (StableHlo.TRef.of main_call8_v0 : StableHlo.TRef sig ⟨S523776x128, .f32⟩).toBuf (Val := Elt F) X = X := rfl
theorem ofBuf_main_call8_v0 (X : (⟨S523776x128, .f32⟩ : BufTy).Contents (Elt F)) : (StableHlo.TRef.of main_call8_v0 : StableHlo.TRef sig ⟨S523776x128, .f32⟩).ofBuf (Val := Elt F) X = X := rfl
theorem toBuf_main_v39 (X : (⟨S523776x128, .f32⟩ : BufTy).Contents (Elt F)) : (StableHlo.TRef.of main_v39 : StableHlo.TRef sig ⟨S523776x128, .f32⟩).toBuf (Val := Elt F) X = X := rfl
theorem ofBuf_main_v39 (X : (⟨S523776x128, .f32⟩ : BufTy).Contents (Elt F)) : (StableHlo.TRef.of main_v39 : StableHlo.TRef sig ⟨S523776x128, .f32⟩).ofBuf (Val := Elt F) X = X := rfl
theorem toBuf_main_v40 (X : (⟨S523776x128, .f32⟩ : BufTy).Contents (Elt F)) : (StableHlo.TRef.of main_v40 : StableHlo.TRef sig ⟨S523776x128, .f32⟩).toBuf (Val := Elt F) X = X := rfl
theorem ofBuf_main_v40 (X : (⟨S523776x128, .f32⟩ : BufTy).Contents (Elt F)) : (StableHlo.TRef.of main_v40 : StableHlo.TRef sig ⟨S523776x128, .f32⟩).ofBuf (Val := Elt F) X = X := rfl

end Cert.ReferenceIdeal.RRun

end
-- ==== Proof.RefRunCasts.lean ====
/-
  Three general facts the stages of the reference's run share. A typed reference carries the type of the tensor value
  its buffer holds, and moves contents between that type and the buffer's own along the equation of the two types:
  moving a value to the buffer's type and back is the identity (with the equation eliminated both moves are along
  reflexivity). Running two lists of operations one after the other is running their concatenation. A property of every
  operation of two lists holds of every operation of their concatenation.
-/
import Idealize.ShloMosaic.Lib.StableHlo.Run

namespace Cert.ReferenceIdeal.RRun

open Idealize.ShloMosaic Idealize.ShloMosaic.StableHlo

/-- Contents moved to the buffer's own type and back are unchanged. -/
theorem ofBuf_toBuf {sig : RefSig} {Val : EltTy → Type} {T : BufTy} (x : TRef sig T) (v : T.Contents Val) :
    x.ofBuf (x.toBuf v) = v := by
  obtain ⟨r, rfl, a, b⟩ := x
  rfl

section
variable {τ : Topo} {sig : RefSig} {Val : EltTy → Type}

/-- Running two lists one after the other is running their concatenation. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A property of every operation of two lists holds of every operation of their concatenation. -/
theorem forall_mem_append {p : HloOp τ sig Val → Prop} {l₁ l₂ : List (HloOp τ sig Val)}
    (h₁ : ∀ op ∈ l₁, p op) (h₂ : ∀ op ∈ l₂, p op) : ∀ op ∈ l₁ ++ l₂, p op :=
  fun op h => (List.mem_append.1 h).elim (h₁ op) (h₂ op)
end

end Cert.ReferenceIdeal.RRun
-- ==== Proof.RefRunA.lean ====
/-
  The first stage of the reference's run: after the first fourteen operations, from any contents, the buffer of the
  comparison holds the 0/1 mask of the strictly lower triangle. The fold over the list is unrolled, each operation's
  result read at its own buffer and passed over at every other; the moves of contents between a value's type and its
  buffer's type are identities; what is left is the mask's defining term.
-/
import proofs.«109150_j81982335746216_1_alg».proof.Proof.RefRunOps
import proofs.«109150_j81982335746216_1_alg».proof.Proof.RefRunCasts
import proofs.«109150_j81982335746216_1_alg».proof.Proof.RefStages

noncomputable section

namespace Cert.ReferenceIdeal.RRun

open Cert.ReferenceIdeal Cert.ReferenceIdeal.Gen Idealize.ShloMosaic Idealize.ShloMosaic.TcCoe Idealize.SL.Sem Idealize.ShloMosaic.StableHlo

variable {F : FTy → Type} [FloatOps F]

/-- Every operation of the list writes one buffer, and it is in the list of written buffers. -/
theorem opsA_writes : (opsA : List (HloOp τ sig (Elt F))).Forall fun op =>
    op.writes ⊆ (opsA_W.map (Proc.devRef (τ := τ) .tc)).toFinset := by
  simp only [List.Forall]
  repeat' apply And.intro
  all_goals
    simp only [nullary_writes, unary_writes, binary_writes, ternary_writes, reshape_writes, nary_writes,
      Finset.singleton_subset_iff, List.mem_toFinset]
    exact List.mem_map_of_mem (by decide)

/-- A buffer the list does not write keeps its contents through it. -/
theorem keepA (V : Valuation τ sig (Elt F)) (r : Ref sig .tc) (h : r ∉ opsA_W) :
    after opsA V (Proc.devRef .tc r) = V (Proc.devRef .tc r) :=
  after_of_writes_sub opsA V opsA_writes h

/-- No operation of the list leaves a result undetermined. -/
theorem opsA_fresh : ∀ op ∈ (opsA : List (HloOp τ sig (Elt F))), op.fresh = ∅ := by
  intro _ h
  repeat (cases h with | head => rfl | tail _ h => ?_)
  exact nomatch h

attribute [local irreducible] Host.reduceWindow Host.scatter Host.gather concatenate Host.divsi Host.remsi in
set_option maxHeartbeats 1000000 in
/-- The mask: what the fourteenth operation's buffer holds after the first stage, whatever the buffers held before. -/
theorem outA (V : Valuation τ sig (Elt F)) :
    after opsA V (Proc.devRef .tc main_v3) = Stages.mask (F := F) := by
  simp only [opsA]
  after_results_simp
  unfold Stages.mask
  try simp only [ofBuf_toBuf]
  try simp only [toBuf_main_v1, ofBuf_main_v0]
  first | done | rfl

end Cert.ReferenceIdeal.RRun

end
-- ==== Proof.RefRunB.lean ====
/-
  The second stage of the reference's run: operations fifteen to thirty-nine take the mask to the flat positions of
  the numbered pairs. The mask is flattened and widened, its running count taken, the counts clamped and wrapped into
  histogram bins, the histogram scattered, and the histogram's running count taken; the operations compose to exactly
  that chain of stage functions applied to whatever the mask's buffer held.
  The list is read in two parts, cut after the histogram: the first twenty-two operations take the mask's buffer to the
  histogram, the last three take the histogram's buffer to its running count.
-/
import proofs.«109150_j81982335746216_1_alg».proof.Proof.RefRunOps
import proofs.«109150_j81982335746216_1_alg».proof.Proof.RefRunCasts
import proofs.«109150_j81982335746216_1_alg».proof.Proof.RefStages

noncomputable section

namespace Cert.ReferenceIdeal.RRun

open Cert.ReferenceIdeal Cert.ReferenceIdeal.Gen Idealize.ShloMosaic Idealize.ShloMosaic.TcCoe Idealize.SL.Sem Idealize.ShloMosaic.StableHlo

variable {F : FTy → Type} [FloatOps F]

/-- Every operation of the list writes one buffer, and it is in the list of written buffers. -/
theorem opsB_writes : (opsB : List (HloOp τ sig (Elt F))).Forall fun op =>
    op.writes ⊆ (opsB_W.map (Proc.devRef (τ := τ) .tc)).toFinset := by
  simp only [List.Forall]
  repeat' apply And.intro
  all_goals
    simp only [nullary_writes, unary_writes, binary_writes, ternary_writes, reshape_writes, nary_writes,
      Finset.singleton_subset_iff, List.mem_toFinset]
    exact List.mem_map_of_mem (by decide)

/-- A buffer the list does not write keeps its contents through it. -/
theorem keepB (V : Valuation τ sig (Elt F)) (r : Ref sig .tc) (h : r ∉ opsB_W) :
    after opsB V (Proc.devRef .tc r) = V (Proc.devRef .tc r) :=
  after_of_writes_sub opsB V opsB_writes h

/-- No operation of the list leaves a result undetermined. -/
theorem opsB_fresh : ∀ op ∈ (opsB : List (HloOp τ sig (Elt F))), op.fresh = ∅ := by
  intro _ h
  repeat (cases h with | head => rfl | tail _ h => ?_)
  exact nomatch h

/-- The list cut after its twenty-second operation, the scatter that writes the histogram. -/
theorem opsB_split : (opsB : List (HloOp τ sig (Elt F))) = opsB.take 22 ++ opsB.drop 22 :=
  (List.take_append_drop 22 _).symm

attribute [local irreducible] Host.reduceWindow Host.scatter Host.gather concatenate Host.divsi Host.remsi in
set_option maxHeartbeats 1000000 in
/-- The histogram: what the scatter's buffer holds after the first twenty-two operations, as the stage functions of the
    mask buffer's contents before them. -/
theorem outB_hist (V : Valuation τ sig (Elt F)) :
    after (opsB.take 22) V (Proc.devRef .tc main_v14) = Stages.hist (Stages.bins (Stages.count1 (V (Proc.devRef .tc main_v3)))) := by
  simp only [opsB, List.take_succ_cons, List.take_zero]
  after_results_simp
  unfold Stages.hist Stages.bins Stages.count1 Stages.cumsumBig
  try simp only [ofBuf_toBuf]
  try simp only [toBuf_main_v6, ofBuf_main_call1_v0, ofBuf_main_c_1]
  first | done | rfl

attribute [local irreducible] Host.reduceWindow Host.scatter Host.gather concatenate Host.divsi Host.remsi in
/-- The histogram's running count: what the last three operations leave, as the stage function of whatever the
    histogram's buffer held. -/
theorem outB_flat (W : Valuation τ sig (Elt F)) :
    after (opsB.drop 22) W (Proc.devRef .tc main_v15) = Stages.flat (W (Proc.devRef .tc main_v14)) := by
  simp only [opsB, List.drop_succ_cons, List.drop_zero]
  after_results_simp
  unfold Stages.flat
  try simp only [ofBuf_toBuf]
  try simp only [toBuf_main_v15, ofBuf_main_v14]
  first | done | rfl

/-- The flat positions: what the second running count's buffer holds after the stage, as the stage functions of the mask buffer's contents before it. -/
theorem outB (V : Valuation τ sig (Elt F)) :
    after opsB V (Proc.devRef .tc main_v15) = Stages.flat (Stages.hist (Stages.bins (Stages.count1 (V (Proc.devRef .tc main_v3))))) := by
  rw [opsB_split, after_append, outB_flat, outB_hist]

end Cert.ReferenceIdeal.RRun

end
-- ==== Proof.RefRunC1.lean ====
/-
  The third stage of the reference's run: operations forty to fifty-six floor-divide the flat positions by 1024. The
  constant, its broadcasts, the truncating quotient, the two sign tests, the remainder test and the final selection
  compose to the floor-division stage function applied to the flat positions' buffer and the constant.
-/
import proofs.«109150_j81982335746216_1_alg».proof.Proof.RefRunOps
import proofs.«109150_j81982335746216_1_alg».proof.Proof.RefRunCasts
import proofs.«109150_j81982335746216_1_alg».proof.Proof.RefStages

noncomputable section

namespace Cert.ReferenceIdeal.RRun

open Cert.ReferenceIdeal Cert.ReferenceIdeal.Gen Idealize.ShloMosaic Idealize.ShloMosaic.TcCoe Idealize.SL.Sem Idealize.ShloMosaic.StableHlo

variable {F : FTy → Type} [FloatOps F]

/-- Every operation of the list writes one buffer, and it is in the list of written buffers. -/
theorem opsC1_writes : (opsC1 : List (HloOp τ sig (Elt F))).Forall fun op =>
    op.writes ⊆ (opsC1_W.map (Proc.devRef (τ := τ) .tc)).toFinset := by
  simp only [List.Forall]
  repeat' apply And.intro
  all_goals
    simp only [nullary_writes, unary_writes, binary_writes, ternary_writes, reshape_writes, nary_writes,
      Finset.singleton_subset_iff, List.mem_toFinset]
    exact List.mem_map_of_mem (by decide)

/-- A buffer the list does not write keeps its contents through it. -/
theorem keepC1 (V : Valuation τ sig (Elt F)) (r : Ref sig .tc) (h : r ∉ opsC1_W) :
    after opsC1 V (Proc.devRef .tc r) = V (Proc.devRef .tc r) :=
  after_of_writes_sub opsC1 V opsC1_writes h

/-- No operation of the list leaves a result undetermined. -/
theorem opsC1_fresh : ∀ op ∈ (opsC1 : List (HloOp τ sig (Elt F))), op.fresh = ∅ := by
  intro _ h
  repeat (cases h with | head => rfl | tail _ h => ?_)
  exact nomatch h

attribute [local irreducible] Host.reduceWindow Host.scatter Host.gather concatenate Host.divsi Host.remsi in
set_option maxHeartbeats 1000000 in
/-- The floor quotient by 1024 of whatever the flat positions' buffer held. -/
theorem outC1 (V : Valuation τ sig (Elt F)) :
    after opsC1 V (Proc.devRef .tc main_v16) = Stages.floorDiv (V (Proc.devRef .tc main_v15)) (constantI S_ 32 1024#32) := by
  simp only [opsC1]
  after_results_simp
  unfold Stages.floorDiv
  try simp only [ofBuf_toBuf]
  try simp only [toBuf_main_v16, ofBuf_main_c_5, ofBuf_main_v15]
  first | done | rfl

end Cert.ReferenceIdeal.RRun

end
-- ==== Proof.RefRunC2.lean ====
/-
  The fourth stage of the reference's run: operations fifty-seven to seventy-eight reduce the floor quotient modulo
  1024 with the divisor's sign. The guarded divisor, the truncating remainder, its sign tests and the corrective
  addition compose to the remainder stage function applied to the quotient's buffer and the constant.
-/
import proofs.«109150_j81982335746216_1_alg».proof.Proof.RefRunOps
import proofs.«109150_j81982335746216_1_alg».proof.Proof.RefRunCasts
import proofs.«109150_j81982335746216_1_alg».proof.Proof.RefStages

noncomputable section

namespace Cert.ReferenceIdeal.RRun

open Cert.ReferenceIdeal Cert.ReferenceIdeal.Gen Idealize.ShloMosaic Idealize.ShloMosaic.TcCoe Idealize.SL.Sem Idealize.ShloMosaic.StableHlo

variable {F : FTy → Type} [FloatOps F]

/-- Every operation of the list writes one buffer, and it is in the list of written buffers. -/
theorem opsC2_writes : (opsC2 : List (HloOp τ sig (Elt F))).Forall fun op =>
    op.writes ⊆ (opsC2_W.map (Proc.devRef (τ := τ) .tc)).toFinset := by
  simp only [List.Forall]
  repeat' apply And.intro
  all_goals
    simp only [nullary_writes, unary_writes, binary_writes, ternary_writes, reshape_writes, nary_writes,
      Finset.singleton_subset_iff, List.mem_toFinset]
    exact List.mem_map_of_mem (by decide)

/-- A buffer the list does not write keeps its contents through it. -/
theorem keepC2 (V : Valuation τ sig (Elt F)) (r : Ref sig .tc) (h : r ∉ opsC2_W) :
    after opsC2 V (Proc.devRef .tc r) = V (Proc.devRef .tc r) :=
  after_of_writes_sub opsC2 V opsC2_writes h

/-- No operation of the list leaves a result undetermined. -/
theorem opsC2_fresh : ∀ op ∈ (opsC2 : List (HloOp τ sig (Elt F))), op.fresh = ∅ := by
  intro _ h
  repeat (cases h with | head => rfl | tail _ h => ?_)
  exact nomatch h

attribute [local irreducible] Host.reduceWindow Host.scatter Host.gather concatenate Host.divsi Host.remsi in
set_option maxHeartbeats 1000000 in
/-- The remainder modulo 1024, with the divisor's sign, of whatever the quotient's buffer held. -/
theorem outC2 (V : Valuation τ sig (Elt F)) :
    after opsC2 V (Proc.devRef .tc main_v17) = Stages.pyRem (V (Proc.devRef .tc main_v16)) (constantI S_ 32 1024#32) := by
  simp only [opsC2]
  after_results_simp
  unfold Stages.pyRem
  try simp only [ofBuf_toBuf]
  try simp only [toBuf_main_v17, ofBuf_main_c_6, ofBuf_main_v16]
  first | done | rfl

end Cert.ReferenceIdeal.RRun

end
-- ==== Proof.RefRunD1.lean ====
/-
  The fifth stage of the reference's run: operations seventy-nine to ninety-five floor-divide the flat positions by 1,
  the same outlined computation as the division by 1024 over buffers of its own.
-/
import proofs.«109150_j81982335746216_1_alg».proof.Proof.RefRunOps
import proofs.«109150_j81982335746216_1_alg».proof.Proof.RefRunCasts
import proofs.«109150_j81982335746216_1_alg».proof.Proof.RefStages

noncomputable section

namespace Cert.ReferenceIdeal.RRun

open Cert.ReferenceIdeal Cert.ReferenceIdeal.Gen Idealize.ShloMosaic Idealize.ShloMosaic.TcCoe Idealize.SL.Sem Idealize.ShloMosaic.StableHlo

variable {F : FTy → Type} [FloatOps F]

/-- Every operation of the list writes one buffer, and it is in the list of written buffers. -/
theorem opsD1_writes : (opsD1 : List (HloOp τ sig (Elt F))).Forall fun op =>
    op.writes ⊆ (opsD1_W.map (Proc.devRef (τ := τ) .tc)).toFinset := by
  simp only [List.Forall]
  repeat' apply And.intro
  all_goals
    simp only [nullary_writes, unary_writes, binary_writes, ternary_writes, reshape_writes, nary_writes,
      Finset.singleton_subset_iff, List.mem_toFinset]
    exact List.mem_map_of_mem (by decide)

/-- A buffer the list does not write keeps its contents through it. -/
theorem keepD1 (V : Valuation τ sig (Elt F)) (r : Ref sig .tc) (h : r ∉ opsD1_W) :
    after opsD1 V (Proc.devRef .tc r) = V (Proc.devRef .tc r) :=
  after_of_writes_sub opsD1 V opsD1_writes h

/-- No operation of the list leaves a result undetermined. -/
theorem opsD1_fresh : ∀ op ∈ (opsD1 : List (HloOp τ sig (Elt F))), op.fresh = ∅ := by
  intro _ h
  repeat (cases h with | head => rfl | tail _ h => ?_)
  exact nomatch h

attribute [local irreducible] Host.reduceWindow Host.scatter Host.gather concatenate Host.divsi Host.remsi in
set_option maxHeartbeats 1000000 in
/-- The floor quotient by 1 of whatever the flat positions' buffer held. -/
theorem outD1 (V : Valuation τ sig (Elt F)) :
    after opsD1 V (Proc.devRef .tc main_v18) = Stages.floorDiv (V (Proc.devRef .tc main_v15)) (constantI S_ 32 1#32) := by
  simp only [opsD1]
  after_results_simp
  unfold Stages.floorDiv
  try simp only [ofBuf_toBuf]
  try simp only [toBuf_main_v18, ofBuf_main_c_7, ofBuf_main_v15]
  first | done | rfl

end Cert.ReferenceIdeal.RRun

end
-- ==== Proof.RefRunD2.lean ====
/-
  The sixth stage of the reference's run: operations ninety-six to one hundred and seventeen reduce the second floor
  quotient modulo 1024, the same outlined computation as the first remainder over buffers of its own.
-/
import proofs.«109150_j81982335746216_1_alg».proof.Proof.RefRunOps
import proofs.«109150_j81982335746216_1_alg».proof.Proof.RefRunCasts
import proofs.«109150_j81982335746216_1_alg».proof.Proof.RefStages

noncomputable section

namespace Cert.ReferenceIdeal.RRun

open Cert.ReferenceIdeal Cert.ReferenceIdeal.Gen Idealize.ShloMosaic Idealize.ShloMosaic.TcCoe Idealize.SL.Sem Idealize.ShloMosaic.StableHlo

variable {F : FTy → Type} [FloatOps F]

/-- Every operation of the list writes one buffer, and it is in the list of written buffers. -/
theorem opsD2_writes : (opsD2 : List (HloOp τ sig (Elt F))).Forall fun op =>
    op.writes ⊆ (opsD2_W.map (Proc.devRef (τ := τ) .tc)).toFinset := by
  simp only [List.Forall]
  repeat' apply And.intro
  all_goals
    simp only [nullary_writes, unary_writes, binary_writes, ternary_writes, reshape_writes, nary_writes,
      Finset.singleton_subset_iff, List.mem_toFinset]
    exact List.mem_map_of_mem (by decide)

/-- A buffer the list does not write keeps its contents through it. -/
theorem keepD2 (V : Valuation τ sig (Elt F)) (r : Ref sig .tc) (h : r ∉ opsD2_W) :
    after opsD2 V (Proc.devRef .tc r) = V (Proc.devRef .tc r) :=
  after_of_writes_sub opsD2 V opsD2_writes h

/-- No operation of the list leaves a result undetermined. -/
theorem opsD2_fresh : ∀ op ∈ (opsD2 : List (HloOp τ sig (Elt F))), op.fresh = ∅ := by
  intro _ h
  repeat (cases h with | head => rfl | tail _ h => ?_)
  exact nomatch h

attribute [local irreducible] Host.reduceWindow Host.scatter Host.gather concatenate Host.divsi Host.remsi in
set_option maxHeartbeats 1000000 in
/-- The remainder modulo 1024, with the divisor's sign, of whatever the second quotient's buffer held. -/
theorem outD2 (V : Valuation τ sig (Elt F)) :
    after opsD2 V (Proc.devRef .tc main_v19) = Stages.pyRem (V (Proc.devRef .tc main_v18)) (constantI S_ 32 1024#32) := by
  simp only [opsD2]
  after_results_simp
  unfold Stages.pyRem
  try simp only [ofBuf_toBuf]
  try simp only [toBuf_main_v19, ofBuf_main_c_8, ofBuf_main_v18]
  first | done | rfl

end Cert.ReferenceIdeal.RRun

end
-- ==== Proof.RefRunE.lean ====
/-
  The seventh stage of the reference's run: operations one hundred and eighteen to one hundred and thirty-five gather
  the rows of the two tables at the pairs' row and column numbers, each number first wrapped by 1024 where negative and
  made a column of start indices.
-/
import proofs.«109150_j81982335746216_1_alg».proof.Proof.RefRunOps
import proofs.«109150_j81982335746216_1_alg».proof.Proof.RefRunCasts
import proofs.«109150_j81982335746216_1_alg».proof.Proof.RefStages

noncomputable section

namespace Cert.ReferenceIdeal.RRun

open Cert.ReferenceIdeal Cert.ReferenceIdeal.Gen Idealize.ShloMosaic Idealize.ShloMosaic.TcCoe Idealize.SL.Sem Idealize.ShloMosaic.StableHlo

variable {F : FTy → Type} [FloatOps F]

/-- Every operation of the list writes one buffer, and it is in the list of written buffers. -/
theorem opsE_writes : (opsE : List (HloOp τ sig (Elt F))).Forall fun op =>
    op.writes ⊆ (opsE_W.map (Proc.devRef (τ := τ) .tc)).toFinset := by
  simp only [List.Forall]
  repeat' apply And.intro
  all_goals
    simp only [nullary_writes, unary_writes, binary_writes, ternary_writes, reshape_writes, nary_writes,
      Finset.singleton_subset_iff, List.mem_toFinset]
    exact List.mem_map_of_mem (by decide)

/-- A buffer the list does not write keeps its contents through it. -/
theorem keepE (V : Valuation τ sig (Elt F)) (r : Ref sig .tc) (h : r ∉ opsE_W) :
    after opsE V (Proc.devRef .tc r) = V (Proc.devRef .tc r) :=
  after_of_writes_sub opsE V opsE_writes h

/-- No operation of the list leaves a result undetermined. -/
theorem opsE_fresh : ∀ op ∈ (opsE : List (HloOp τ sig (Elt F))), op.fresh = ∅ := by
  intro _ h
  repeat (cases h with | head => rfl | tail _ h => ?_)
  exact nomatch h

attribute [local irreducible] Host.reduceWindow Host.scatter Host.gather concatenate Host.divsi Host.remsi in
set_option maxHeartbeats 1000000 in
/-- The first table's rows at the wrapped row numbers. -/
theorem outE26 (V : Valuation τ sig (Elt F)) :
    after opsE V (Proc.devRef .tc main_v26) = Stages.rowsOf (V (Proc.devRef .tc main_arg0)) (V (Proc.devRef .tc main_v17)) := by
  simp only [opsE]
  after_results_simp
  unfold Stages.rowsOf Stages.wrapCol
  try simp only [ofBuf_toBuf]
  first | done | rfl

attribute [local irreducible] Host.reduceWindow Host.scatter Host.gather concatenate Host.divsi Host.remsi in
set_option maxHeartbeats 1000000 in
/-- The second table's rows at the wrapped column numbers. -/
theorem outE33 (V : Valuation τ sig (Elt F)) :
    after opsE V (Proc.devRef .tc main_v33) = Stages.rowsOf (V (Proc.devRef .tc main_arg1)) (V (Proc.devRef .tc main_v19)) := by
  simp only [opsE]
  after_results_simp
  unfold Stages.rowsOf Stages.wrapCol
  try simp only [ofBuf_toBuf]
  first | done | rfl

end Cert.ReferenceIdeal.RRun

end
-- ==== Proof.RefRunF.lean ====
/-
  The eighth stage of the reference's run: operations one hundred and thirty-six to one hundred and forty-nine compute
  the pairs' scores from the gathered rows: the difference, the three-way concatenation, the first dense layer with its
  bias and ramp, the second layer with its bias, and the flattening to one score per pair.
-/
import proofs.«109150_j81982335746216_1_alg».proof.Proof.RefRunOps
import proofs.«109150_j81982335746216_1_alg».proof.Proof.RefRunCasts
import proofs.«109150_j81982335746216_1_alg».proof.Proof.RefStages

noncomputable section

namespace Cert.ReferenceIdeal.RRun

open Cert.ReferenceIdeal Cert.ReferenceIdeal.Gen Idealize.ShloMosaic Idealize.ShloMosaic.TcCoe Idealize.SL.Sem Idealize.ShloMosaic.StableHlo

variable {F : FTy → Type} [FloatOps F]

/-- Every operation of the list writes one buffer, and it is in the list of written buffers. -/
theorem opsF_writes : (opsF : List (HloOp τ sig (Elt F))).Forall fun op =>
    op.writes ⊆ (opsF_W.map (Proc.devRef (τ := τ) .tc)).toFinset := by
  simp only [List.Forall]
  repeat' apply And.intro
  all_goals
    simp only [nullary_writes, unary_writes, binary_writes, ternary_writes, reshape_writes, nary_writes,
      Finset.singleton_subset_iff, List.mem_toFinset]
    exact List.mem_map_of_mem (by decide)

/-- A buffer the list does not write keeps its contents through it. -/
theorem keepF (V : Valuation τ sig (Elt F)) (r : Ref sig .tc) (h : r ∉ opsF_W) :
    after opsF V (Proc.devRef .tc r) = V (Proc.devRef .tc r) :=
  after_of_writes_sub opsF V opsF_writes h

/-- No operation of the list leaves a result undetermined. -/
theorem opsF_fresh : ∀ op ∈ (opsF : List (HloOp τ sig (Elt F))), op.fresh = ∅ := by
  intro _ h
  repeat (cases h with | head => rfl | tail _ h => ?_)
  exact nomatch h

attribute [local irreducible] Host.reduceWindow Host.scatter Host.gather concatenate Host.divsi Host.remsi in
set_option maxHeartbeats 1000000 in
/-- The scores, as the stage function of the gathered rows and the four parameter arrays. -/
theorem outF (V : Valuation τ sig (Elt F)) :
    after opsF V (Proc.devRef .tc main_v45) = Stages.scores (V (Proc.devRef .tc main_v26)) (V (Proc.devRef .tc main_v33)) (V (Proc.devRef .tc main_arg2)) (V (Proc.devRef .tc main_arg3)) (V (Proc.devRef .tc main_arg4)) (V (Proc.devRef .tc main_arg5)) := by
  simp only [opsF]
  after_results_simp
  try dsimp only [Matrix.cons_val]
  try after_results_simp
  unfold Stages.scores
  try simp only [ofBuf_toBuf]
  try simp only [toBuf_main_v40, ofBuf_main_v39]
  first | done | rfl

end Cert.ReferenceIdeal.RRun

end
-- ==== Proof.RefRunG.lean ====
/-
  The last stage of the reference's run: operations one hundred and fifty to one hundred and sixty-nine wrap the row
  and column numbers once more, pair them as start indices, and write each score at its pair into an array of zeros.
-/
import proofs.«109150_j81982335746216_1_alg».proof.Proof.RefRunOps
import proofs.«109150_j81982335746216_1_alg».proof.Proof.RefRunCasts
import proofs.«109150_j81982335746216_1_alg».proof.Proof.RefStages

noncomputable section

namespace Cert.ReferenceIdeal.RRun

open Cert.ReferenceIdeal Cert.ReferenceIdeal.Gen Idealize.ShloMosaic Idealize.ShloMosaic.TcCoe Idealize.SL.Sem Idealize.ShloMosaic.StableHlo

variable {F : FTy → Type} [FloatOps F]

/-- Every operation of the list writes one buffer, and it is in the list of written buffers. -/
theorem opsG_writes : (opsG : List (HloOp τ sig (Elt F))).Forall fun op =>
    op.writes ⊆ (opsG_W.map (Proc.devRef (τ := τ) .tc)).toFinset := by
  simp only [List.Forall]
  repeat' apply And.intro
  all_goals
    simp only [nullary_writes, unary_writes, binary_writes, ternary_writes, reshape_writes, nary_writes,
      Finset.singleton_subset_iff, List.mem_toFinset]
    exact List.mem_map_of_mem (by decide)

/-- A buffer the list does not write keeps its contents through it. -/
theorem keepG (V : Valuation τ sig (Elt F)) (r : Ref sig .tc) (h : r ∉ opsG_W) :
    after opsG V (Proc.devRef .tc r) = V (Proc.devRef .tc r) :=
  after_of_writes_sub opsG V opsG_writes h

/-- No operation of the list leaves a result undetermined. -/
theorem opsG_fresh : ∀ op ∈ (opsG : List (HloOp τ sig (Elt F))), op.fresh = ∅ := by
  intro _ h
  repeat (cases h with | head => rfl | tail _ h => ?_)
  exact nomatch h

attribute [local irreducible] Host.reduceWindow Host.scatter Host.gather concatenate Host.divsi Host.remsi in
set_option maxHeartbeats 1000000 in
/-- The result: the scores written at the (row, column) pairs into zeros. -/
theorem outG (V : Valuation τ sig (Elt F)) :
    after opsG V (Proc.devRef .tc main_v60) = Stages.result (Stages.pairIdx (V (Proc.devRef .tc main_v17)) (V (Proc.devRef .tc main_v19))) (V (Proc.devRef .tc main_v45)) := by
  simp only [opsG]
  after_results_simp
  unfold Stages.result Stages.pairIdx Stages.wrapCol
  try simp only [ofBuf_toBuf]
  first | done | rfl

end Cert.ReferenceIdeal.RRun

end
-- ==== Proof.RefRunMain.lean ====
/-
  The reference's @main is the straight line of its 169 operations: each outlined function's body stands, at its call, for
  its own operations over that call's buffers, and the two windows the program is printed in follow one another.
-/
import proofs.«109150_j81982335746216_1_alg».proof.Proof.RefRunOps

noncomputable section

namespace Cert.ReferenceIdeal.RRun

open Cert.ReferenceIdeal Cert.ReferenceIdeal.Gen Idealize.ShloMosaic Idealize.ShloMosaic.TcCoe Idealize.SL.Sem Idealize.ShloMosaic.StableHlo

variable {F : FTy → Type} [FloatOps F]

/-- All the operations, in program order. -/
abbrev opsAll : List (HloOp τ sig (Elt F)) := opsA ++ opsB ++ opsC1 ++ opsC2 ++ opsD1 ++ opsD2 ++ opsE ++ opsF ++ opsG

set_option maxRecDepth 65536 in
set_option maxHeartbeats 4000000 in
/-- @main is that straight line. -/
theorem main_eq (c : Dev nD) : main (F := F) c = seq opsAll := by
  simp only [main, main_part0, main_part1, fn_tril.body, fn_cumsum.body, fn_cumsum_0.body, fn_clip.body, fn_cumsum_1.body,
    fn_cumsum_2.body, fn_floor_divide.body, fn_where.body, fn_remainder.body, fn_where_3.body, fn_relu.body, seq, bind_assoc, pure_bind,
    opsAll, opsA, opsB, opsC1, opsC2, opsD1, opsD2, opsE, opsF, opsG, List.cons_append, List.nil_append, List.foldr_cons, List.foldr_nil]

end Cert.ReferenceIdeal.RRun

end
-- ==== Proof.RefRun.lean ====
/-
  The reference's run, assembled. The program's operations are nine consecutive lists; what the buffers hold after the
  whole program is what they hold after the ninth list run from the contents after the first eight, and so on back to
  the launch contents. Each list takes the buffers it reads to the stage function of their contents and leaves every
  buffer it does not write alone, so the result buffer ends at the composition of the stage functions, which is the
  reference's closed term of the six argument arrays, and the argument buffers end as they began. The run theorem of
  straight-line host programs then gives the statement for every weakly fair execution.
-/
import proofs.«109150_j81982335746216_1_alg».proof.Proof.RefRunA
import proofs.«109150_j81982335746216_1_alg».proof.Proof.RefRunB
import proofs.«109150_j81982335746216_1_alg».proof.Proof.RefRunC1
import proofs.«109150_j81982335746216_1_alg».proof.Proof.RefRunC2
import proofs.«109150_j81982335746216_1_alg».proof.Proof.RefRunD1
import proofs.«109150_j81982335746216_1_alg».proof.Proof.RefRunD2
import proofs.«109150_j81982335746216_1_alg».proof.Proof.RefRunE
import proofs.«109150_j81982335746216_1_alg».proof.Proof.RefRunF
import proofs.«109150_j81982335746216_1_alg».proof.Proof.RefRunG
import proofs.«109150_j81982335746216_1_alg».proof.Proof.RefRunMain

noncomputable section

namespace Cert.ReferenceIdeal.RRun

open Cert.ReferenceIdeal Cert.ReferenceIdeal.Gen Idealize.ShloMosaic Idealize.ShloMosaic.TcCoe Idealize.SL.Sem Idealize.ShloMosaic.StableHlo

variable {F : FTy → Type} [FloatOps F]

/-! ## The contents after each stage -/

def val1 (V : Valuation τ sig (Elt F)) : Valuation τ sig (Elt F) := after opsA V
def val2 (V : Valuation τ sig (Elt F)) : Valuation τ sig (Elt F) := after opsB (val1 V)
def val3 (V : Valuation τ sig (Elt F)) : Valuation τ sig (Elt F) := after opsC1 (val2 V)
def val4 (V : Valuation τ sig (Elt F)) : Valuation τ sig (Elt F) := after opsC2 (val3 V)
def val5 (V : Valuation τ sig (Elt F)) : Valuation τ sig (Elt F) := after opsD1 (val4 V)
def val6 (V : Valuation τ sig (Elt F)) : Valuation τ sig (Elt F) := after opsD2 (val5 V)
def val7 (V : Valuation τ sig (Elt F)) : Valuation τ sig (Elt F) := after opsE (val6 V)
def val8 (V : Valuation τ sig (Elt F)) : Valuation τ sig (Elt F) := after opsF (val7 V)
def val9 (V : Valuation τ sig (Elt F)) : Valuation τ sig (Elt F) := after opsG (val8 V)

/-- The whole program's contents are the ninth stage's. -/
theorem after_opsAll (V : Valuation τ sig (Elt F)) : after opsAll V = val9 V := by
  simp only [opsAll, after_append]
  rfl

/-- The six argument buffers. -/
abbrev argRefs : List (Ref sig .tc) := [main_arg0, main_arg1, main_arg2, main_arg3, main_arg4, main_arg5]

/-- The flat positions of the numbered pairs: the running count of the histogram of the mask's running count. -/
def flatPos : IVec S523776 32 :=
  Stages.flat (Stages.hist (Stages.bins (Stages.count1 (Stages.mask (F := F)))))

theorem rowsI_eq : Stages.rowsI (F := F) = Stages.pyRem (Stages.floorDiv (flatPos (F := F)) (constantI S_ 32 1024#32)) (constantI S_ 32 1024#32) := rfl
theorem colsJ_eq : Stages.colsJ (F := F) = Stages.pyRem (Stages.floorDiv (flatPos (F := F)) (constantI S_ 32 1#32)) (constantI S_ 32 1024#32) := rfl

/-! ### No stage writes an argument buffer -/
theorem args_notA : ∀ r ∈ argRefs, r ∉ opsA_W := by decide
theorem args_notB : ∀ r ∈ argRefs, r ∉ opsB_W := by decide
theorem args_notC1 : ∀ r ∈ argRefs, r ∉ opsC1_W := by decide
theorem args_notC2 : ∀ r ∈ argRefs, r ∉ opsC2_W := by decide
theorem args_notD1 : ∀ r ∈ argRefs, r ∉ opsD1_W := by decide
theorem args_notD2 : ∀ r ∈ argRefs, r ∉ opsD2_W := by decide
theorem args_notE : ∀ r ∈ argRefs, r ∉ opsE_W := by decide
theorem args_notF : ∀ r ∈ argRefs, r ∉ opsF_W := by decide
theorem args_notG : ∀ r ∈ argRefs, r ∉ opsG_W := by decide

theorem val1_arg (V : Valuation τ sig (Elt F)) (r : Ref sig .tc) (h : r ∈ argRefs) :
    val1 V (Proc.devRef .tc r) = V (Proc.devRef .tc r) :=
  (keepA _ r (args_notA r h)).trans rfl
theorem val2_arg (V : Valuation τ sig (Elt F)) (r : Ref sig .tc) (h : r ∈ argRefs) :
    val2 V (Proc.devRef .tc r) = V (Proc.devRef .tc r) :=
  (keepB _ r (args_notB r h)).trans (val1_arg V r h)
theorem val3_arg (V : Valuation τ sig (Elt F)) (r : Ref sig .tc) (h : r ∈ argRefs) :
    val3 V (Proc.devRef .tc r) = V (Proc.devRef .tc r) :=
  (keepC1 _ r (args_notC1 r h)).trans (val2_arg V r h)
theorem val4_arg (V : Valuation τ sig (Elt F)) (r : Ref sig .tc) (h : r ∈ argRefs) :
    val4 V (Proc.devRef .tc r) = V (Proc.devRef .tc r) :=
  (keepC2 _ r (args_notC2 r h)).trans (val3_arg V r h)
theorem val5_arg (V : Valuation τ sig (Elt F)) (r : Ref sig .tc) (h : r ∈ argRefs) :
    val5 V (Proc.devRef .tc r) = V (Proc.devRef .tc r) :=
  (keepD1 _ r (args_notD1 r h)).trans (val4_arg V r h)
theorem val6_arg (V : Valuation τ sig (Elt F)) (r : Ref sig .tc) (h : r ∈ argRefs) :
    val6 V (Proc.devRef .tc r) = V (Proc.devRef .tc r) :=
  (keepD2 _ r (args_notD2 r h)).trans (val5_arg V r h)
theorem val7_arg (V : Valuation τ sig (Elt F)) (r : Ref sig .tc) (h : r ∈ argRefs) :
    val7 V (Proc.devRef .tc r) = V (Proc.devRef .tc r) :=
  (keepE _ r (args_notE r h)).trans (val6_arg V r h)
theorem val8_arg (V : Valuation τ sig (Elt F)) (r : Ref sig .tc) (h : r ∈ argRefs) :
    val8 V (Proc.devRef .tc r) = V (Proc.devRef .tc r) :=
  (keepF _ r (args_notF r h)).trans (val7_arg V r h)
theorem val9_arg (V : Valuation τ sig (Elt F)) (r : Ref sig .tc) (h : r ∈ argRefs) :
    val9 V (Proc.devRef .tc r) = V (Proc.devRef .tc r) :=
  (keepG _ r (args_notG r h)).trans (val8_arg V r h)

/-! ### The buffers that carry a stage's result to a later stage -/

theorem val1_v3 (V : Valuation τ sig (Elt F)) : val1 V (Proc.devRef .tc main_v3) = Stages.mask (F := F) := outA V

theorem val2_v15 (V : Valuation τ sig (Elt F)) : val2 V (Proc.devRef .tc main_v15) = flatPos (F := F) := by
  unfold val2 flatPos; rw [outB, val1_v3]

theorem val3_v15 (V : Valuation τ sig (Elt F)) : val3 V (Proc.devRef .tc main_v15) = flatPos (F := F) :=
  (keepC1 _ main_v15 (by decide)).trans (val2_v15 V)
theorem val3_v16 (V : Valuation τ sig (Elt F)) :
    val3 V (Proc.devRef .tc main_v16) = Stages.floorDiv (flatPos (F := F)) (constantI S_ 32 1024#32) := by
  unfold val3; rw [outC1, val2_v15]

theorem val4_v15 (V : Valuation τ sig (Elt F)) : val4 V (Proc.devRef .tc main_v15) = flatPos (F := F) :=
  (keepC2 _ main_v15 (by decide)).trans (val3_v15 V)
theorem val4_v17 (V : Valuation τ sig (Elt F)) : val4 V (Proc.devRef .tc main_v17) = Stages.rowsI (F := F) := by
  unfold val4; rw [outC2, val3_v16, rowsI_eq]

theorem val5_v17 (V : Valuation τ sig (Elt F)) : val5 V (Proc.devRef .tc main_v17) = Stages.rowsI (F := F) :=
  (keepD1 _ main_v17 (by decide)).trans (val4_v17 V)
theorem val5_v18 (V : Valuation τ sig (Elt F)) :
    val5 V (Proc.devRef .tc main_v18) = Stages.floorDiv (flatPos (F := F)) (constantI S_ 32 1#32) := by
  unfold val5; rw [outD1, val4_v15]

theorem val6_v17 (V : Valuation τ sig (Elt F)) : val6 V (Proc.devRef .tc main_v17) = Stages.rowsI (F := F) :=
  (keepD2 _ main_v17 (by decide)).trans (val5_v17 V)
theorem val6_v19 (V : Valuation τ sig (Elt F)) : val6 V (Proc.devRef .tc main_v19) = Stages.colsJ (F := F) := by
  unfold val6; rw [outD2, val5_v18, colsJ_eq]

theorem val7_v17 (V : Valuation τ sig (Elt F)) : val7 V (Proc.devRef .tc main_v17) = Stages.rowsI (F := F) :=
  (keepE _ main_v17 (by decide)).trans (val6_v17 V)
theorem val7_v19 (V : Valuation τ sig (Elt F)) : val7 V (Proc.devRef .tc main_v19) = Stages.colsJ (F := F) :=
  (keepE _ main_v19 (by decide)).trans (val6_v19 V)
theorem val7_v26 (V : Valuation τ sig (Elt F)) :
    val7 V (Proc.devRef .tc main_v26) = Stages.rowsOf (V (Proc.devRef .tc main_arg0)) (Stages.rowsI (F := F)) := by
  unfold val7; rw [outE26, val6_arg V main_arg0 (by decide), val6_v17]
theorem val7_v33 (V : Valuation τ sig (Elt F)) :
    val7 V (Proc.devRef .tc main_v33) = Stages.rowsOf (V (Proc.devRef .tc main_arg1)) (Stages.colsJ (F := F)) := by
  unfold val7; rw [outE33, val6_arg V main_arg1 (by decide), val6_v19]

theorem val8_v17 (V : Valuation τ sig (Elt F)) : val8 V (Proc.devRef .tc main_v17) = Stages.rowsI (F := F) :=
  (keepF _ main_v17 (by decide)).trans (val7_v17 V)
theorem val8_v19 (V : Valuation τ sig (Elt F)) : val8 V (Proc.devRef .tc main_v19) = Stages.colsJ (F := F) :=
  (keepF _ main_v19 (by decide)).trans (val7_v19 V)
theorem val8_v45 (V : Valuation τ sig (Elt F)) :
    val8 V (Proc.devRef .tc main_v45)
      = Stages.scores (Stages.rowsOf (V (Proc.devRef .tc main_arg0)) (Stages.rowsI (F := F)))
          (Stages.rowsOf (V (Proc.devRef .tc main_arg1)) (Stages.colsJ (F := F)))
          (V (Proc.devRef .tc main_arg2)) (V (Proc.devRef .tc main_arg3)) (V (Proc.devRef .tc main_arg4))
          (V (Proc.devRef .tc main_arg5)) := by
  unfold val8
  rw [outF, val7_v26, val7_v33, val7_arg V main_arg2 (by decide), val7_arg V main_arg3 (by decide),
    val7_arg V main_arg4 (by decide), val7_arg V main_arg5 (by decide)]

/-- The result buffer after the whole program: the reference's closed term of the argument buffers' contents. -/
theorem val9_v60 (V : Valuation τ sig (Elt F)) :
    val9 V (Proc.devRef .tc main_v60)
      = Stages.refOut (V (Proc.devRef .tc main_arg0)) (V (Proc.devRef .tc main_arg1)) (V (Proc.devRef .tc main_arg2))
          (V (Proc.devRef .tc main_arg3)) (V (Proc.devRef .tc main_arg4)) (V (Proc.devRef .tc main_arg5)) := by
  unfold val9 Stages.refOut
  rw [outG, val8_v17, val8_v19, val8_v45]

/-! ## The run -/

theorem out_eq (V : Valuation τ sig (Elt F)) :
    after opsAll V (Proc.devRef .tc main_v60)
      = Stages.refOut (V (Proc.devRef .tc main_arg0)) (V (Proc.devRef .tc main_arg1)) (V (Proc.devRef .tc main_arg2))
          (V (Proc.devRef .tc main_arg3)) (V (Proc.devRef .tc main_arg4)) (V (Proc.devRef .tc main_arg5)) := by
  rw [after_opsAll]; exact val9_v60 V

theorem arg_eq (V : Valuation τ sig (Elt F)) (r : Ref sig .tc) (h : r ∈ argRefs) :
    after opsAll V (Proc.devRef .tc r) = V (Proc.devRef .tc r) := by
  rw [after_opsAll]; exact val9_arg V r h

theorem scopedRefs_eq : (Finset.univ.filter fun b : Ref sig .tc => b.isScoped) = ∅ := by decide
theorem scopedSems_eq : (Finset.univ.filter fun sm : SemLoc sig => sm.isScoped .tc) = ∅ := by decide

/-- Every operation of the program touches TensorCore references only. -/
theorem opsAll_sub : (opsAll : List (HloOp τ sig (Elt F))).Forall fun op => op.bufs ⊆ tcRefs τ sig :=
  List.forall_iff_forall_mem.2 <|
    forall_mem_append (forall_mem_append (forall_mem_append (forall_mem_append (forall_mem_append (forall_mem_append
      (forall_mem_append (forall_mem_append (List.forall_iff_forall_mem.1 opsA_sub) (List.forall_iff_forall_mem.1 opsB_sub))
        (List.forall_iff_forall_mem.1 opsC1_sub)) (List.forall_iff_forall_mem.1 opsC2_sub)) (List.forall_iff_forall_mem.1 opsD1_sub))
      (List.forall_iff_forall_mem.1 opsD2_sub)) (List.forall_iff_forall_mem.1 opsE_sub)) (List.forall_iff_forall_mem.1 opsF_sub))
      (List.forall_iff_forall_mem.1 opsG_sub)

/-- No operation of the program leaves a result undetermined. -/
theorem opsAll_fresh : ∀ op ∈ (opsAll : List (HloOp τ sig (Elt F))), op.fresh = ∅ :=
  forall_mem_append (forall_mem_append (forall_mem_append (forall_mem_append (forall_mem_append (forall_mem_append
    (forall_mem_append (forall_mem_append opsA_fresh opsB_fresh) opsC1_fresh) opsC2_fresh) opsD1_fresh) opsD2_fresh) opsE_fresh)
    opsF_fresh) opsG_fresh

/-- On every device, for any float values, from any memory with zero counters: every weakly fair execution of the
    reference terminates with the result buffer at the reference's closed term of the six argument arrays' launch
    contents, and the argument buffers unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v60) = Cert.ReferenceIdeal.Stages.refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
      ⟨(h c main_v60).trans (out_eq (launchContents m c)),
        (h c main_arg0).trans (arg_eq (launchContents m c) main_arg0 (by decide)),
        (h c main_arg1).trans (arg_eq (launchContents m c) main_arg1 (by decide)),
        (h c main_arg2).trans (arg_eq (launchContents m c) main_arg2 (by decide)),
        (h c main_arg3).trans (arg_eq (launchContents m c) main_arg3 (by decide)),
        (h c main_arg4).trans (arg_eq (launchContents m c) main_arg4 (by decide)),
        (h c main_arg5).trans (arg_eq (launchContents m c) main_arg5 (by decide))⟩)
    (run_seq scopedRefs_eq scopedSems_eq defs main (fun _ => opsAll) main_eq (fun _ => opsAll_sub) m ρ
      (fun _ => opsAll_fresh))

end Cert.ReferenceIdeal.RRun

end
-- ==== Proof.RefIndexMask.lean ====
/-
  The reference's 0/1 mask of the strictly lower triangle, read at a pair of coordinates and at a flat position.
  At `(i, j)` the program compares `i + (-1)` with `j` (signed, on 32-bit words), keeps `1.0` where `i - 1 ≥ j` and
  `0.0` elsewhere, and compares the kept number with `0.0`: the bit is `1` exactly when `j < i`.  Flattened row-major
  and widened to 32 bits, the word at flat position `q` is `1` when `q % 1024 < q / 1024` and `0` otherwise.
-/
import proofs.«109150_j81982335746216_1_alg».proof.Proof.RefStages
import proofs.«109150_j81982335746216_1_alg».proof.Proof.TriSpec
import Idealize.ShloMosaic.Lib.WordArith
import Idealize.ShloMosaic.PureOps.Ideal.Laws
import Idealize.ShloMosaic.Lib.ValueIdx

noncomputable section

namespace Cert.ReferenceIdeal.RefIndex

open Idealize.ShloMosaic Idealize.ShloMosaic.ValueIdx Cert.ReferenceIdeal

/-- The word `1.0` is the number one. -/
theorem ofBits_one_f32 : Ideal.ofBits .f32 0x3F800000#32 = 1 := by
  simp [Ideal.ofBits, Ideal.ieee, -EReal.coe_mul]; norm_num

/-- The signed comparison `a ≥ b` of two words, spelt out. -/
theorem cmpi_sge (a b : BitVec 32) : IntOp.cmpi .sge a b = BitVec.ofBool (b.sle a) := rfl

/-- `i - 1 ≥ j` on signed 32-bit words, for coordinates below 1024, is `j < i`. -/
theorem sge_pred (i j : ℕ) (hi : i < 1024) (hj : j < 1024) :
    IntOp.cmpi .sge (IntOp.addi (BitVec.ofNat 32 i) 4294967295#32) (BitVec.ofNat 32 j) = BitVec.ofBool (decide (j < i)) := by
  have e1 : (BitVec.ofNat 32 i).toInt = i := WordArith.toInt_ofNat_small i (by omega)
  have e2 : (BitVec.ofNat 32 j).toInt = j := WordArith.toInt_ofNat_small j (by omega)
  have e3 : (4294967295#32 : BitVec 32).toInt = -1 := by decide
  have e4 : (BitVec.ofNat 32 i + 4294967295#32).toInt = (i : Int) - 1 := by
    rw [WordArith.toInt_add_of_bounds _ _ (by rw [e1, e3]; omega) (by rw [e1, e3]; omega), e1, e3]; omega
  rw [cmpi_sge]
  unfold IntOp.addi
  refine congrArg BitVec.ofBool ?_
  rw [BitVec.sle_eq_decide, e2, e4]
  apply decide_eq_decide.2
  omega

/-- A scalar broadcast to any shape reads the scalar everywhere. -/
theorem bcast0_apply {α : Type} {t : Shape} (h : (⟨0, ![]⟩ : Shape).BroadcastsInDim t (![] : Fin 0 → Fin t.rank))
    (x : (⟨0, ![]⟩ : Shape).Idx → α) (j : t.Idx) : broadcastInDim t ![] h x j = x ix0 := by
  unfold broadcastInDim
  exact congrArg x (funext fun a => a.elim0)

variable [Facts]

/-- The mask at `(i, j)`: one exactly below the diagonal. -/
theorem mask_apply (i j : Fin 1024) :
    Stages.mask (F := Ideal) (ix2 i j) = BitVec.ofBool (decide (j.val < i.val)) := by
  unfold Stages.mask
  rw [cmpf_apply, select_apply, bcast0_apply, bcast0_apply, constant_apply, constant_apply]
  have hI : cmpi .sge (addi (iotaInDim S1024x1024 32 0)
        (broadcastInDim S1024x1024 ![] Facts₀.bcast_S_S1024x1024 (constantI S_ 32 4294967295#32))) (iotaInDim S1024x1024 32 1) (ix2 i j)
      = IntOp.cmpi .sge (IntOp.addi (BitVec.ofNat 32 i.val) 4294967295#32) (BitVec.ofNat 32 j.val) := by
    unfold cmpi addi iotaInDim
    rw [bcast0_apply]
    rfl
  rw [hI, sge_pred i.val j.val i.isLt j.isLt, ofBits_one_f32, Ideal.ofBits_zero_f32, Ideal.cmpf_def]
  by_cases h : j.val < i.val
  · simp [h, Scalar.select, Ideal.cmp]
  · simp [h, Scalar.select, Ideal.cmp]

/-- The flattened, widened mask: the 32-bit word at flat position `q`. -/
def words : IVec S1048576 32 :=
  extui 32 (shapeCast S1048576 (Stages.mask (F := Ideal)) Facts₀.shapeCasts_S1024x1024_S1048576) Facts₀.natLt_1_32

/-- The word at flat position `q` holds one when the position is below the diagonal, zero otherwise. -/
theorem words_toNat (q : Fin 1048576) : (words (ix1 q)).toNat = if Cert.Tri.below q.val then 1 else 0 := by
  have hc : shapeCast S1048576 (Stages.mask (F := Ideal)) Facts₀.shapeCasts_S1024x1024_S1048576 (ix1 q)
      = Stages.mask (F := Ideal) (ix2 (⟨q.val / 1024, by have := q.isLt; omega⟩ : Fin 1024) (⟨q.val % 1024, by omega⟩ : Fin 1024)) :=
    congrArg (Stages.mask (F := Ideal)) (Shape.reshapeEquiv_eq_of_rowMajor _ (by
      rw [Shape.rowMajor_val_two, Shape.rowMajor_val_one]
      show q.val / 1024 * 1024 + q.val % 1024 = q.val
      omega))
  show ((shapeCast S1048576 (Stages.mask (F := Ideal)) Facts₀.shapeCasts_S1024x1024_S1048576 (ix1 q)).setWidth 32).toNat = _
  rw [hc, mask_apply]
  unfold Cert.Tri.below
  by_cases h : q.val % 1024 < q.val / 1024
  · simp [h]
  · simp [h]

end Cert.ReferenceIdeal.RefIndex

end
-- ==== Proof.LibPrefixSum.lean ====
/-
  A running sum written as a padded window reduction.  `Host.reduceWindow IntOp.addi ![n] ![1] ![n-1] ![0] x v` over a
  rank-1 array of `n` 32-bit words, with a zero initial value, is at position `q` the sum of the words at positions
  `0 … q`, as a 32-bit word: the window of length `n` at result position `q` covers the padded positions
  `q … q + n - 1`, of which `k` lies inside the operand exactly when `n - 1 ≤ q + k`, and then reads the operand at
  `q + k - (n - 1)`.  The statement is over the natural numbers the words hold, modulo `2 ^ 32`.

  The file also holds the small general facts the proof goes through: a left fold of word additions is the initial
  word plus the list's sum (as values, modulo `2 ^ w`), and the indices of a
  rank-1 shape are its coordinates.
-/
import Idealize.ShloMosaic.PureOps.Contract
import Idealize.ShloMosaic.Lib.ValueIdx

open scoped BigOperators

namespace Cert.LibPrefixSum

open Idealize.ShloMosaic Idealize.ShloMosaic.ValueIdx

/-- A left fold of word additions holds the starting word's value plus the sum of the list's values, modulo `2 ^ w`. -/
theorem foldl_addi_toNat {ι : Type} {w : ℕ} (g : ι → BitVec w) (l : List ι) (v : BitVec w) :
    (l.foldl (fun r n => IntOp.addi r (g n)) v).toNat = (v.toNat + (l.map fun n => (g n).toNat).sum) % 2 ^ w := by
  induction l generalizing v with
  | nil => simp [Nat.mod_eq_of_lt v.isLt]
  | cons a l ih =>
    rw [List.foldl_cons, ih, List.map_cons, List.sum_cons]
    show ((v + g a).toNat + _) % 2 ^ w = _
    rw [BitVec.toNat_add, Nat.mod_add_mod, Nat.add_assoc]

/-- The indices of a rank-1 shape are its coordinates. -/
def idx1Equiv (n : ℕ) : Fin n ≃ (⟨1, ![n]⟩ : Shape).Idx where
  toFun := ix1
  invFun j := j 0
  left_inv _ := rfl
  right_inv j := (eq_ix1 j).symm

/-- A sum over the indices of a rank-1 shape is the sum over the coordinates. -/
theorem sum_idx1 {M : Type} [AddCommMonoid M] {n : ℕ} (f : (⟨1, ![n]⟩ : Shape).Idx → M) :
    ∑ j, f j = ∑ k : Fin n, f (ix1 k) :=
  ((idx1Equiv n).sum_comp f).symm

/-- A sum over the row-major positions of a shape is the sum over its indices. -/
theorem sum_rowMajor {M : Type} [AddCommMonoid M] (s : Shape) (f : s.Idx → M) :
    ∑ k : Fin s.numel, f (s.rowMajor.symm k) = ∑ j, f j :=
  s.rowMajor.symm.sum_comp f

/-- The positions of a window of length `n` at `q` that lie inside the operand, re-indexed by the operand position. -/
theorem sum_window (n q : ℕ) (hq : q < n) (f : ℕ → ℕ) :
    ∑ k ∈ Finset.range n, (if n - 1 ≤ q + k then f (q + k - (n - 1)) else 0) = ∑ q' ∈ Finset.range (q + 1), f q' := by
  rw [← Finset.sum_filter]
  apply Finset.sum_nbij' (fun k => q + k - (n - 1)) (fun q' => q' + (n - 1) - q)
  · intro k hk; simp only [Finset.mem_filter, Finset.mem_range] at hk ⊢; omega
  · intro q' hq'; simp only [Finset.mem_filter, Finset.mem_range] at hq' ⊢; omega
  · intro k hk; simp only [Finset.mem_filter, Finset.mem_range] at hk ⊢; omega
  · intro q' hq'; simp only [Finset.mem_filter, Finset.mem_range] at hq' ⊢; omega
  · intro k hk; rfl

/-- The word a window of length `n` at result position `q` reads at its position `j`: the operand at
    `q + j - (n - 1)` where that is inside, the zero word where it is padding. -/
def windowTerm (n : ℕ) (x : IVec ⟨1, ![n]⟩ 32) (q : Fin n) (j : (⟨1, ![n]⟩ : Shape).Idx) : BitVec 32 :=
  if hin : ∀ a : Fin 1, (![n - 1] : Fin 1 → ℕ) a ≤ (ix1 q (a.cast rfl)).val * (![1] : Fin 1 → ℕ) a + (j a).val ∧
      (ix1 q (a.cast rfl)).val * (![1] : Fin 1 → ℕ) a + (j a).val - (![n - 1] : Fin 1 → ℕ) a < (⟨1, ![n]⟩ : Shape).size a then
    x (fun a => ⟨(ix1 q (a.cast rfl)).val * (![1] : Fin 1 → ℕ) a + (j a).val - (![n - 1] : Fin 1 → ℕ) a, (hin a).2⟩)
  else 0#32

/-- The window's term at position `k`, by cases on whether that position is inside the operand. -/
theorem windowTerm_ix1 (n : ℕ) (x : IVec ⟨1, ![n]⟩ 32) (q k : Fin n) :
    windowTerm n x q (ix1 k)
      = if hc : n - 1 ≤ q.val + k.val then x (ix1 ⟨q.val + k.val - (n - 1), by have := q.isLt; have := k.isLt; omega⟩) else 0#32 := by
  unfold windowTerm
  have hiff : (∀ a : Fin 1, (![n - 1] : Fin 1 → ℕ) a ≤ (ix1 q (a.cast rfl)).val * (![1] : Fin 1 → ℕ) a + (ix1 k a).val ∧
      (ix1 q (a.cast rfl)).val * (![1] : Fin 1 → ℕ) a + (ix1 k a).val - (![n - 1] : Fin 1 → ℕ) a < (⟨1, ![n]⟩ : Shape).size a)
      ↔ n - 1 ≤ q.val + k.val := by
    rw [Fin.forall_fin_one]
    show (n - 1 ≤ q.val * 1 + k.val ∧ q.val * 1 + k.val - (n - 1) < n) ↔ _
    have := q.isLt; have := k.isLt
    constructor
    · intro h; omega
    · intro h; omega
  by_cases hc : n - 1 ≤ q.val + k.val
  · rw [dif_pos (hiff.2 hc), dif_pos hc]
    congr 1
    funext a
    match a with
    | ⟨0, _⟩ => exact Fin.ext (by show q.val * 1 + k.val - (n - 1) = q.val + k.val - (n - 1); omega)
  · rw [dif_neg (fun h => hc (hiff.1 h)), dif_neg hc]

/-- The running sum: a window reduction by addition, window `n`, stride one, padded `n - 1` low, of `n` words from a
    zero initial value holds at `q` the sum of the values at `0 … q` modulo `2 ^ 32`; `f` names the values. -/
theorem reduceWindow_cumsum_toNat (n : ℕ) (x : IVec ⟨1, ![n]⟩ 32) (v : IVec ⟨0, ![]⟩ 32)
    (h : (⟨1, ![n]⟩ : Shape).ReduceWindows ![n] ![1] ![n - 1] ![0] ⟨1, ![n]⟩) (hu : 0 < (⟨0, ![]⟩ : Shape).numel)
    (hv : v (Shape.Idx.first hu) = 0#32) (f : ℕ → ℕ) (hf : ∀ k : Fin n, (x (ix1 k)).toNat = f k.val) (q : Fin n) :
    (Host.reduceWindow IntOp.addi ![n] ![1] ![n - 1] ![0] x v h hu (ix1 q)).toNat
      = (∑ q' ∈ Finset.range (q.val + 1), f q') % 2 ^ 32 := by
  unfold Host.reduceWindow
  simp only
  rw [hv, foldl_addi_toNat, ← Fin.sum_univ_def]
  show ((0#32).toNat + ∑ i : Fin (⟨1, ![n]⟩ : Shape).numel, (windowTerm n x q ((⟨1, ![n]⟩ : Shape).rowMajor.symm i)).toNat) % 2 ^ 32 = _
  rw [sum_rowMajor (⟨1, ![n]⟩ : Shape) (fun j => (windowTerm n x q j).toNat), sum_idx1]
  have hterm : ∀ k : Fin n, (windowTerm n x q (ix1 k)).toNat = if n - 1 ≤ q.val + k.val then f (q.val + k.val - (n - 1)) else 0 := by
    intro k
    rw [windowTerm_ix1]
    by_cases hc : n - 1 ≤ q.val + k.val
    · rw [dif_pos hc, if_pos hc, hf]
    · rw [dif_neg hc, if_neg hc]; rfl
  rw [Finset.sum_congr rfl (fun k _ => hterm k)]
  rw [Fin.sum_univ_eq_sum_range (fun k => if n - 1 ≤ q.val + k then f (q.val + k - (n - 1)) else 0) n, sum_window n q.val q.isLt f]
  simp

end Cert.LibPrefixSum
-- ==== Proof.RefIndexCount.lean ====
/-
  The running count of the flattened mask, and the histogram's bins.  The window reduction over the 2^20 words is the
  running sum of the 0/1 words, so at flat position `q` it holds the number of positions up to `q` that lie below the
  diagonal.  That number is far below 2^31, so the clamp at zero and the wrap of a negative bin both leave it as it is.
-/
import proofs.«109150_j81982335746216_1_alg».proof.Proof.RefIndexMask
import proofs.«109150_j81982335746216_1_alg».proof.Proof.LibPrefixSum

noncomputable section

open scoped BigOperators

namespace Cert.ReferenceIdeal.RefIndex

open Idealize.ShloMosaic Idealize.ShloMosaic.ValueIdx Cert.ReferenceIdeal

/-- The running count never exceeds the number of positions counted. -/
theorem cnt_le_succ (q : ℕ) : Cert.Tri.cnt q ≤ q + 1 := by
  unfold Cert.Tri.cnt
  exact (Finset.card_filter_le _ _).trans (by rw [Finset.card_range])

/-- The running count as a sum of 0/1 indicators. -/
theorem cnt_eq_sum (q : ℕ) : Cert.Tri.cnt q = ∑ q' ∈ Finset.range (q + 1), (if Cert.Tri.below q' then 1 else 0) := by
  unfold Cert.Tri.cnt
  rw [Finset.card_filter]

variable [Facts]

/-- The running count of the mask's words at flat position `q`. -/
theorem count1_toNat (q : Fin 1048576) :
    (Stages.count1 (Stages.mask (F := Ideal)) (ix1 q)).toNat = Cert.Tri.cnt q.val := by
  have h := Cert.LibPrefixSum.reduceWindow_cumsum_toNat 1048576 words
    (broadcastInDim S_ ![] Facts₀.bcast_S_S_ (constantI S_ 32 0#32))
    Facts₀.reduceWindows_S1048576_S1048576_w1048576s1p1048575_0 Facts₀.h_S_
    (bcast0_apply _ _ _) (fun k => if Cert.Tri.below k then 1 else 0) words_toNat q
  rw [← cnt_eq_sum, Nat.mod_eq_of_lt (by have := cnt_le_succ q.val; have := q.isLt; omega)] at h
  exact h

/-- A word below 2^31 does not test negative. -/
theorem slt_zero_false (c : BitVec 32) (h : 2 * c.toNat < 2 ^ 32) : c.slt 0#32 = false := by
  rw [BitVec.slt_eq_decide, decide_eq_false_iff_not, BitVec.toInt_eq_toNat_of_lt h]
  show ¬ ((c.toNat : Int) < 0)
  omega

/-- The clamp of a word at zero, spelt out. -/
theorem maxsi_zero_def (c : BitVec 32) : IntOp.maxsi 0#32 c = if c.slt 0#32 then 0#32 else c := rfl
/-- The signed comparison `a < b` of two words, spelt out. -/
theorem cmpi_slt (a b : BitVec 32) : IntOp.cmpi .slt a b = BitVec.ofBool (a.slt b) := rfl

/-- The bin of a flat position whose running count is below 2^31 is that count. -/
theorem bins_apply (c1 : IVec S1048576 32) (q : Fin 1048576) (h : 2 * (c1 (ix1 q)).toNat < 2 ^ 32) :
    Stages.bins c1 (ix1 q) = c1 (ix1 q) := by
  have hs := slt_zero_false (c1 (ix1 q)) h
  have hm : maxsi (broadcastInDim S1048576 ![] Facts₀.bcast_S_S1048576 (id (constantI S_ 32 0#32))) c1 (ix1 q) = c1 (ix1 q) := by
    unfold maxsi
    rw [bcast0_apply]
    show IntOp.maxsi 0#32 (c1 (ix1 q)) = _
    rw [maxsi_zero_def, hs]
    rfl
  unfold Stages.bins
  simp only []
  rw [select_apply]
  have hc : cmpi .slt (maxsi (broadcastInDim S1048576 ![] Facts₀.bcast_S_S1048576 (id (constantI S_ 32 0#32))) c1)
      (broadcastInDim S1048576 ![] Facts₀.bcast_S_S1048576 (constantI S_ 32 0#32)) (ix1 q) = 0#1 := by
    unfold cmpi
    rw [hm, bcast0_apply]
    show IntOp.cmpi .slt (c1 (ix1 q)) 0#32 = _
    rw [cmpi_slt, hs]
    rfl
  rw [hc, select_zero, hm]

/-- The bins of the mask's running counts, read as integers. -/
theorem bins_toInt (q : Fin 1048576) :
    (Stages.bins (Stages.count1 (Stages.mask (F := Ideal))) (ix1 q)).toInt = (Cert.Tri.cnt q.val : Int) := by
  have hc := count1_toNat q
  have hb : 2 * (Stages.count1 (Stages.mask (F := Ideal)) (ix1 q)).toNat < 2 ^ 32 := by
    rw [hc]; have := cnt_le_succ q.val; have := q.isLt; omega
  rw [bins_apply _ q hb, BitVec.toInt_eq_toNat_of_lt hb, hc]

/-- The histogram's running sum: position `p` holds the sum of the histogram's values up to `p`, modulo 2^32. -/
theorem flat_toNat (hx : IVec S523776 32) (f : ℕ → ℕ) (hf : ∀ v : Fin 523776, (hx (ix1 v)).toNat = f v.val) (p : Fin 523776) :
    (Stages.flat hx (ix1 p)).toNat = (∑ v ∈ Finset.range (p.val + 1), f v) % 2 ^ 32 :=
  Cert.LibPrefixSum.reduceWindow_cumsum_toNat 523776 hx
    (broadcastInDim S_ ![] Facts₀.bcast_S_S_ (constantI S_ 32 0#32))
    Facts₀.reduceWindows_S523776_S523776_w523776s1p523775_0 Facts₀.h_S_
    (bcast0_apply _ _ _) f hf p

end Cert.ReferenceIdeal.RefIndex

end
-- ==== Proof.LibHistogram.lean ====
/-
  An integer scatter-add read at an index.  The host's scatter is a left fold over the update positions; with an
  addition as its combiner the order does not matter, and the result at an operand index `i` is the operand's entry plus
  the sum of the updates whose line lands at `i`.  With every update a one, into zeros, that is a histogram: the number
  of lines landing at `i`.
-/
import Idealize.ShloMosaic.PureOps
import Idealize.ShloMosaic.Lib.ValueIdx

noncomputable section

namespace Cert.LibHistogram

open Idealize.ShloMosaic

/-- The host's scatter with wrapping addition as its combiner, read at an operand index: the operand's entry plus the sum
    (in the words' wrapping arithmetic) of the updates of the lines that land there, in the scatter's own order.
    Generic in the three shapes, the dimension numbers, the index width and the word width. -/
theorem scatter_addi_apply {s si u : Shape} {w wv : Nat} (d : ScatterDims s si u) (x : s.Idx → BitVec wv) (idx : IVec si w)
    (upd : u.Idx → BitVec wv) (i : s.Idx) :
    Host.scatter d IntOp.addi x idx upd i
      = x i + (((List.finRange u.numel).filter fun n => d.resultIdx? (u.rowMajor.symm n) idx = some i).map
          fun n => upd (u.rowMajor.symm n)).sum := by
  unfold Host.scatter
  generalize List.finRange u.numel = L
  induction L generalizing x with
  | nil => simp
  | cons n L ih =>
    rw [List.foldl_cons, ih]
    cases h : d.resultIdx? (u.rowMajor.symm n) idx with
    | none =>
      have : ¬ ((none : Option s.Idx) = some i) := by simp
      simp only [List.filter_cons, h, this, decide_false, Bool.false_eq_true, if_false]
    | some i0 =>
      by_cases hi : i = i0
      · subst hi
        simp only [List.filter_cons, h, decide_true, if_true, List.map_cons, List.sum_cons]
        show IntOp.addi (x i) (upd (u.rowMajor.symm n)) + _ = _
        show (x i + upd (u.rowMajor.symm n)) + _ = _
        exact BitVec.add_assoc _ _ _
      · have : ¬ (some i0 = some i) := fun e => hi (Option.some.inj e).symm
        simp only [List.filter_cons, h, this, decide_false, Bool.false_eq_true, if_false, if_neg hi]

/-- A list of ones sums, in wrapping arithmetic, to the word of its length. -/
theorem sum_map_one {κ : Type} {wv : Nat} (L : List κ) : (L.map fun _ => (1#wv : BitVec wv)).sum = BitVec.ofNat wv L.length := by
  induction L with
  | nil => simp
  | cons a L ih =>
    rw [List.map_cons, List.sum_cons, ih, List.length_cons]
    apply BitVec.eq_of_toNat_eq
    simp [BitVec.toNat_add, BitVec.toNat_ofNat, Nat.add_comm]

end Cert.LibHistogram

end
-- ==== Proof.RefIndexHist.lean ====
/-
  The histogram of the running counts.  Into 523776 zeros the reference adds a one at each flat position's bin; a bin
  outside `[0, 523776)` is dropped.  So the word at bin `v` is the number of flat positions whose bin, read as a signed
  integer, is `v` (at most 2^20 of them: no wrap).
-/
import proofs.«109150_j81982335746216_1_alg».proof.Proof.RefStages
import proofs.«109150_j81982335746216_1_alg».proof.Proof.LibHistogram
import Idealize.ShloMosaic.Lib.ValueIdx

noncomputable section

namespace Cert.ReferenceIdeal.RefIndex

open Idealize.ShloMosaic Idealize.ShloMosaic.ValueIdx Cert.ReferenceIdeal

/-- The number of positions of `List.finRange` that pass a test on their row-major index is the number of indices of the
    shape that pass it. -/
theorem length_filter_rowMajor (u : Shape) (P : u.Idx → Prop) [DecidablePred P] :
    ((List.finRange u.numel).filter fun n => decide (P (u.rowMajor.symm n))).length
      = (Finset.univ.filter fun j : u.Idx => P j).card := by
  rw [← List.toFinset_card_of_nodup ((List.nodup_finRange _).filter _), List.toFinset_filter, List.toFinset_finRange]
  refine Finset.card_equiv u.rowMajor.symm (fun n => ?_)
  simp only [Finset.mem_filter, Finset.mem_univ, true_and, decide_eq_true_eq]

/-- A flat index of the 2^20 positions from its one coordinate, as an equivalence. -/
def flatEquiv : Fin 1048576 ≃ S1048576.Idx where
  toFun := fun q => ix1 q
  invFun := fun j => j 0
  left_inv := fun _ => rfl
  right_inv := fun j => (eq_ix1 j).symm

variable [Facts]
open Facts₀

/-- Where line `q` of the histogram's scatter lands: at its bin, read signed, when that is inside `[0, 523776)`. -/
theorem lands_iff (bn : IVec S1048576 32) (q : Fin 1048576) (v : Fin 523776) :
    scatter_S523776_S1048576x1_S1048576_n_0_0_1.resultIdx? (ix1 q : S1048576.Idx)
        (broadcastInDim S1048576x1 ![0] bcast_S1048576_S1048576x1_0 bn) = some (ix1 v)
      ↔ (bn (ix1 q)).toInt = (v.val : Int) := by
  have hst : ∀ a : Fin S523776.rank, scatter_S523776_S1048576x1_S1048576_n_0_0_1.start (ix1 q : S1048576.Idx)
      (broadcastInDim S1048576x1 ![0] bcast_S1048576_S1048576x1_0 bn) a = (bn (ix1 q)).toInt := by
    intro a
    match a with
    | ⟨0, h0⟩ =>
      have hmem : (⟨0, h0⟩ : Fin S523776.rank) ∈ scatter_S523776_S1048576x1_S1048576_n_0_0_1.scatterDimsToOperandDims :=
        List.mem_singleton.mpr rfl
      unfold ScatterDims.start
      rw [dif_pos hmem]
      refine congrArg (fun z : S1048576.Idx => (bn z).toInt) ?_
      funext b
      match b with
      | ⟨0, _⟩ => rfl
  have hw : ∀ a : Fin S523776.rank, scatter_S523776_S1048576x1_S1048576_n_0_0_1.window (ix1 q : S1048576.Idx) a = 0 := by
    intro a
    match a with
    | ⟨0, _⟩ => rfl
  unfold ScatterDims.resultIdx?
  simp only [hst, hw]
  constructor
  · intro h
    split at h
    · next hin =>
      have := congrFun (Option.some.inj h) (0 : Fin 1)
      have hv := congrArg Fin.val this
      have h0 := (hin 0).1
      simp only [Nat.cast_zero, add_zero] at hv h0
      show (bn (ix1 q)).toInt = (v.val : Int)
      have : ((bn (ix1 q)).toInt.toNat : Int) = (bn (ix1 q)).toInt := Int.toNat_of_nonneg h0
      rw [← this]
      exact congrArg Nat.cast hv
    · exact absurd h (by simp)
  · intro h
    have hv := v.isLt
    rw [dif_pos (by
      intro a
      match a with
      | ⟨0, _⟩ =>
        simp only [Nat.cast_zero, add_zero, h]
        exact ⟨by omega, by show (v.val : Int) < (523776 : Nat); omega⟩)]
    refine congrArg some ?_
    funext a
    match a with
    | ⟨0, _⟩ =>
      apply Fin.ext
      show ((bn (ix1 q)).toInt + ((0 : Nat) : Int)).toNat = v.val
      rw [h]; simp

/-- The histogram at bin `v`: how many flat positions have that bin. -/
theorem hist_toNat (bn : IVec S1048576 32) (v : Fin 523776) :
    (Stages.hist bn (ix1 v)).toNat = (Finset.univ.filter fun q : Fin 1048576 => (bn (ix1 q)).toInt = (v.val : Int)).card := by
  unfold Stages.hist
  rw [Cert.LibHistogram.scatter_addi_apply]
  have hone : (fun n : Fin S1048576.numel => broadcastInDim S1048576 ![] bcast_S_S1048576 (constantI S_ 32 1#32) (S1048576.rowMajor.symm n))
      = fun _ => (1#32 : BitVec 32) := rfl
  rw [hone, Cert.LibHistogram.sum_map_one]
  have hzero : broadcastInDim S523776 ![] bcast_S_S523776 (constantI S_ 32 0#32) (ix1 v) = (0#32 : BitVec 32) := rfl
  rw [hzero, BitVec.zero_add, length_filter_rowMajor S1048576
    (fun j => scatter_S523776_S1048576x1_S1048576_n_0_0_1.resultIdx? j
      (broadcastInDim S1048576x1 ![0] bcast_S1048576_S1048576x1_0 bn) = some (ix1 v))]
  have hcard : (Finset.univ.filter fun j : S1048576.Idx => scatter_S523776_S1048576x1_S1048576_n_0_0_1.resultIdx? j
      (broadcastInDim S1048576x1 ![0] bcast_S1048576_S1048576x1_0 bn) = some (ix1 v)).card
      = (Finset.univ.filter fun q : Fin 1048576 => (bn (ix1 q)).toInt = (v.val : Int)).card := by
    refine (Finset.card_equiv flatEquiv (fun q => ?_)).symm
    simp only [Finset.mem_filter, Finset.mem_univ, true_and]
    exact (lands_iff bn q v).symm
  rw [hcard, BitVec.toNat_ofNat]
  apply Nat.mod_eq_of_lt
  calc (Finset.univ.filter fun q : Fin 1048576 => (bn (ix1 q)).toInt = (v.val : Int)).card
      ≤ (Finset.univ : Finset (Fin 1048576)).card := Finset.card_filter_le _ _
    _ = 1048576 := by simp
    _ < 2 ^ 32 := by norm_num

end Cert.ReferenceIdeal.RefIndex

end
-- ==== Proof.RefIndexDivMod.lean ====
/-
  Floor division and the sign-following remainder, as jax's outlined helpers spell them on 32-bit words, on a word that
  holds a small natural number: with a positive divisor they are the natural numbers' quotient and remainder.  So the row
  number of a flat position `q < 2^20` is `q / 1024` and its column number `q % 1024`.
-/
import proofs.«109150_j81982335746216_1_alg».proof.Proof.RefStages
import Idealize.ShloMosaic.Lib.Affine
import Idealize.ShloMosaic.Lib.WordArith
import Idealize.ShloMosaic.Lib.ValueIdx

noncomputable section

namespace Cert.ReferenceIdeal.RefIndex

open Idealize.ShloMosaic Idealize.ShloMosaic.ValueIdx Cert.ReferenceIdeal

/-- The sign of a word: 0, -1 or 1. -/
def sgnW (x : BitVec 32) : BitVec 32 := if x = 0 then 0 else if x.msb then -1 else 1

/-- Floor division of two words as the helper writes it: the truncating quotient, less one where the signs differ and
    the remainder is not zero. -/
def floorDivW (x n : BitVec 32) : BitVec 32 :=
  Scalar.select (IntOp.andi (IntOp.cmpi .ne (sgnW x) (sgnW n)) (IntOp.cmpi .ne (IntOp.remsi .host x n) 0#32))
    (IntOp.subi (IntOp.divsi .host x n) 1#32) (IntOp.divsi .host x n)

/-- The remainder with the divisor's sign as the helper writes it (a zero divisor replaced by one). -/
def pyRemW (x n : BitVec 32) : BitVec 32 :=
  Scalar.select
    (IntOp.andi
      (IntOp.cmpi .ne (IntOp.cmpi .slt (IntOp.remsi .host x (Scalar.select (IntOp.cmpi .eq n 0#32) 1#32 n)) 0#32)
        (IntOp.cmpi .slt (Scalar.select (IntOp.cmpi .eq n 0#32) 1#32 n) 0#32))
      (IntOp.cmpi .ne (IntOp.remsi .host x (Scalar.select (IntOp.cmpi .eq n 0#32) 1#32 n)) 0#32))
    (IntOp.addi (IntOp.remsi .host x (Scalar.select (IntOp.cmpi .eq n 0#32) 1#32 n)) (Scalar.select (IntOp.cmpi .eq n 0#32) 1#32 n))
    (IntOp.remsi .host x (Scalar.select (IntOp.cmpi .eq n 0#32) 1#32 n))

variable [Facts]

/-- The vector helper at a position is the word helper on that position's word. -/
theorem floorDiv_apply (x : IVec S523776 32) (b : BitVec 32) (p : Fin 523776) :
    Stages.floorDiv x (constantI S_ 32 b) (ix1 p) = floorDivW (x (ix1 p)) b := rfl

theorem pyRem_apply (x : IVec S523776 32) (b : BitVec 32) (p : Fin 523776) :
    Stages.pyRem x (constantI S_ 32 b) (ix1 p) = pyRemW (x (ix1 p)) b := rfl

omit [Facts] in
/-- A word below 2^31 does not test negative. -/
theorem slt_zero_of_small (v : BitVec 32) (h : 2 * v.toNat < 2 ^ 32) : IntOp.cmpi .slt v 0#32 = 0#1 := by
  have hm : v.msb = false := by rw [BitVec.msb_eq_false_iff_two_mul_lt]; exact h
  have : v.slt 0#32 = false := by
    rw [BitVec.slt_eq_decide, decide_eq_false_iff_not, BitVec.toInt_eq_toNat_of_lt h]
    show ¬ ((v.toNat : Int) < 0)
    omega
  simp only [IntOp.cmpi, this]; rfl

omit [Facts] in
/-- The signed quotient of a word below 2^31 by a positive literal below 2^31 is the natural quotient. -/
theorem toNat_divsi (u : ArithUnit) {x : BitVec 32} (hx : 2 * x.toNat < 2 ^ 32) (k : Nat) (hk : 0 < k) (hk' : 2 * k < 2 ^ 32) :
    (IntOp.divsi u x (BitVec.ofNat 32 k)).toNat = x.toNat / k := by
  have hkN : (BitVec.ofNat 32 k).toNat = k := by rw [BitVec.toNat_ofNat]; omega
  have hm : x.msb = false := by rw [BitVec.msb_eq_false_iff_two_mul_lt]; exact hx
  have hkm : (BitVec.ofNat 32 k).msb = false := by rw [BitVec.msb_eq_false_iff_two_mul_lt]; omega
  have hpos : 0 < (BitVec.ofNat 32 k).toInt := by rw [BitVec.toInt_eq_toNat_of_lt (by omega)]; omega
  unfold IntOp.divsi
  rw [if_neg (IntOp.not_corner_of_pos hpos), BitVec.sdiv_eq, hm, hkm]
  show (x / BitVec.ofNat 32 k).toNat = _
  rw [BitVec.toNat_udiv, hkN]

omit [Facts] in
/-- Floor division of a small natural by 1024 or by 1. -/
theorem toNat_floorDivW (x : BitVec 32) (hx : 2 * x.toNat < 2 ^ 32) (k : Nat) (hk : 0 < k) (hk' : 2 * k < 2 ^ 32)
    (hs : sgnW (BitVec.ofNat 32 k) = 1#32) : (floorDivW x (BitVec.ofNat 32 k)).toNat = x.toNat / k := by
  have hsel : IntOp.andi (IntOp.cmpi .ne (sgnW x) (sgnW (BitVec.ofNat 32 k)))
      (IntOp.cmpi .ne (IntOp.remsi .host x (BitVec.ofNat 32 k)) 0#32) ≠ 1#1 := by
    intro h
    obtain ⟨h1, h2⟩ := IntOp.andi_eq_one.mp h
    have hm : x.msb = false := by rw [BitVec.msb_eq_false_iff_two_mul_lt]; exact hx
    by_cases h0 : x = 0
    · subst h0
      have : IntOp.remsi .host (0#32) (BitVec.ofNat 32 k) = 0#32 := by
        rw [IntOp.remsi_eq_zero_iff .host (by decide) k hk hk']; exact ⟨0, by simp⟩
      have h2' : IntOp.cmpi .ne (IntOp.remsi .host (0#32) (BitVec.ofNat 32 k)) 0#32 = 1#1 := h2
      rw [this] at h2'
      revert h2'; decide
    · rw [hs] at h1
      have : sgnW x = 1#32 := by unfold sgnW; rw [if_neg h0, hm]; rfl
      rw [this] at h1
      revert h1; decide
  unfold floorDivW Scalar.select
  split
  · next h => exact absurd h hsel
  · exact toNat_divsi .host hx k hk hk'

omit [Facts] in
/-- The sign-following remainder of a small natural by 1024. -/
theorem toNat_pyRemW (x : BitVec 32) (hx : 2 * x.toNat < 2 ^ 32) : (pyRemW x 1024#32).toNat = x.toNat % 1024 := by
  have e2 : Scalar.select (IntOp.cmpi .eq (1024#32) 0#32) 1#32 (1024#32) = BitVec.ofNat 32 1024 := by decide
  have hr : (IntOp.remsi .host x (BitVec.ofNat 32 1024)).toNat = x.toNat % 1024 :=
    IntOp.toNat_remsi .host hx 1024 (by norm_num) (by norm_num)
  have hsmall : 2 * (IntOp.remsi .host x (BitVec.ofNat 32 1024)).toNat < 2 ^ 32 := by
    rw [hr]; have := Nat.mod_lt x.toNat (show 0 < 1024 by norm_num); omega
  have hneg := slt_zero_of_small _ hsmall
  have hk : IntOp.cmpi .slt (BitVec.ofNat 32 1024) 0#32 = 0#1 := by decide
  unfold pyRemW
  rw [e2, hneg, hk]
  have : IntOp.andi (IntOp.cmpi .ne (0#1) (0#1)) (IntOp.cmpi .ne (IntOp.remsi .host x (BitVec.ofNat 32 1024)) 0#32) ≠ 1#1 := by
    intro h
    have := (IntOp.andi_eq_one.mp h).1
    revert this; decide
  unfold Scalar.select
  split
  · next h => exact absurd h this
  · exact hr

/-- The row number of a flat position below 2^20 is its quotient by 1024. -/
theorem rowNo_toNat (fl : IVec S523776 32) (p : Fin 523776) (h : (fl (ix1 p)).toNat < 1048576) :
    (Stages.rowNo fl (ix1 p)).toNat = (fl (ix1 p)).toNat / 1024 := by
  unfold Stages.rowNo
  rw [pyRem_apply, toNat_pyRemW _ (by
    rw [floorDiv_apply, show (1024#32 : BitVec 32) = BitVec.ofNat 32 1024 from rfl,
      toNat_floorDivW _ (by omega) 1024 (by norm_num) (by norm_num) (by decide)]
    have := Nat.div_le_self (fl (ix1 p)).toNat 1024
    omega)]
  rw [floorDiv_apply, show (1024#32 : BitVec 32) = BitVec.ofNat 32 1024 from rfl,
    toNat_floorDivW _ (by omega) 1024 (by norm_num) (by norm_num) (by decide)]
  exact Nat.mod_eq_of_lt (by omega)

/-- The column number of a flat position below 2^20 is its remainder by 1024. -/
theorem colNo_toNat (fl : IVec S523776 32) (p : Fin 523776) (h : (fl (ix1 p)).toNat < 1048576) :
    (Stages.colNo fl (ix1 p)).toNat = (fl (ix1 p)).toNat % 1024 := by
  unfold Stages.colNo
  have e : (floorDivW (fl (ix1 p)) 1#32).toNat = (fl (ix1 p)).toNat := by
    rw [show (1#32 : BitVec 32) = BitVec.ofNat 32 1 from rfl,
      toNat_floorDivW _ (by omega) 1 (by norm_num) (by norm_num) (by decide), Nat.div_one]
  rw [pyRem_apply, toNat_pyRemW _ (by rw [floorDiv_apply, e]; omega), floorDiv_apply, e]

end Cert.ReferenceIdeal.RefIndex

end
-- ==== Proof.RefIndex.lean ====
/-
  The reference's index computation read over the natural numbers.  The mask's running count is `Tri.cnt`; the bins are
  those counts; the histogram of the bins is `Tri.hist`; its running sum is `Tri.flat`, the flat position of the p-th
  pair below the diagonal; and the row and column numbers of that pair are the quotient and the remainder of the flat
  position by 1024.
-/
import proofs.«109150_j81982335746216_1_alg».proof.Proof.RefIndexCount
import proofs.«109150_j81982335746216_1_alg».proof.Proof.RefIndexHist
import proofs.«109150_j81982335746216_1_alg».proof.Proof.RefIndexDivMod
import proofs.«109150_j81982335746216_1_alg».proof.Proof.TriFacts

noncomputable section

open scoped BigOperators

namespace Cert.ReferenceIdeal.RefIndex

open Idealize.ShloMosaic Idealize.ShloMosaic.ValueIdx Cert.ReferenceIdeal

variable [Facts]

/-- The histogram of the bins at `v`: the number of flat positions whose running count is `v`. -/
theorem hist_bins_toNat (v : Fin 523776) :
    (Stages.hist (Stages.bins (Stages.count1 (Stages.mask (F := Ideal)))) (ix1 v)).toNat = Cert.Tri.hist v.val := by
  rw [hist_toNat]
  unfold Cert.Tri.hist
  rw [Finset.card_filter, Finset.card_filter,
    ← Fin.sum_univ_eq_sum_range (fun q => if Cert.Tri.cnt q = v.val then 1 else 0) 1048576]
  refine Finset.sum_congr rfl fun q _ => ?_
  rw [bins_toInt q]
  simp only [Nat.cast_inj]

/-- The histogram's running sum at `p`: the flat position of pair number `p`. -/
theorem flat_hist_toNat (p : Fin 523776) (hlt : Cert.Tri.flat p.val < 2 ^ 32) :
    (Stages.flat (Stages.hist (Stages.bins (Stages.count1 (Stages.mask (F := Ideal))))) (ix1 p)).toNat = Cert.Tri.flat p.val := by
  rw [flat_toNat _ Cert.Tri.hist hist_bins_toNat p]
  unfold Cert.Tri.flat at hlt ⊢
  exact Nat.mod_eq_of_lt hlt

/-- The row number of pair number `p`. -/
theorem rowsI_toNat (hcnt : ∀ q, q < 1048576 → Cert.Tri.cnt q ≤ 523776) (hflat : ∀ p, p < 523776 → Cert.Tri.flat p < 1048576)
    (p : Fin 523776) : (Stages.rowsI (F := Ideal) (ix1 p)).toNat = Cert.Tri.flat p.val / 1024 := by
  have hp := hflat p.val p.isLt
  have hf := flat_hist_toNat p (by omega)
  unfold Stages.rowsI
  rw [rowNo_toNat _ p (by rw [hf]; exact hp), hf]

/-- The column number of pair number `p`. -/
theorem colsJ_toNat (hcnt : ∀ q, q < 1048576 → Cert.Tri.cnt q ≤ 523776) (hflat : ∀ p, p < 523776 → Cert.Tri.flat p < 1048576)
    (p : Fin 523776) : (Stages.colsJ (F := Ideal) (ix1 p)).toNat = Cert.Tri.flat p.val % 1024 := by
  have hp := hflat p.val p.isLt
  have hf := flat_hist_toNat p (by omega)
  unfold Stages.colsJ
  rw [colNo_toNat _ p (by rw [hf]; exact hp), hf]

/-- The row number of pair number `p`, the two bounds on the numbering supplied. -/
theorem rowsI_toNat' (p : Fin 523776) : (Stages.rowsI (F := Ideal) (ix1 p)).toNat = Cert.Tri.flat p.val / 1024 :=
  rowsI_toNat Cert.Tri.cnt_le Cert.Tri.flat_lt p

/-- The column number of pair number `p`, the two bounds on the numbering supplied. -/
theorem colsJ_toNat' (p : Fin 523776) : (Stages.colsJ (F := Ideal) (ix1 p)).toNat = Cert.Tri.flat p.val % 1024 :=
  colsJ_toNat Cert.Tri.cnt_le Cert.Tri.flat_lt p

end Cert.ReferenceIdeal.RefIndex

end
-- ==== Proof.LibRows.lean ====
/-
  Rows of a table gathered at, and accumulated into, integer row numbers.

  `x[idx]` of a table `x : [N, C]` (or `[N]`) at row numbers `idx : [E, 1]` reads, for edge `e`, the row whose number is
  `idx[e, 0]` read as a signed integer and clamped into `[0, N − 1]` (`rowOf`). A `segment_sum` of messages `upd : [E, C]`
  (or `[E]`) at row numbers `idx` adds, into row `d`, the messages of exactly those edges `e` whose number `idx[e, 0]`, read
  signed and NOT clamped, is `d` (`edgesInto`): an edge whose number is outside `[0, N)` is dropped. The three sums of
  one program — onto `[N]`, onto `[N, C]` for each width — run over the SAME set of edges, and for an edge of that set the
  clamped row is `d` itself.
-/
import Idealize.ShloMosaic.PureOps.Ideal
import Idealize.ShloMosaic.Lib.ValueIdx

noncomputable section

namespace Cert.Lib.Rows

open Idealize.ShloMosaic Idealize.ShloMosaic.ValueIdx

/-- The row a gather's start index selects: the word read signed, clamped into `[0, N − 1]`. -/
def rowOf (N : Nat) (hN : 0 < N) {w : Nat} (v : BitVec w) : Fin N := ⟨min v.toInt.toNat (N - 1), by omega⟩

/-- The edges a scatter sends to row `d`: those whose row number, read signed, is `d`. -/
def edgesInto {N E w : Nat} (idx : IVec ⟨2, ![E, 1]⟩ w) (d : Fin N) : Finset (Fin E) :=
  Finset.univ.filter fun e => (idx (ix2 e (0 : Fin 1))).toInt = (d.val : Int)

theorem mem_edgesInto {N E w : Nat} (idx : IVec ⟨2, ![E, 1]⟩ w) (d : Fin N) (e : Fin E) :
    e ∈ edgesInto idx d ↔ (idx (ix2 e (0 : Fin 1))).toInt = (d.val : Int) := by
  simp [edgesInto]

/-- For an edge sent to row `d`, the clamped row of the same number is `d`. -/
theorem rowOf_of_toInt {N : Nat} (hN : 0 < N) {w : Nat} (v : BitVec w) (d : Fin N) (h : v.toInt = (d.val : Int)) :
    rowOf N hN v = d := by
  apply Fin.ext
  show min v.toInt.toNat (N - 1) = d.val
  rw [h, Int.toNat_natCast]
  have := d.isLt
  omega

/-! ## Gathers -/

/-- The dimension numbers of `x[idx]` for a table `[N, C]` at row numbers `[E, 1]`. -/
abbrev gatherRowsDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- A gathered row, read at edge `e` and column `k`: the table at the clamped row of `idx[e, 0]`, column `k`. -/
theorem gatherRows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (gatherRowsDims N E C wf) x idx (ix2 e k) = x (ix2 (rowOf N hN (idx (ix2 e (0 : Fin 1)))) k) := by
  unfold Host.gather
  congr 1
  funext a
  refine Fin.ext ?_
  match a with
  | ⟨0, _⟩ =>
    show (gatherRowsDims N E C wf).start (ix2 e k) idx 0 + (gatherRowsDims N E C wf).batchCoord (ix2 e k) 0
      + (gatherRowsDims N E C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherRowsDims N E C wf).startIndexMap from List.mem_singleton.mpr rfl)]
    have hsi : (gatherRowsDims N E C wf).siIdx (ix2 e k) ⟨List.idxOf (0 : Fin 2) (gatherRowsDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (gatherRowsDims N E C wf).start (ix2 e k) idx 1 + (gatherRowsDims N E C wf).batchCoord (ix2 e k) 1
      + (gatherRowsDims N E C wf).offCoord (ix2 e k) 1 = k.val
    rw [GatherDims.batchCoord_eq_zero _ _ _ List.not_mem_nil]
    have hs : (gatherRowsDims N E C wf).start (ix2 e k) idx 1 = 0 := by
      unfold GatherDims.start
      rw [dif_neg (show (1 : Fin 2) ∉ ([0] : List (Fin 2)) by decide)]
    rw [hs]
    have ho : (gatherRowsDims N E C wf).offCoord (ix2 e k) 1 = k.val := by
      unfold GatherDims.offCoord
      rw [dif_pos ((GatherDims.mem_sKept _ _).mpr ⟨(show (1 : Fin 2) ∉ ([0] : List (Fin 2)) by decide), List.not_mem_nil⟩)]
      rfl
    rw [ho]
    omega

/-- The dimension numbers of `x[idx]` for a flat table `[N]` at row numbers `[E, 1]`. -/
abbrev gatherEltsDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- A gathered element, read at edge `e`: the table at the clamped row of `idx[e, 0]`. -/
theorem gatherElts_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (gatherEltsDims N E wf) x idx (ix1 e) = x (ix1 (rowOf N hN (idx (ix2 e (0 : Fin 1))))) := by
  unfold Host.gather
  congr 1
  funext a
  obtain rfl : a = 0 := Subsingleton.elim _ _
  refine Fin.ext ?_
  show (gatherEltsDims N E wf).start (ix1 e) idx 0 + (gatherEltsDims N E wf).batchCoord (ix1 e) 0
    + (gatherEltsDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gatherEltsDims N E wf).startIndexMap from List.mem_singleton.mpr rfl)]
  have hsi : (gatherEltsDims N E wf).siIdx (ix1 e) ⟨List.idxOf (0 : Fin 1) (gatherEltsDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## Accumulating scatters -/

/-- An axis is kept exactly when it is not listed. -/
theorem mem_kept {s : Shape} (axes : List (Fin s.rank)) (a : Fin s.rank) : a ∈ s.kept axes ↔ a ∉ axes := by
  simp [Shape.kept, List.mem_filter, List.mem_finRange]

/-- The dimension numbers of a `segment_sum` of rows `[E, C]` into `[N, C]` at row numbers `[E, 1]`. -/
abbrev scatterRowsDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section ScatterRows
variable {N E C w : Nat} (wf : ScatterDims.WF ⟨2, ![N, C]⟩ ⟨2, ![E, 1]⟩ ⟨2, ![E, C]⟩ [1] [0] [0] 1)
  (idx : IVec ⟨2, ![E, 1]⟩ w) (e : Fin E) (k : Fin C)

/-- On the row axis an update starts at its edge's row number, read signed. -/
theorem scatterRows_start0 : (scatterRowsDims N E C wf).start (ix2 e k) idx 0 = (idx (ix2 e (0 : Fin 1))).toInt := by
  unfold ScatterDims.start
  rw [dif_pos (show (0 : Fin 2) ∈ (scatterRowsDims N E C wf).scatterDimsToOperandDims from List.mem_singleton.mpr rfl)]
  have hsi : (scatterRowsDims N E C wf).siIdx (ix2 e k) ⟨List.idxOf (0 : Fin 2) (scatterRowsDims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis it starts at zero … -/
theorem scatterRows_start1 : (scatterRowsDims N E C wf).start (ix2 e k) idx 1 = 0 := by
  unfold ScatterDims.start
  rw [dif_neg (show (1 : Fin 2) ∉ ([0] : List (Fin 2)) by decide)]

/-- … the row axis has no window coordinate … -/
theorem scatterRows_window0 : (scatterRowsDims N E C wf).window (ix2 e k) 0 = 0 := by
  unfold ScatterDims.window
  rw [dif_neg (fun h => ((mem_kept _ _).mp h) (List.mem_singleton.mpr rfl))]

/-- … and the column axis has the update's column. -/
theorem scatterRows_window1 : (scatterRowsDims N E C wf).window (ix2 e k) 1 = k.val := by
  unfold ScatterDims.window
  rw [dif_pos ((mem_kept _ _).mpr (show (1 : Fin 2) ∉ ([0] : List (Fin 2)) by decide))]
  rfl

/-- WHERE AN UPDATE LANDS: update `(e, k)` lands on element `(d, k')` exactly when edge `e`'s row number, read signed,
    is `d` and the columns agree. -/
theorem scatterRows_resultIdx_iff (d : Fin N) (k' : Fin C) :
    (scatterRowsDims N E C wf).resultIdx? (ix2 e k) idx = some (ix2 d k')
      ↔ (idx (ix2 e (0 : Fin 1))).toInt = (d.val : Int) ∧ k = k' := by
  unfold ScatterDims.resultIdx?
  constructor
  · intro h
    by_cases hb : ∀ a, 0 ≤ (scatterRowsDims N E C wf).start (ix2 e k) idx a + (scatterRowsDims N E C wf).window (ix2 e k) a
        ∧ (scatterRowsDims N E C wf).start (ix2 e k) idx a + (scatterRowsDims N E C wf).window (ix2 e k) a < (⟨2, ![N, C]⟩ : Shape).size a
    · rw [dif_pos hb] at h
      have hf := Option.some.inj h
      have h0 : ((scatterRowsDims N E C wf).start (ix2 e k) idx 0 + ((scatterRowsDims N E C wf).window (ix2 e k) 0 : Nat)).toNat = d.val :=
        congrArg Fin.val (congrFun hf 0)
      have h1 : ((scatterRowsDims N E C wf).start (ix2 e k) idx 1 + ((scatterRowsDims N E C wf).window (ix2 e k) 1 : Nat)).toNat = k'.val :=
        congrArg Fin.val (congrFun hf 1)
      have hb0 := (hb 0).1
      rw [scatterRows_start0, scatterRows_window0] at h0 hb0
      rw [scatterRows_start1, scatterRows_window1] at h1
      exact ⟨by omega, Fin.ext (by omega)⟩
    · rw [dif_neg hb] at h
      exact absurd h (by simp)
  · rintro ⟨hv, rfl⟩
    have hb : ∀ a, 0 ≤ (scatterRowsDims N E C wf).start (ix2 e k) idx a + (scatterRowsDims N E C wf).window (ix2 e k) a
        ∧ (scatterRowsDims N E C wf).start (ix2 e k) idx a + (scatterRowsDims N E C wf).window (ix2 e k) a < (⟨2, ![N, C]⟩ : Shape).size a := by
      intro a
      match a with
      | ⟨0, _⟩ =>
        show 0 ≤ (scatterRowsDims N E C wf).start (ix2 e k) idx 0 + ((scatterRowsDims N E C wf).window (ix2 e k) 0 : Nat)
          ∧ (scatterRowsDims N E C wf).start (ix2 e k) idx 0 + ((scatterRowsDims N E C wf).window (ix2 e k) 0 : Nat) < (N : Int)
        rw [scatterRows_start0, scatterRows_window0, hv]
        have := d.isLt
        omega
      | ⟨1, _⟩ =>
        show 0 ≤ (scatterRowsDims N E C wf).start (ix2 e k) idx 1 + ((scatterRowsDims N E C wf).window (ix2 e k) 1 : Nat)
          ∧ (scatterRowsDims N E C wf).start (ix2 e k) idx 1 + ((scatterRowsDims N E C wf).window (ix2 e k) 1 : Nat) < (C : Int)
        rw [scatterRows_start1, scatterRows_window1]
        have := k.isLt
        omega
    rw [dif_pos hb]
    refine congrArg some (funext fun a => Fin.ext ?_)
    match a with
    | ⟨0, _⟩ =>
      show ((scatterRowsDims N E C wf).start (ix2 e k) idx 0 + ((scatterRowsDims N E C wf).window (ix2 e k) 0 : Nat)).toNat = d.val
      rw [scatterRows_start0, scatterRows_window0, hv]
      omega
    | ⟨1, _⟩ =>
      show ((scatterRowsDims N E C wf).start (ix2 e k) idx 1 + ((scatterRowsDims N E C wf).window (ix2 e k) 1 : Nat)).toNat = k.val
      rw [scatterRows_start1, scatterRows_window1]
      omega

/-- A `segment_sum` into `[N, C]`, read at `(d, k)`: what was there plus the messages, at column `k`, of the edges sent to
    row `d`. -/
theorem scatterAddRows_apply (x : (⟨2, ![N, C]⟩ : Shape).Idx → EReal) (upd : (⟨2, ![E, C]⟩ : Shape).Idx → EReal) (d : Fin N) :
    Ideal.hostScatterAdd (scatterRowsDims N E C wf) x idx upd (ix2 d k) = x (ix2 d k) + ∑ e ∈ edgesInto idx d, upd (ix2 e k) := by
  unfold Ideal.hostScatterAdd
  congr 1
  have key : ∀ j : (⟨2, ![E, C]⟩ : Shape).Idx, (scatterRowsDims N E C wf).resultIdx? j idx = some (ix2 d k) →
      (idx (ix2 (j 0) (0 : Fin 1))).toInt = (d.val : Int) ∧ j = ix2 (j 0) k := by
    intro j hj
    have h := (scatterRows_resultIdx_iff wf idx (j 0) (j 1) d k).mp
      ((congrArg (fun q => (scatterRowsDims N E C wf).resultIdx? q idx) (eq_ix2 j)).symm.trans hj)
    exact ⟨h.1, (eq_ix2 j).trans (congrArg (fun q : Fin C => (ix2 (j 0) q : (⟨2, ![E, C]⟩ : Shape).Idx)) h.2)⟩
  refine Finset.sum_bij' (fun j _ => j 0) (fun e _ => ix2 e k) ?_ ?_ ?_ ?_ ?_
  · intro j hj
    exact (mem_edgesInto idx d (j 0)).mpr (key j (Finset.mem_filter.mp hj).2).1
  · intro e he
    exact Finset.mem_filter.mpr ⟨Finset.mem_univ _,
      (scatterRows_resultIdx_iff wf idx e k d k).mpr ⟨(mem_edgesInto idx d e).mp he, rfl⟩⟩
  · intro j hj
    exact (key j (Finset.mem_filter.mp hj).2).2.symm
  · intro e _
    rfl
  · intro j hj
    exact congrArg upd (key j (Finset.mem_filter.mp hj).2).2

end ScatterRows

/-- The dimension numbers of a `segment_sum` of elements `[E]` into `[N]` at row numbers `[E, 1]`. -/
abbrev scatterEltsDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section ScatterElts
variable {N E w : Nat} (wf : ScatterDims.WF ⟨1, ![N]⟩ ⟨2, ![E, 1]⟩ ⟨1, ![E]⟩ [] [0] [0] 1)
  (idx : IVec ⟨2, ![E, 1]⟩ w) (e : Fin E)

theorem scatterElts_start0 : (scatterEltsDims N E wf).start (ix1 e) idx 0 = (idx (ix2 e (0 : Fin 1))).toInt := by
  unfold ScatterDims.start
  rw [dif_pos (show (0 : Fin 1) ∈ (scatterEltsDims N E wf).scatterDimsToOperandDims from List.mem_singleton.mpr rfl)]
  have hsi : (scatterEltsDims N E wf).siIdx (ix1 e) ⟨List.idxOf (0 : Fin 1) (scatterEltsDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem scatterElts_window0 : (scatterEltsDims N E wf).window (ix1 e) 0 = 0 := by
  unfold ScatterDims.window
  rw [dif_neg (fun h => ((mem_kept _ _).mp h) (List.mem_singleton.mpr rfl))]

/-- Update `e` lands on element `d` exactly when edge `e`'s row number, read signed, is `d`. -/
theorem scatterElts_resultIdx_iff (d : Fin N) :
    (scatterEltsDims N E wf).resultIdx? (ix1 e) idx = some (ix1 d) ↔ (idx (ix2 e (0 : Fin 1))).toInt = (d.val : Int) := by
  unfold ScatterDims.resultIdx?
  constructor
  · intro h
    by_cases hb : ∀ a, 0 ≤ (scatterEltsDims N E wf).start (ix1 e) idx a + (scatterEltsDims N E wf).window (ix1 e) a
        ∧ (scatterEltsDims N E wf).start (ix1 e) idx a + (scatterEltsDims N E wf).window (ix1 e) a < (⟨1, ![N]⟩ : Shape).size a
    · rw [dif_pos hb] at h
      have hf := Option.some.inj h
      have h0 : ((scatterEltsDims N E wf).start (ix1 e) idx 0 + ((scatterEltsDims N E wf).window (ix1 e) 0 : Nat)).toNat = d.val :=
        congrArg Fin.val (congrFun hf 0)
      have hb0 := (hb 0).1
      rw [scatterElts_start0, scatterElts_window0] at h0 hb0
      omega
    · rw [dif_neg hb] at h
      exact absurd h (by simp)
  · intro hv
    have hb : ∀ a, 0 ≤ (scatterEltsDims N E wf).start (ix1 e) idx a + (scatterEltsDims N E wf).window (ix1 e) a
        ∧ (scatterEltsDims N E wf).start (ix1 e) idx a + (scatterEltsDims N E wf).window (ix1 e) a < (⟨1, ![N]⟩ : Shape).size a := by
      intro a
      match a with
      | ⟨0, _⟩ =>
        show 0 ≤ (scatterEltsDims N E wf).start (ix1 e) idx 0 + ((scatterEltsDims N E wf).window (ix1 e) 0 : Nat)
          ∧ (scatterEltsDims N E wf).start (ix1 e) idx 0 + ((scatterEltsDims N E wf).window (ix1 e) 0 : Nat) < (N : Int)
        rw [scatterElts_start0, scatterElts_window0, hv]
        have := d.isLt
        omega
    rw [dif_pos hb]
    refine congrArg some (funext fun a => Fin.ext ?_)
    match a with
    | ⟨0, _⟩ =>
      show ((scatterEltsDims N E wf).start (ix1 e) idx 0 + ((scatterEltsDims N E wf).window (ix1 e) 0 : Nat)).toNat = d.val
      rw [scatterElts_start0, scatterElts_window0, hv]
      omega

/-- A `segment_sum` into `[N]`, read at `d`: what was there plus the messages of the edges sent to row `d`. -/
theorem scatterAddElts_apply (x : (⟨1, ![N]⟩ : Shape).Idx → EReal) (upd : (⟨1, ![E]⟩ : Shape).Idx → EReal) (d : Fin N) :
    Ideal.hostScatterAdd (scatterEltsDims N E wf) x idx upd (ix1 d) = x (ix1 d) + ∑ e ∈ edgesInto idx d, upd (ix1 e) := by
  unfold Ideal.hostScatterAdd
  congr 1
  refine Finset.sum_bij' (fun j _ => j 0) (fun e _ => ix1 e) ?_ ?_ ?_ ?_ ?_
  · intro j hj
    exact (mem_edgesInto idx d (j 0)).mpr ((scatterElts_resultIdx_iff wf idx (j 0) d).mp
      ((congrArg (fun q => (scatterEltsDims N E wf).resultIdx? q idx) (eq_ix1 j)).symm.trans (Finset.mem_filter.mp hj).2))
  · intro e he
    exact Finset.mem_filter.mpr ⟨Finset.mem_univ _, (scatterElts_resultIdx_iff wf idx e d).mpr ((mem_edgesInto idx d e).mp he)⟩
  · intro j _
    exact (eq_ix1 j).symm
  · intro e _
    rfl
  · intro j _
    exact congrArg upd (eq_ix1 j)

end ScatterElts

/-! ## Row numbers made nonnegative

`x[idx]` first turns a negative row number `v` into `v + N` (python's indexing from the end) and then gathers. For an edge
whose number, read signed, is a row `d` of the table, nothing changes. -/

/-- A row number that is a row of the table is not negative, so the python-style wrap leaves it alone. -/
theorem wrap_of_toInt (v c : BitVec 32) (d : Nat) (h : v.toInt = (d : Int)) :
    Scalar.select (IntOp.cmpi .slt v 0#32) (IntOp.addi v c) v = v := by
  have h0 : IntOp.cmpi .slt v 0#32 = 0#1 := by
    have hlt : ¬ v.toInt < 0 := by rw [h]; omega
    simp [IntOp.cmpi, BitVec.slt, hlt]
  rw [h0]
  exact if_neg (by decide)

end Cert.Lib.Rows

end
-- ==== Proof.RefValueGather.lean ====
/-
  The reference's row gathers, read at an index.

  The reference numbers the pairs below the diagonal and, for pair number `p`, takes row `I p` of the span table and
  row `J p` of the antecedent table. A row number arrives as a 32-bit word; python's indexing from the end adds the
  table's length to a negative one. A word whose unsigned value is below 1024 is not negative when read signed, so the
  wrap leaves it alone, the gather's clamp leaves it alone, and the gathered array at `(p, d)` is the table at
  `(I p, d)`.
-/
import proofs.«109150_j81982335746216_1_alg».proof.Proof.RefStages
import proofs.«109150_j81982335746216_1_alg».proof.Proof.LibRows
import Idealize.ShloMosaic.Lib.ValueIdx
import Idealize.ShloMosaic.Lib.Pipeline.Value

noncomputable section

namespace Cert.ReferenceIdeal.RefValue

open Cert.ReferenceIdeal Cert.ReferenceIdeal.Stages Idealize.ShloMosaic Idealize.ShloMosaic.ValueIdx

variable [Facts]

/-- A 32-bit word whose unsigned value is below 1024 reads, signed, as that value. -/
theorem toInt_of_toNat_lt (v : BitVec 32) (n : Nat) (hn : n < 1024) (h : v.toNat = n) : v.toInt = (n : Int) := by
  rw [BitVec.toInt_eq_toNat_of_lt (by omega), h]

/-- The wrapped column of row numbers at line `p`: the row number itself, when it is below 1024. -/
theorem wrapCol_apply (r : IVec S523776 32) (p : Fin 523776) (n : Nat) (hn : n < 1024) (h : (r (ix1 p)).toNat = n) :
    wrapCol r (ix2 p (0 : Fin 1)) = r (ix1 p) := by
  unfold wrapCol
  refine (broadcastInDim_apply _ _ _ (ix2 p (0 : Fin 1)) (ix1 p) ?_).trans ?_
  · intro a
    match a with
    | ⟨0, _⟩ =>
      show p.val = if (523776 : Nat) = 1 then 0 else p.val
      rw [if_neg (by decide)]
  · show Scalar.select (IntOp.cmpi .slt (r (ix1 p)) 0#32) (IntOp.addi (r (ix1 p)) 1024#32) (r (ix1 p)) = r (ix1 p)
    exact Cert.Lib.Rows.wrap_of_toInt _ _ n (toInt_of_toNat_lt _ n hn h)

/-- The gathered rows at `(p, d)`: the table at `(I p, d)`, when line `p`'s row number is `I p`. -/
theorem rowsOf_apply (x : FVec Ideal S1024x128 .f32) (r : IVec S523776 32) (I : Fin 523776 → Fin 1024)
    (hI : ∀ p : Fin 523776, (r (ix1 p)).toNat = (I p).val) (p : Fin 523776) (d : Fin 128) :
    rowsOf (F := Ideal) x r (ix2 p d) = x (ix2 (I p) d) := by
  unfold rowsOf
  refine (Cert.Lib.Rows.gatherRows_apply (N := 1024) (E := 523776) (C := 128) (by decide)
    Facts₀.gather_S1024x128_S523776x1_S523776x128_1_0_n_n_0_1_1128_wf x (wrapCol r) p d).trans ?_
  rw [wrapCol_apply r p (I p).val (I p).isLt (hI p)]
  rw [Cert.Lib.Rows.rowOf_of_toInt (by decide) (r (ix1 p)) (I p) (toInt_of_toNat_lt _ _ (I p).isLt (hI p))]

end Cert.ReferenceIdeal.RefValue

end
-- ==== Proof.RefValueScores.lean ====
/-
  The reference's arithmetic on one pair's gathered rows.

  For pair number `p` the reference lays the span's row, the antecedent's row and their difference side by side (384
  numbers), multiplies by `W` (384 × 128), adds the bias `b1` to every row, takes the larger of that and zero,
  multiplies by `W2` (128 × 1), adds the bias `b2`, and flattens the column of scores. Read at `p`, when the two
  gathered rows are row `i` of the span table and row `j` of the antecedent table, this is the closed form's score of
  the pair `(i, j)`: the concatenation is read by the band its column falls in, each product is the row-by-column sum,
  each broadcast reads the one entry it copies. Sums on the extended reals are sums in a commutative monoid: no order
  or grouping matters and no finiteness is used.
-/
import proofs.«109150_j81982335746216_1_alg».proof.Proof.RefStages
import proofs.«109150_j81982335746216_1_alg».proof.Proof.Spec
import Idealize.ShloMosaic.Lib.ValueIdx
import Idealize.ShloMosaic.Lib.IdealHost
import Idealize.ShloMosaic.Lib.KernelVsHost
import Idealize.ShloMosaic.Lib.StackMember
import Idealize.ShloMosaic.Lib.Pipeline.Value
import Idealize.ShloMosaic.PureOps.Ideal.Laws

noncomputable section

open scoped BigOperators

namespace Cert.ReferenceIdeal.RefValue

open Cert.ReferenceIdeal Cert.ReferenceIdeal.Stages Idealize.ShloMosaic Idealize.ShloMosaic.ValueIdx
  Idealize.ShloMosaic.StackMember Idealize.ShloMosaic.Ideal

variable [Facts]

/-- A splat of the zero word reads zero everywhere. -/
theorem zeros_apply {T : Shape} (h : S_.BroadcastsInDim T ![]) (j : T.Idx) :
    broadcastInDim T ![] h (constant (F := Ideal) S_ .f32 0x00000000#32) j = (0 : EReal) :=
  (broadcastInDim_scalar_apply h _ j).trans ((constant_apply _ _).trans ofBits_zero_f32)

/-- The first bias, cast to one row and copied down the rows, at `(p, c)`: its entry `c`. -/
theorem bias1_apply (b1 : FVec Ideal S128 .f32) (p : Fin 523776) (c : Fin 128) :
    broadcastInDim S523776x128 ![0, 1] Facts₀.bcast_S1x128_S523776x128_0_1
      (broadcastInDim S1x128 ![1] Facts₀.bcast_S128_S1x128_1 b1) (ix2 p c) = b1 (ix1 c) := by
  refine (broadcastInDim_oneRow_apply _ _ p c).trans ?_
  refine broadcastInDim_apply _ _ b1 (ix2 (0 : Fin 1) c) (ix1 c) ?_
  intro a
  match a with
  | ⟨0, _⟩ =>
    show c.val = if (128 : Nat) = 1 then 0 else c.val
    rw [if_neg (by decide)]

/-- The second bias, cast to one row and copied down the rows, at `(p, 0)`: its one entry. -/
theorem bias2_apply (b2 : FVec Ideal S1 .f32) (p : Fin 523776) :
    broadcastInDim S523776x1 ![0, 1] Facts₀.bcast_S1x1_S523776x1_0_1
      (broadcastInDim S1x1 ![1] Facts₀.bcast_S1_S1x1_1 b2) (ix2 p (0 : Fin 1)) = b2 (ix1 (0 : Fin 1)) := by
  refine (broadcastInDim_oneRow_apply _ _ p (0 : Fin 1)).trans ?_
  refine broadcastInDim_apply _ _ b2 (ix2 (0 : Fin 1) (0 : Fin 1)) (ix1 (0 : Fin 1)) ?_
  intro a
  match a with
  | ⟨0, _⟩ =>
    show (0 : Nat) = if (1 : Nat) = 1 then 0 else 0
    rw [if_pos rfl]

section OnePair
variable (si aj : FVec Ideal S523776x128 .f32) (X A : Fin 1024 → Fin 128 → EReal) (p : Fin 523776) (i j : Fin 1024)
  (hs : ∀ d : Fin 128, si (ix2 p d) = X i d) (ha : ∀ d : Fin 128, aj (ix2 p d) = A j d)

include hs ha

/-- The pair's features at column `k`: the span's row in the first band, the antecedent's in the second, their
    difference in the third. -/
theorem feats_apply (k : Fin 384) :
    concatenate S523776x384 (1 : Fin S523776x384.rank)
      [⟨S523776x128, si⟩, ⟨S523776x128, aj⟩, ⟨S523776x128, subf si aj⟩]
      Facts₀.concatenates_S523776x128_S523776x128_S523776x128_S523776x384_d1 (ix2 p k) = Cert.Spec.feats X A i j k := by
  unfold Cert.Spec.feats
  by_cases h1 : k.val < 128
  · rw [dif_pos h1]
    refine (concatenate_apply_piece (1 : Fin S523776x384.rank)
      [⟨S523776x128, si⟩, ⟨S523776x128, aj⟩, ⟨S523776x128, subf si aj⟩]
      Facts₀.concatenates_S523776x128_S523776x128_S523776x128_S523776x384_d1 (ix2 p k)
      0 (by show (0 : Nat) < 3; omega) S523776x128 si rfl rfl 0 rfl (ix2 p (⟨k.val, h1⟩ : Fin 128)) ?_ ?_).trans (hs _)
    · intro b hb
      match b with
      | ⟨0, _⟩ => rfl
      | ⟨1, _⟩ => exact absurd rfl hb
    · show 0 + k.val = k.val
      omega
  · rw [dif_neg h1]
    by_cases h2 : k.val < 256
    · rw [dif_pos h2]
      refine (concatenate_apply_piece (1 : Fin S523776x384.rank)
        [⟨S523776x128, si⟩, ⟨S523776x128, aj⟩, ⟨S523776x128, subf si aj⟩]
        Facts₀.concatenates_S523776x128_S523776x128_S523776x128_S523776x384_d1 (ix2 p k)
        1 (by show (1 : Nat) < 3; omega) S523776x128 aj rfl rfl 128 rfl (ix2 p (⟨k.val - 128, by omega⟩ : Fin 128)) ?_ ?_).trans (ha _)
      · intro b hb
        match b with
        | ⟨0, _⟩ => rfl
        | ⟨1, _⟩ => exact absurd rfl hb
      · show 128 + (k.val - 128) = k.val
        omega
    · rw [dif_neg h2]
      refine (concatenate_apply_piece (1 : Fin S523776x384.rank)
        [⟨S523776x128, si⟩, ⟨S523776x128, aj⟩, ⟨S523776x128, subf si aj⟩]
        Facts₀.concatenates_S523776x128_S523776x128_S523776x128_S523776x384_d1 (ix2 p k)
        2 (by show (2 : Nat) < 3; omega) S523776x128 (subf si aj) rfl rfl 256 rfl (ix2 p (⟨k.val - 256, by have := k.isLt; omega⟩ : Fin 128)) ?_ ?_).trans ?_
      · intro b hb
        match b with
        | ⟨0, _⟩ => rfl
        | ⟨1, _⟩ => exact absurd rfl hb
      · show 256 + (k.val - 256) = k.val
        omega
      · rw [subf_apply, hs, ha]

/-- THE SCORE OF ONE NUMBERED PAIR: the flat array of scores at `p` is the closed form's score of `(i, j)`. -/
theorem scores_apply (W : FVec Ideal S384x128 .f32) (b1 : FVec Ideal S128 .f32) (W2 : FVec Ideal S128x1 .f32)
    (b2 : FVec Ideal S1 .f32) :
    scores (F := Ideal) si aj W b1 W2 b2 (ix1 p)
      = Cert.Spec.rScore X A (Cert.Spec.arr2 W) (Cert.Spec.arr1 b1) (fun d => W2 (ix2 d (0 : Fin 1))) (b2 (ix1 (0 : Fin 1))) i j := by
  unfold scores
  dsimp only
  refine (shapeCast_apply _ _ (ix1 p) (ix2 p (0 : Fin 1)) ?_).trans ?_
  · rw [Shape.rowMajor_val_two, Shape.rowMajor_val_one]
    show p.val * 1 + 0 = p.val
    omega
  unfold Cert.Spec.rScore
  rw [addf_apply, bias2_apply]
  refine congrArg (· + b2 (ix1 (0 : Fin 1))) ?_
  refine (dotGeneral_plain_apply none _ W2 p (0 : Fin 1)).trans ?_
  refine Finset.sum_congr rfl fun c _ => ?_
  refine congrArg (· * W2 (ix2 c (0 : Fin 1))) ?_
  rw [maximumf_apply, zeros_apply, addf_apply, bias1_apply]
  unfold Cert.Spec.rPre
  refine congrArg (fun t => max (t + b1 (ix1 c)) 0) ?_
  refine (dotGeneral_plain_apply none _ W p c).trans ?_
  refine Finset.sum_congr rfl fun k _ => ?_
  rw [feats_apply si aj X A p i j hs ha k]
  rfl

end OnePair

end Cert.ReferenceIdeal.RefValue

end
-- ==== Proof.RefValueScatter.lean ====
/-
  A scatter that writes, read at an index, and the reference's final write of the scores.

  A scatter visits its update entries one after the other; a visit whose place falls outside the operand changes
  nothing, and with the combiner that returns the update a visit whose place is `i` replaces entry `i` by the update
  and leaves every other entry alone. So the result at `i` is the operand at `i` when no visit lands on `i`, and, when
  exactly one update entry lands on `i`, that update: after its visit the entry holds the update, and no later visit
  touches it. Both by induction on the list of visits, for any shapes and dimension numbers.

  The reference's final write has one update per numbered pair, placed at the (row, column) that the two columns of
  its index array hold. When pair `p`'s row and column numbers are `I p` and `J p`, update `p` lands on `(I p, J p)`;
  when `p ↦ (I p, J p)` is one to one, the result at `(i, j)` is pair `p`'s score if `(I p, J p) = (i, j)`, and the zero
  the operand holds if no pair has that place.
-/
import proofs.«109150_j81982335746216_1_alg».proof.Proof.RefStages
import proofs.«109150_j81982335746216_1_alg».proof.Proof.LibRows
import Idealize.ShloMosaic.Lib.ValueIdx
import Idealize.ShloMosaic.Lib.IdealHost
import Idealize.ShloMosaic.Lib.Pipeline.Value
import Idealize.ShloMosaic.PureOps.Ideal.Laws

noncomputable section

namespace Cert.ReferenceIdeal.RefValue

open Cert.ReferenceIdeal Cert.ReferenceIdeal.Stages Idealize.ShloMosaic Idealize.ShloMosaic.ValueIdx

/-! ## A writing scatter at pairwise distinct places -/

section Generic
variable {α : Type} {s si u : Shape} {w : Nat} (d : ScatterDims s si u) (idx : IVec si w) (upd : u.Idx → α)

/-- One visit of a writing scatter: update number `n` replaces the entry at its place, if it has one. -/
def visit (r : s.Idx → α) (n : Fin u.numel) : s.Idx → α :=
  match d.resultIdx? (u.rowMajor.symm n) idx with
  | some i => fun i' => if i' = i then upd (u.rowMajor.symm n) else r i'
  | none => r

/-- The writing scatter is the visits in row-major order. -/
theorem scatter_set_eq_foldl (x : s.Idx → α) :
    Host.scatter d (fun _ b => b) x idx upd = (List.finRange u.numel).foldl (visit d idx upd) x := by
  unfold Host.scatter
  refine congrArg (fun f => List.foldl f x (List.finRange u.numel)) (funext fun r => funext fun n => ?_)
  unfold visit
  cases d.resultIdx? (u.rowMajor.symm n) idx <;> rfl

/-- A visit that lands on `i` leaves the update there. -/
theorem visit_hit (r : s.Idx → α) (n : Fin u.numel) (i : s.Idx) (h : d.resultIdx? (u.rowMajor.symm n) idx = some i) :
    visit d idx upd r n i = upd (u.rowMajor.symm n) := by
  unfold visit
  rw [h]
  exact if_pos rfl

/-- A visit that does not land on `i` leaves entry `i` alone. -/
theorem visit_miss (r : s.Idx → α) (n : Fin u.numel) (i : s.Idx) (h : d.resultIdx? (u.rowMajor.symm n) idx ≠ some i) :
    visit d idx upd r n i = r i := by
  unfold visit
  generalize d.resultIdx? (u.rowMajor.symm n) idx = o at h
  cases o with
  | none => rfl
  | some i0 => exact if_neg (fun e => h (by rw [e]))

/-- Visits none of which lands on `i` leave entry `i` alone. -/
theorem foldl_miss (l : List (Fin u.numel)) (x : s.Idx → α) (i : s.Idx)
    (h : ∀ m ∈ l, d.resultIdx? (u.rowMajor.symm m) idx ≠ some i) :
    l.foldl (visit d idx upd) x i = x i := by
  induction l generalizing x with
  | nil => rfl
  | cons n l ih =>
    rw [List.foldl_cons, ih _ (fun m hm => h m (List.mem_cons_of_mem _ hm))]
    exact visit_miss d idx upd x n i (h n List.mem_cons_self)

/-- Visits of which only number `n0` lands on `i`, and it does: entry `i` ends as update `n0`. -/
theorem foldl_hit (l : List (Fin u.numel)) (x : s.Idx → α) (i : s.Idx) (n0 : Fin u.numel) (hmem : n0 ∈ l)
    (h0 : d.resultIdx? (u.rowMajor.symm n0) idx = some i)
    (huniq : ∀ m ∈ l, d.resultIdx? (u.rowMajor.symm m) idx = some i → m = n0) :
    l.foldl (visit d idx upd) x i = upd (u.rowMajor.symm n0) := by
  induction l generalizing x with
  | nil => exact absurd hmem List.not_mem_nil
  | cons n l ih =>
    rw [List.foldl_cons]
    by_cases hl : n0 ∈ l
    · exact ih _ hl (fun m hm => huniq m (List.mem_cons_of_mem _ hm))
    · have hn : n = n0 := by
        rcases List.mem_cons.mp hmem with e | e
        · exact e.symm
        · exact absurd e hl
      rw [foldl_miss d idx upd l _ i (fun m hm e => hl ((huniq m (List.mem_cons_of_mem _ hm) e) ▸ hm)), hn]
      exact visit_hit d idx upd x n0 i h0

/-- A writing scatter at an entry no update lands on: the operand's entry. -/
theorem scatter_set_miss (x : s.Idx → α) (i : s.Idx) (h : ∀ j : u.Idx, d.resultIdx? j idx ≠ some i) :
    Host.scatter d (fun _ b => b) x idx upd i = x i := by
  rw [scatter_set_eq_foldl]
  exact foldl_miss d idx upd _ x i (fun m _ => h _)

/-- A writing scatter at an entry exactly one update lands on: that update. -/
theorem scatter_set_hit (x : s.Idx → α) (i : s.Idx) (j0 : u.Idx) (h0 : d.resultIdx? j0 idx = some i)
    (huniq : ∀ j : u.Idx, d.resultIdx? j idx = some i → j = j0) :
    Host.scatter d (fun _ b => b) x idx upd i = upd j0 := by
  rw [scatter_set_eq_foldl]
  have key := foldl_hit d idx upd (List.finRange u.numel) x i (u.rowMajor j0) (List.mem_finRange _)
    (by rw [Equiv.symm_apply_apply]; exact h0)
    (fun m _ e => by rw [← huniq _ e, Equiv.apply_symm_apply])
  rw [key, Equiv.symm_apply_apply]

end Generic

/-! ## The reference's final write -/

section Pairs
variable [Facts]

/-- The final write's dimension numbers: scalar updates, both operand axes named by the two-component index. -/
abbrev pairDims : ScatterDims S1024x1024 S523776x2 S523776 := scatter_S1024x1024_S523776x2_S523776_n_01_01_1

variable (idx : IVec S523776x2 32) (p : Fin 523776)

/-- On the row axis update `p` starts at the first component of its index, read signed … -/
theorem pair_start0 : pairDims.start (ix1 p) idx 0 = (idx (ix2 p (0 : Fin 2))).toInt := by
  unfold ScatterDims.start
  rw [dif_pos (show (0 : Fin 2) ∈ pairDims.scatterDimsToOperandDims from List.mem_cons_self)]
  have hsi : pairDims.siIdx (ix1 p) ⟨List.idxOf (0 : Fin 2) pairDims.scatterDimsToOperandDims,
      List.idxOf_lt_length_iff.2 List.mem_cons_self⟩ = ix2 p (0 : Fin 2) := by
    funext b; refine Fin.ext ?_
    match b with
    | ⟨0, _⟩ => rfl
    | ⟨1, _⟩ => rfl
  rw [hsi]

/-- … on the column axis at the second. -/
theorem pair_start1 : pairDims.start (ix1 p) idx 1 = (idx (ix2 p (1 : Fin 2))).toInt := by
  unfold ScatterDims.start
  rw [dif_pos (show (1 : Fin 2) ∈ pairDims.scatterDimsToOperandDims from List.mem_cons_of_mem _ List.mem_cons_self)]
  have hsi : pairDims.siIdx (ix1 p) ⟨List.idxOf (1 : Fin 2) pairDims.scatterDimsToOperandDims,
      List.idxOf_lt_length_iff.2 (List.mem_cons_of_mem _ List.mem_cons_self)⟩ = ix2 p (1 : Fin 2) := by
    funext b; refine Fin.ext ?_
    match b with
    | ⟨0, _⟩ => rfl
    | ⟨1, _⟩ => rfl
  rw [hsi]

/-- A scalar update has no window coordinate on either axis. -/
theorem pair_window0 : pairDims.window (ix1 p) 0 = 0 := by
  unfold ScatterDims.window
  rw [dif_neg (show (0 : Fin 2) ∉ pairDims.sKept from fun h => ((Cert.Lib.Rows.mem_kept _ _).mp h) List.mem_cons_self)]

theorem pair_window1 : pairDims.window (ix1 p) 1 = 0 := by
  unfold ScatterDims.window
  rw [dif_neg (show (1 : Fin 2) ∉ pairDims.sKept from fun h => ((Cert.Lib.Rows.mem_kept _ _).mp h) (List.mem_cons_of_mem _ List.mem_cons_self))]

/-- WHERE UPDATE `p` LANDS: at (row, column), when its two index components, read signed, are a row and a column. -/
theorem pair_resultIdx (i j : Fin 1024) (h0 : (idx (ix2 p (0 : Fin 2))).toInt = (i.val : Int))
    (h1 : (idx (ix2 p (1 : Fin 2))).toInt = (j.val : Int)) :
    pairDims.resultIdx? (ix1 p) idx = some (ix2 i j) := by
  unfold ScatterDims.resultIdx?
  have hb : ∀ a, 0 ≤ pairDims.start (ix1 p) idx a + pairDims.window (ix1 p) a
      ∧ pairDims.start (ix1 p) idx a + pairDims.window (ix1 p) a < S1024x1024.size a := by
    intro a
    match a with
    | ⟨0, _⟩ =>
      show 0 ≤ pairDims.start (ix1 p) idx 0 + ((pairDims.window (ix1 p) 0 : Nat) : Int)
        ∧ pairDims.start (ix1 p) idx 0 + ((pairDims.window (ix1 p) 0 : Nat) : Int) < ((1024 : Nat) : Int)
      rw [pair_start0, pair_window0, h0]
      have := i.isLt
      omega
    | ⟨1, _⟩ =>
      show 0 ≤ pairDims.start (ix1 p) idx 1 + ((pairDims.window (ix1 p) 1 : Nat) : Int)
        ∧ pairDims.start (ix1 p) idx 1 + ((pairDims.window (ix1 p) 1 : Nat) : Int) < ((1024 : Nat) : Int)
      rw [pair_start1, pair_window1, h1]
      have := j.isLt
      omega
  rw [dif_pos hb]
  refine congrArg some (funext fun a => Fin.ext ?_)
  match a with
  | ⟨0, _⟩ =>
    show (pairDims.start (ix1 p) idx 0 + ((pairDims.window (ix1 p) 0 : Nat) : Int)).toNat = i.val
    rw [pair_start0, pair_window0, h0]
    omega
  | ⟨1, _⟩ =>
    show (pairDims.start (ix1 p) idx 1 + ((pairDims.window (ix1 p) 1 : Nat) : Int)).toNat = j.val
    rw [pair_start1, pair_window1, h1]
    omega

end Pairs

end Cert.ReferenceIdeal.RefValue

end
-- ==== Proof.RefValue.lean ====
/-
  The reference's result is the closed form.

  The reference numbers the pairs `(i, j)` with `j < i`, `p ↦ (I p, J p)`, gathers row `I p` of the span table and row
  `J p` of the antecedent table, scores each pair, and writes score `p` at `(I p, J p)` into an array of zeros. The
  numbering is only used through three facts: every numbered pair is below the diagonal, no place is numbered twice,
  and every place below the diagonal is numbered. Then the result at `(i, j)` with `j < i` is the score of the one pair
  numbered there, which is the closed form's score of `(i, j)`; and at `(i, j)` with `i ≤ j` no pair is numbered, so
  the zero stays.
-/
import proofs.«109150_j81982335746216_1_alg».proof.Proof.RefStages
import proofs.«109150_j81982335746216_1_alg».proof.Proof.Spec
import proofs.«109150_j81982335746216_1_alg».proof.Proof.RefValueGather
import proofs.«109150_j81982335746216_1_alg».proof.Proof.RefValueScores
import proofs.«109150_j81982335746216_1_alg».proof.Proof.RefValueScatter

noncomputable section

namespace Cert.ReferenceIdeal.RefValue

open Cert.ReferenceIdeal Cert.ReferenceIdeal.Stages Idealize.ShloMosaic Idealize.ShloMosaic.ValueIdx

variable [Facts]

/-! ## The index array of the final write -/

/-- The index array at `(p, 0)`: pair `p`'s row number, when it is below 1024. -/
theorem pairIdx_apply0 (r c : IVec S523776 32) (p : Fin 523776) (n : Nat) (hn : n < 1024) (h : (r (ix1 p)).toNat = n) :
    pairIdx r c (ix2 p (0 : Fin 2)) = r (ix1 p) := by
  unfold pairIdx
  refine (concatenate_pair_apply_left (1 : Fin S523776x2.rank) (wrapCol r) (wrapCol c)
    Facts₀.concatenates_S523776x1_S523776x1_S523776x2_d1 (ix2 p (0 : Fin 2)) rfl (ix2 p (0 : Fin 1)) ?_).trans
    (wrapCol_apply r p n hn h)
  intro b
  match b with
  | ⟨0, _⟩ => rfl
  | ⟨1, _⟩ => rfl

/-- The index array at `(p, 1)`: pair `p`'s column number, when it is below 1024. -/
theorem pairIdx_apply1 (r c : IVec S523776 32) (p : Fin 523776) (n : Nat) (hn : n < 1024) (h : (c (ix1 p)).toNat = n) :
    pairIdx r c (ix2 p (1 : Fin 2)) = c (ix1 p) := by
  unfold pairIdx
  refine (concatenate_pair_apply_right (1 : Fin S523776x2.rank) (wrapCol r) (wrapCol c)
    Facts₀.concatenates_S523776x1_S523776x1_S523776x2_d1 (ix2 p (1 : Fin 2)) rfl rfl (ix2 p (0 : Fin 1)) ?_ ?_).trans
    (wrapCol_apply c p n hn h)
  · intro b hb
    match b with
    | ⟨0, _⟩ => rfl
    | ⟨1, _⟩ => exact absurd rfl hb
  · show (0 : Nat) + 1 = 1
    rfl

/-! ## The final write at a place -/

section Write
variable (idx : IVec S523776x2 32) (sc : FVec Ideal S523776 .f32) (I J : Fin 523776 → Fin 1024)
  (h0 : ∀ p : Fin 523776, (idx (ix2 p (0 : Fin 2))).toInt = ((I p).val : Int))
  (h1 : ∀ p : Fin 523776, (idx (ix2 p (1 : Fin 2))).toInt = ((J p).val : Int))

include h0 h1

/-- At the place of pair `p`, when no other pair has that place: pair `p`'s score. -/
theorem result_hit (hinj : ∀ p p', I p = I p' → J p = J p' → p = p') (p : Fin 523776) :
    result (F := Ideal) idx sc (ix2 (I p) (J p)) = sc (ix1 p) := by
  unfold result
  refine scatter_set_hit pairDims idx sc _ (ix2 (I p) (J p)) (ix1 p)
    (pair_resultIdx idx p (I p) (J p) (h0 p) (h1 p)) ?_
  intro j' hj'
  obtain ⟨q, rfl⟩ : ∃ q : Fin 523776, j' = ix1 q := ⟨j' 0, eq_ix1 j'⟩
  rw [pair_resultIdx idx q (I q) (J q) (h0 q) (h1 q)] at hj'
  have e := Option.some.inj hj'
  have eI : I q = I p := congrFun e 0
  have eJ : J q = J p := congrFun e 1
  rw [hinj q p eI eJ]

/-- At a place no pair has: the zero the write started from. -/
theorem result_miss (i j : Fin 1024) (hno : ∀ p, ¬ (I p = i ∧ J p = j)) :
    result (F := Ideal) idx sc (ix2 i j) = (0 : EReal) := by
  unfold result
  refine (scatter_set_miss pairDims idx sc _ (ix2 i j) ?_).trans (zeros_apply _ _)
  intro j' hj'
  obtain ⟨q, rfl⟩ : ∃ q : Fin 523776, j' = ix1 q := ⟨j' 0, eq_ix1 j'⟩
  rw [pair_resultIdx idx q (I q) (J q) (h0 q) (h1 q)] at hj'
  have e := Option.some.inj hj'
  exact hno q ⟨congrFun e 0, congrFun e 1⟩

end Write

/-! ## The whole reference -/

/-- THE REFERENCE'S VALUE: given the pairs' row and column numbers `I`, `J` — every pair below the diagonal, no place
    twice, every place below the diagonal once — the reference's result is the closed form `Spec.outR`. -/
theorem refOut_eq (x a : FVec Ideal S1024x128 .f32) (W : FVec Ideal S384x128 .f32) (b1 : FVec Ideal S128 .f32)
    (W2 : FVec Ideal S128x1 .f32) (b2 : FVec Ideal S1 .f32)
    (I J : Fin 523776 → Fin 1024)
    (hI : ∀ p : Fin 523776, (Cert.ReferenceIdeal.Stages.rowsI (F := Ideal) (ix1 p)).toNat = (I p).val)
    (hJ : ∀ p : Fin 523776, (Cert.ReferenceIdeal.Stages.colsJ (F := Ideal) (ix1 p)).toNat = (J p).val)
    (hlt : ∀ p, J p < I p)
    (hinj : ∀ p p', I p = I p' → J p = J p' → p = p')
    (hsurj : ∀ i j : Fin 1024, j < i → ∃ p, I p = i ∧ J p = j) :
    Cert.ReferenceIdeal.Stages.refOut (F := Ideal) x a W b1 W2 b2 = Cert.Spec.outR x a W b1 W2 b2 := by
  unfold refOut
  generalize rowsI (F := Ideal) = R at hI ⊢
  generalize colsJ (F := Ideal) = C at hJ ⊢
  have h0 : ∀ p : Fin 523776, (pairIdx R C (ix2 p (0 : Fin 2))).toInt = ((I p).val : Int) := fun p => by
    rw [pairIdx_apply0 R C p (I p).val (I p).isLt (hI p)]
    exact toInt_of_toNat_lt _ _ (I p).isLt (hI p)
  have h1 : ∀ p : Fin 523776, (pairIdx R C (ix2 p (1 : Fin 2))).toInt = ((J p).val : Int) := fun p => by
    rw [pairIdx_apply1 R C p (J p).val (J p).isLt (hJ p)]
    exact toInt_of_toNat_lt _ _ (J p).isLt (hJ p)
  funext ix
  obtain ⟨i, j, rfl⟩ : ∃ (i j : Fin 1024), ix = ix2 i j := ⟨ix 0, ix 1, eq_ix2 ix⟩
  unfold Cert.Spec.outR Cert.Spec.out
  show _ = if j.val < i.val then Cert.Spec.rScore (Cert.Spec.arr2 x) (Cert.Spec.arr2 a) (Cert.Spec.arr2 W) (Cert.Spec.arr1 b1)
    (fun d => W2 (ix2 d (0 : Fin 1))) (b2 (ix1 (0 : Fin 1))) i j else 0
  by_cases hji : j < i
  · obtain ⟨p, rfl, rfl⟩ := hsurj i j hji
    rw [if_pos (show (J p).val < (I p).val from hji), result_hit _ _ I J h0 h1 hinj p]
    exact scores_apply _ _ (Cert.Spec.arr2 x) (Cert.Spec.arr2 a) p (I p) (J p)
      (fun d => rowsOf_apply x R I hI p d) (fun d => rowsOf_apply a C J hJ p d) W b1 W2 b2
  · rw [if_neg (show ¬ j.val < i.val from hji)]
    exact result_miss _ _ I J h0 h1 i j (fun p hp => hji (hp.1 ▸ hp.2 ▸ hlt p))

end Cert.ReferenceIdeal.RefValue

end
-- ==== Proof.lean ====
/-
  The certificate's five claims for a pairwise scorer over 1024 spans with 128 features.

  The kernel tiles the 1024 × 1024 result into 128 × 128 blocks; block (bi, bj) holds, at (r, c), the score of span
  128·bi + r against antecedent 128·bj + c when the column is strictly below the row, and zero otherwise.  The score is a
  two-layer perceptron of the features [x i | a j | x i - a j]; the kernel splits the first layer's 384 × 128 weights into
  three bands Ws, Wa, Wd and computes the hidden layer as x i · (Ws + Wd) + a j · (Wa - Wd) + b1 (Cert.Spec.outK).
  The reference numbers the pairs j < i in row-major order, gathers the two rows of every pair, computes the same
  perceptron with the unsplit weights, and writes each score at its (row, column) into an array of zeros
  (Cert.Spec.outR); the pairs' numbering is jax's tril_indices: a running count of the triangle's 0/1 mask, a histogram
  of the running counts, the histogram's running count, split by 1024 into a row and a column (Cert.Tri).

  For real inputs (the precondition: every input finite) the two hidden layers agree by distributivity, so the two
  closed forms are one function (Cert.Spec.outK_eq_outR); both programs are read at the extended reals, where the law
  would fail at the infinities, so the precondition is used.  The three frame claims come with the runs; the
  idealization rewrote nothing.
-/
import proofs.«109150_j81982335746216_1_alg».proof.Defs
import proofs.«109150_j81982335746216_1_alg».proof.Proof.Gen.Kernel
import proofs.«109150_j81982335746216_1_alg».proof.Proof.Gen.KernelIdeal
import proofs.«109150_j81982335746216_1_alg».proof.Proof.Gen.ReferenceIdeal
import proofs.«109150_j81982335746216_1_alg».proof.Proof.Gen.Pre_finite_inputs
import proofs.«109150_j81982335746216_1_alg».proof.Proof.KernelFrameP
import proofs.«109150_j81982335746216_1_alg».proof.Proof.KernelIdealFrameP
import proofs.«109150_j81982335746216_1_alg».proof.Proof.Spec
import proofs.«109150_j81982335746216_1_alg».proof.Proof.RefStages
import proofs.«109150_j81982335746216_1_alg».proof.Proof.TriSpec
import proofs.«109150_j81982335746216_1_alg».proof.Proof.TriFacts
import proofs.«109150_j81982335746216_1_alg».proof.Proof.Algebra
import proofs.«109150_j81982335746216_1_alg».proof.Proof.Finite
import proofs.«109150_j81982335746216_1_alg».proof.Proof.KernelValue
import proofs.«109150_j81982335746216_1_alg».proof.Proof.RefRun
import proofs.«109150_j81982335746216_1_alg».proof.Proof.RefIndex
import proofs.«109150_j81982335746216_1_alg».proof.Proof.RefValue
import Idealize.ShloMosaic.Lib.ValueIdx

noncomputable section

open Idealize.ShloMosaic Idealize.ShloMosaic.TcCoe Idealize.SL.Sem Idealize.ShloMosaic.ValueIdx

/-! ## The pairs' row and column numbers are the numbering of the lower triangle -/

namespace Cert.Proof.Bridge

/-- The row of pair number `p`. -/
def rowOf (p : Fin 523776) : Fin 1024 :=
  ⟨Cert.Tri.flat p.val / 1024, by have := Cert.Tri.flat_lt p.val p.isLt; omega⟩
/-- The column of pair number `p`. -/
def colOf (p : Fin 523776) : Fin 1024 := ⟨Cert.Tri.flat p.val % 1024, Nat.mod_lt _ (by norm_num)⟩

theorem col_lt_row (p : Fin 523776) : colOf p < rowOf p := Cert.Tri.flat_below p.val p.isLt

theorem pair_inj (p p' : Fin 523776) (hr : rowOf p = rowOf p') (hc : colOf p = colOf p') : p = p' := by
  have h1 : Cert.Tri.flat p.val / 1024 = Cert.Tri.flat p'.val / 1024 := congrArg Fin.val hr
  have h2 : Cert.Tri.flat p.val % 1024 = Cert.Tri.flat p'.val % 1024 := congrArg Fin.val hc
  have h3 : Cert.Tri.flat p.val = Cert.Tri.flat p'.val := by
    rw [← Nat.div_add_mod (Cert.Tri.flat p.val) 1024, ← Nat.div_add_mod (Cert.Tri.flat p'.val) 1024, h1, h2]
  have h4 := Cert.Tri.cnt_flat p.val p.isLt
  have h5 := Cert.Tri.cnt_flat p'.val p'.isLt
  rw [h3] at h4
  exact Fin.ext (by omega)

theorem pair_surj (i j : Fin 1024) (h : j < i) : ∃ p, rowOf p = i ∧ colOf p = j := by
  have hi := i.isLt
  have hj := j.isLt
  have hq : 1024 * i.val + j.val < 1048576 := by omega
  have hb : Cert.Tri.below (1024 * i.val + j.val) := by
    show (1024 * i.val + j.val) % 1024 < (1024 * i.val + j.val) / 1024
    have e1 : (1024 * i.val + j.val) % 1024 = j.val := by omega
    have e2 : (1024 * i.val + j.val) / 1024 = i.val := by omega
    rw [e1, e2]; exact h
  obtain ⟨hpos, hfl⟩ := Cert.Tri.flat_cnt _ hq hb
  have hle := Cert.Tri.cnt_le _ hq
  refine ⟨⟨Cert.Tri.cnt (1024 * i.val + j.val) - 1, by omega⟩, Fin.ext ?_, Fin.ext ?_⟩
  · show Cert.Tri.flat (Cert.Tri.cnt (1024 * i.val + j.val) - 1) / 1024 = i.val
    rw [hfl]; omega
  · show Cert.Tri.flat (Cert.Tri.cnt (1024 * i.val + j.val) - 1) % 1024 = j.val
    rw [hfl]; omega

/-- The reference's composed term is the reference's closed form. -/
theorem refOut_eq_outR (x a : FVec Ideal Cert.ReferenceIdeal.S1024x128 .f32) (W : FVec Ideal Cert.ReferenceIdeal.S384x128 .f32)
    (b1 : FVec Ideal Cert.ReferenceIdeal.S128 .f32) (W2 : FVec Ideal Cert.ReferenceIdeal.S128x1 .f32) (b2 : FVec Ideal Cert.ReferenceIdeal.S1 .f32) :
    Cert.ReferenceIdeal.Stages.refOut (F := Ideal) x a W b1 W2 b2 = Cert.Spec.outR x a W b1 W2 b2 :=
  Cert.ReferenceIdeal.RefValue.refOut_eq x a W b1 W2 b2 rowOf colOf
    (fun p => Cert.ReferenceIdeal.RefIndex.rowsI_toNat Cert.Tri.cnt_le Cert.Tri.flat_lt p)
    (fun p => Cert.ReferenceIdeal.RefIndex.colsJ_toNat Cert.Tri.cnt_le Cert.Tri.flat_lt p)
    col_lt_row pair_inj pair_surj

end Cert.Proof.Bridge

/-! ## The claims -/

namespace Cert.Proof

theorem frame_p : Cert.frame_Kernel := fun m ρ _ => Cert.Kernel.GenP.frame m ρ
theorem frame_pi : Cert.frame_KernelIdeal := fun m ρ _ => Cert.KernelIdeal.GenP.frame m ρ
theorem frame_ri : Cert.frame_ReferenceIdeal := fun m ρ _ =>
  (θ_run Cert.ReferenceIdeal.defs _ _).mono (fun _ h c => (h c).2) (Cert.ReferenceIdeal.RRun.run (F := Ideal) m ρ)

theorem preserves : Cert.preserves_Kernel_KernelIdeal := trivial

/-- Both runs end at one array: the kernel's at its closed form, the reference's at its own; the inputs are real
    numbers by the precondition, and for real inputs the two closed forms are one function. -/
theorem algebraic : Cert.algebraic_KernelIdeal_ReferenceIdeal := by
  intro m ρ m' ρ' hpre hagree
  refine ⟨_, Cert.KernelIdeal.KValue.run m ρ, ?_⟩
  refine (θ_run Cert.ReferenceIdeal.defs _ _).mono (fun _ h c => ⟨(h c).1.trans ?_, (h c).2⟩)
    (Cert.ReferenceIdeal.RRun.run (F := Ideal) m' ρ')
  obtain ⟨e0, e1, e2, e3, e4, e5⟩ := hagree c
  rw [e0, e1, e2, e3, e4, e5]
  obtain ⟨r0, r1, r2⟩ := Cert.Finite.reals_of_pre _ _ _ _ _ _ (hpre c)
  rw [Cert.Spec.outK_eq_outR _ _ _ _ _ _ r0 r1 r2]
  exact Cert.Proof.Bridge.refOut_eq_outR _ _ _ _ _ _

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
